-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S1x256 : Shape := ⟨2, ![1, 256]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x256 : Shape := ⟨2, ![16, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1x256 : S_.BroadcastsInDim S1x256 (![] : Fin 0 → Fin S1x256.rank)
  reducesTo_S1x256_S_d0_1 : S1x256.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x256 : S_.BroadcastsInDim S16x256 (![] : Fin 0 → Fin S16x256.rank)
  reducesTo_S16x256_S_d0_1 : S16x256.ReducesTo [0, 1] S_

variable [Facts]

def fn_part2 {F : FTy → Type} [FloatOps F] (main_arg7 : FVec F S16x256 .f32) (main_arg8 : FVec F S16 .f32) (main_v33 : IVec S_ 1) : IVec S_ 1 :=
  let main_v34 : FVec F S16x256 .f32 := Host.absf main_arg7
  let main_cst_12 : FVec F S_ .f32 := constant S_ .f32 0x7F800000#32
  let main_v35 : FVec F S16x256 .f32 := broadcastInDim S16x256 ![] bcast_S_S16x256 main_cst_12
  let main_v36 : IVec S16x256 1 := cmpf .olt main_v34 main_v35
  let main_c_13 : IVec S_ 1 := constantI S_ 1 1#1
  let main_v37 : IVec S_ 1 := (fun x v => Host.reduce IntOp.andi x v reducesTo_S16x256_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S64 .f32) (main_arg5 : FVec F S64x16 .f32) (main_arg6 : FVec F S16 .f32) (main_arg7 : FVec F S16x256 .f32) (main_arg8 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg5
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S1x256 .f32) (main_arg3 : FVec F S128x64 .f32) (main_arg4 : FVec F S64 .f32) (main_arg5 : FVec F S64x16 .f32) (main_arg6 : FVec F S16 .f32) (main_arg7 : FVec F S16x256 .f32) (main_arg8 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S1x256 : Shape := ⟨2, ![1, 256]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x256 : Shape := ⟨2, ![16, 256]⟩
abbrev S1x64 : Shape := ⟨2, ![1, 64]⟩
abbrev S10000x64 : Shape := ⟨2, ![10000, 64]⟩
abbrev S200x10000 : Shape := ⟨2, ![200, 10000]⟩
abbrev S200x64 : Shape := ⟨2, ![200, 64]⟩
abbrev S1x16 : Shape := ⟨2, ![1, 16]⟩
abbrev S256x16 : Shape := ⟨2, ![256, 16]⟩
abbrev S10000x16 : Shape := ⟨2, ![10000, 16]⟩
abbrev S200x16 : Shape := ⟨2, ![200, 16]⟩
abbrev S1 : Shape := ⟨1, ![1]⟩
abbrev S1x1 : Shape := ⟨2, ![1, 1]⟩

abbrev nBuf : Space → Nat
  | .hbm => 15
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x256, .f32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S16x256, .f32⟩
  | .hbm, ⟨8, _⟩ => ⟨S16, .f32⟩
  | .hbm, ⟨9, _⟩ => ⟨S1x64, .f32⟩
  | .hbm, ⟨10, _⟩ => ⟨S10000x64, .f32⟩
  | .hbm, ⟨11, _⟩ => ⟨S1x16, .f32⟩
  | .hbm, ⟨12, _⟩ => ⟨S256x16, .f32⟩
  | .hbm, ⟨13, _⟩ => ⟨S1x16, .f32⟩
  | .hbm, ⟨14, _⟩ => ⟨S1x16, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S128x64, .f32⟩
  | .local _ .vmem, ⟨4, _⟩ => ⟨S1x64, .f32⟩
  | .local _ .vmem, ⟨5, _⟩ => ⟨S200x64, .f32⟩
  | .local _ .vmem, ⟨6, _⟩ => ⟨S200x64, .f32⟩
  | .local _ .vmem, ⟨7, _⟩ => ⟨S10000x64, .f32⟩
  | .local _ .vmem, ⟨8, _⟩ => ⟨S200x10000, .f32⟩
  | .local _ .vmem, ⟨9, _⟩ => ⟨S200x10000, .f32⟩
  | .local _ .vmem, ⟨10, _⟩ => ⟨S10000x64, .f32⟩
  | .local _ .vmem, ⟨11, _⟩ => ⟨S64x16, .f32⟩
  | .local _ .vmem, ⟨12, _⟩ => ⟨S1x16, .f32⟩
  | .local _ .vmem, ⟨13, _⟩ => ⟨S1x256, .f32⟩
  | .local _ .vmem, ⟨14, _⟩ => ⟨S256x16, .f32⟩
  | .local _ .vmem, ⟨15, _⟩ => ⟨S1x16, .f32⟩
  | .local _ .vmem, ⟨16, _⟩ => ⟨S1x16, .f32⟩
  | .local _ .vmem, ⟨17, _⟩ => ⟨S10000x16, .f32⟩
  | .local _ .vmem, ⟨18, _⟩ => ⟨S1x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v19 : BitVec 1 := Scalar.cmpi .eq arg0 c49_i32
  let v20 : BitVec 32 := Scalar.extui v19
  let c0_i32_12 : BitVec 32 := 0#32
  let v21 : BitVec 1 := Scalar.cmpi .ne v20 c0_i32_12
  v21

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x10000_S200x10000_0_0 : ∀ a, (![0, 0] : Fin 2 → Nat) a + S200x10000.size a ≤ S200x10000.size a
  h_S200x10000 : 0 < S200x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  shapeCasts_S16_S1x16 : S16.ShapeCasts S1x16
  transposes_S16x256_S256x16_1_0 : S16x256.Transposes [1, 0] S256x16
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  reduces_S200x16_S16 : S200x16.Reduces [0] S16
  inb_S1x256_S1x256_0_0 : ∀ a, (![0, 0] : Fin 2 → Nat) a + S1x256.size a ≤ S1x256.size a
  h_S1x256 : 0 < S1x256.numel
  inb_S256x16_S256x16_0_0 : ∀ a, (![0, 0] : Fin 2 → Nat) a + S256x16.size a ≤ S256x16.size a
  h_S256x16 : 0 < S256x16.numel
  shapeCasts_S256x16_S256x16 : S256x16.ShapeCasts S256x16
  reduces_S1x16_S1 : S1x16.Reduces [1] S1
  shapeCasts_S1_S1x1 : S1.ShapeCasts S1x1
  broadcasts_S1x1_S1x16 : S1x1.Broadcasts S1x16
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S10000x64_S64x16_S10000x16_1_0_0_1_n_n_wf : DotDims.WF S10000x64 S64x16 S10000x16 [1] [0] [0] [1] [] []
  dot_S200x10000_S10000x16_S200x16_1_0_0_1_n_n_wf : DotDims.WF S200x10000 S10000x16 S200x16 [1] [0] [0] [1] [] []
  dot_S1x256_S256x16_S1x16_1_0_0_1_n_n_wf : DotDims.WF S1x256 S256x16 S1x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x64.size a ≤ S10000x64.size a
  hwx0_4 : ∀ i : grid0.Coords, EltTy.bits .f32 = 32 ∨ (Rect.block (s := S10000x64) S200x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x16.size a ≤ S256x16.size a
  hwx1_5 : ∀ i : grid1.Coords, EltTy.bits .f32 = 32 ∨ (Rect.block (s := S256x16) S256x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x16.size a ≤ S1x16.size a
  hwx1_7 : ∀ i : grid1.Coords, EltTy.bits .f32 = 32 ∨ (Rect.block (s := S1x16) S1x16.size (cc1_transform_7 i) (hinb1_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S200x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S256x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x16.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S1x256 : Shape := ⟨2, ![1, 256]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x256 : Shape := ⟨2, ![16, 256]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S256x16 : Shape := ⟨2, ![256, 16]⟩
abbrev S1 : Shape := ⟨1, ![1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x256, .f32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S16x256, .f32⟩
  | .hbm, ⟨8, _⟩ => ⟨S16, .f32⟩
  | .hbm, ⟨9, _⟩ => ⟨S10000x64, .f32⟩
  | .hbm, ⟨10, _⟩ => ⟨S10000x64, .f32⟩
  | .hbm, ⟨11, _⟩ => ⟨S1x64, .f32⟩
  | .hbm, ⟨12, _⟩ => ⟨S10000x64, .f32⟩
  | .hbm, ⟨13, _⟩ => ⟨S10000x64, .f32⟩
  | .hbm, ⟨14, _⟩ => ⟨S_, .f32⟩
  | .hbm, ⟨15, _⟩ => ⟨S10000x64, .f32⟩
  | .hbm, ⟨16, _⟩ => ⟨S10000x64, .f32⟩
  | .hbm, ⟨17, _⟩ => ⟨S10000x16, .f32⟩
  | .hbm, ⟨18, _⟩ => ⟨S10000x16, .f32⟩
  | .hbm, ⟨19, _⟩ => ⟨S1x16, .f32⟩
  | .hbm, ⟨20, _⟩ => ⟨S10000x16, .f32⟩
  | .hbm, ⟨21, _⟩ => ⟨S10000x16, .f32⟩
  | .hbm, ⟨22, _⟩ => ⟨S_, .f32⟩
  | .hbm, ⟨23, _⟩ => ⟨S10000x16, .f32⟩
  | .hbm, ⟨24, _⟩ => ⟨S10000x16, .f32⟩
  | .hbm, ⟨25, _⟩ => ⟨S_, .f32⟩
  | .hbm, ⟨26, _⟩ => ⟨S16, .f32⟩
  | .hbm, ⟨27, _⟩ => ⟨S1x16, .f32⟩
  | .hbm, ⟨28, _⟩ => ⟨S_, .f32⟩
  | .hbm, ⟨29, _⟩ => ⟨S1x16, .f32⟩
  | .hbm, ⟨30, _⟩ => ⟨S1x16, .f32⟩
  | .hbm, ⟨31, _⟩ => ⟨S_, .f32⟩
  | .hbm, ⟨32, _⟩ => ⟨S_, .f32⟩
  | .hbm, ⟨33, _⟩ => ⟨S1x16, .f32⟩
  | .hbm, ⟨34, _⟩ => ⟨S1x16, .i1⟩
  | .hbm, ⟨35, _⟩ => ⟨S_, .f32⟩
  | .hbm, ⟨36, _⟩ => ⟨S1x16, .f32⟩
  | .hbm, ⟨37, _⟩ => ⟨S1x16, .i1⟩
  | .hbm, ⟨38, _⟩ => ⟨S_, .f32⟩
  | .hbm, ⟨39, _⟩ => ⟨S_, .f32⟩
  | .hbm, ⟨40, _⟩ => ⟨S1x16, .f32⟩
  | .hbm, ⟨41, _⟩ => ⟨S1x16, .f32⟩
  | .hbm, ⟨42, _⟩ => ⟨S1x16, .f32⟩
  | .hbm, ⟨43, _⟩ => ⟨S_, .f32⟩
  | .hbm, ⟨44, _⟩ => ⟨S1x16, .f32⟩
  | .hbm, ⟨45, _⟩ => ⟨S1x16, .f32⟩
  | .hbm, ⟨46, _⟩ => ⟨S1x16, .f32⟩
  | .hbm, ⟨47, _⟩ => ⟨S_, .f32⟩
  | .hbm, ⟨48, _⟩ => ⟨S1x16, .f32⟩
  | .hbm, ⟨49, _⟩ => ⟨S1x16, .f32⟩
  | .hbm, ⟨50, _⟩ => ⟨S256x16, .f32⟩
  | .hbm, ⟨51, _⟩ => ⟨S1x16, .f32⟩
  | .hbm, ⟨52, _⟩ => ⟨S1x16, .f32⟩
  | .hbm, ⟨53, _⟩ => ⟨S1x16, .f32⟩
  | .hbm, ⟨54, _⟩ => ⟨S_, .f32⟩
  | .hbm, ⟨55, _⟩ => ⟨S1x16, .f32⟩
  | .hbm, ⟨56, _⟩ => ⟨S1x16, .f32⟩
  | .hbm, ⟨57, _⟩ => ⟨S1x16, .f32⟩
  | .hbm, ⟨58, _⟩ => ⟨S_, .f32⟩
  | .hbm, ⟨59, _⟩ => ⟨S1, .f32⟩
  | .hbm, ⟨60, _⟩ => ⟨S_, .f32⟩
  | .hbm, ⟨61, _⟩ => ⟨S1, .f32⟩
  | .hbm, ⟨62, _⟩ => ⟨S1, .f32⟩
  | .hbm, ⟨63, _⟩ => ⟨S1x1, .f32⟩
  | .hbm, ⟨64, _⟩ => ⟨S1x16, .f32⟩
  | .hbm, ⟨65, _⟩ => ⟨S1x16, .f32⟩
  | .hbm, ⟨66, _⟩ => ⟨S1x16, .f32⟩
  | .hbm, ⟨67, _⟩ => ⟨S_, .f32⟩
  | .hbm, ⟨68, _⟩ => ⟨S1, .f32⟩
  | .hbm, ⟨69, _⟩ => ⟨S1x1, .f32⟩
  | .hbm, ⟨70, _⟩ => ⟨S1x1, .f32⟩
  | .hbm, ⟨71, _⟩ => ⟨S1x16, .f32⟩
  | .hbm, ⟨72, _⟩ => ⟨S1x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_call2_cst : Ref sig .tc := ⟨.hbm, 31, rfl⟩
abbrev main_call2_call0_cst : Ref sig .tc := ⟨.hbm, 32, rfl⟩
abbrev main_call2_call0_v0 : Ref sig .tc := ⟨.hbm, 33, rfl⟩
abbrev main_call2_call0_v1 : Ref sig .tc := ⟨.hbm, 34, rfl⟩
abbrev main_call2_call0_cst_0 : Ref sig .tc := ⟨.hbm, 35, rfl⟩
abbrev main_call2_call0_v2 : Ref sig .tc := ⟨.hbm, 36, rfl⟩
abbrev main_call2_call0_v3 : Ref sig .tc := ⟨.hbm, 37, rfl⟩
abbrev main_call2_call0_cst_1 : Ref sig .tc := ⟨.hbm, 38, rfl⟩
abbrev main_call2_call0_call0_v0 : Ref sig .tc := ⟨.hbm, 39, rfl⟩
abbrev main_call2_call0_call0_v1 : Ref sig .tc := ⟨.hbm, 40, rfl⟩
abbrev main_call2_call0_v4 : Ref sig .tc := ⟨.hbm, 41, rfl⟩
abbrev main_call2_call0_v5 : Ref sig .tc := ⟨.hbm, 42, rfl⟩
abbrev main_call2_call0_v6 : Ref sig .tc := ⟨.hbm, 43, rfl⟩
abbrev main_call2_call0_v7 : Ref sig .tc := ⟨.hbm, 44, rfl⟩
abbrev main_call2_call0_v8 : Ref sig .tc := ⟨.hbm, 45, rfl⟩
abbrev main_call2_v0 : Ref sig .tc := ⟨.hbm, 46, rfl⟩
abbrev main_call2_cst_0 : Ref sig .tc := ⟨.hbm, 47, rfl⟩
abbrev main_call2_v1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_1 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_call3_cst : Ref sig .tc := ⟨.hbm, 58, rfl⟩
abbrev main_call3_v0 : Ref sig .tc := ⟨.hbm, 59, rfl⟩
abbrev main_call3_cst_0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_v6 : Ref sig .tc := ⟨.hbm, 66, rfl⟩
abbrev main_call3_cst_1 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_v24 : Ref sig .tc := ⟨.hbm, 72, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x16_S16_d0 : S10000x16.ReducesTo [0] S16
  h_S_ : 0 < S_.numel
  bcast_S_S1x16 : S_.BroadcastsInDim S1x16 (![] : Fin 0 → Fin S1x16.rank)
  transposes_S16x256_S256x16_1_0 : S16x256.Transposes [1, 0] S256x16
  reducesTo_S1x16_S1_d1 : S1x16.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x16_0_1 : S1x1.BroadcastsInDim S1x16 (![0, 1] : Fin 2 → Fin S1x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []
  dot_S1x256_S256x16_S1x16_1_0_0_1_n_n_wf : DotDims.WF S1x256 S256x16 S1x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf

class Facts : Prop extends Facts₀ where

variable [Facts]
-- ==== Proof.K.Vals.lean ====
/-
  The values the two kernel regions compute, named once, at any float instance `F`, as functions of the
  TensorCore's buffer contents `V` when a region is entered.
  Region 0 (layer 1): at its first grid point the body stores the product `x · W1` into its scratch (`sc0`),
  and at every point `t` it stores `max (adj_t · sc0 + b1, 0)` into the output block (`out0`), `adj_t` the
  point's 200 rows of the adjacency.
  Region 1 (layer 2): at its first point the body stores `h1 · W2` into one scratch (`sc1`) and zero into the
  accumulator; at every point it adds the column sums of `max (adj_t · sc1 + b2, 0)` to the accumulator
  (`acc1`, by recursion on the point); at the last point it stores the tail (mean, selu, the dense side branch,
  log-softmax) of the accumulator into the output block (`out1`).
-/
import proofs.«165518_g91036126806365_cont_sun_c4_16_3_alg».proof.Proof.Gen.Kernel.Launch
import proofs.«165518_g91036126806365_cont_sun_c4_16_3_alg».proof.Proof.Gen.Kernel.Skeleton
import proofs.«165518_g91036126806365_cont_sun_c4_16_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of region 1 at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point of each region. -/
abbrev t00 : Fin cfg0.N := ⟨0, by decide⟩
abbrev t10 : Fin cfg1.N := ⟨0, by decide⟩

/-- Region 0's scratch after any point: the product of the first point's `x` and `W1` blocks. -/
def sc0 (c : Dev nD) : Vec F S10000x64 .f32 := k0_pay1 (iblk0 V c 0 t00) (iblk0 V c 2 t00)

/-- Region 0's output block after point `t`. -/
def out0 (c : Dev nD) (t : Fin cfg0.N) : Vec F S200x64 .f32 := k0_pay2 (iblk0 V c 1 t) (sc0 V c) (iblk0 V c 3 t)

/-- Region 1's first scratch after any point: the product of the first point's `h1` and `W2` blocks. -/
def sc1 (c : Dev nD) : Vec F S10000x16 .f32 := k1_pay1 (iblk1 V c 1 t10) (iblk1 V c 2 t10)

/-- Region 1's accumulator after point `n`: zero plus the column sums of the points up to `n`. -/
def acc1 (c : Dev nD) : (n : ℕ) → n < cfg1.N → Vec F S1x16 .f32
  | 0, h => k1_pay3 (iblk1 V c 0 ⟨0, h⟩) (sc1 V c) (iblk1 V c 3 ⟨0, h⟩) (k1_pay2 (F := F))
  | n + 1, h => k1_pay3 (iblk1 V c 0 ⟨n + 1, h⟩) (sc1 V c) (iblk1 V c 3 ⟨n + 1, h⟩) (acc1 c n (Nat.lt_of_succ_lt h))

/-- Region 1's output block after the last point `t` (the window is idle at every other point). -/
def out1 (c : Dev nD) (t : Fin cfg1.N) : Vec F S1x16 .f32 :=
  k1_pay4 (acc1 V c t.val t.isLt) (iblk1 V c 4 t) (iblk1 V c 5 t) (iblk1 V c 6 t)

end Cert.Kernel.Hand

end
-- ==== Proof.K.R0Run.lean ====
/-
  Region 0 (layer 1) of the kernel program: what one run of the kernel body does to the buffers it is handed, in
  each of the two cases of its one conditional, at any float instance.

  The body is called once per block of 200 rows of the adjacency.  Its conditional asks whether the grid coordinate
  is 0.  At the first point it loads the whole feature block `x` and the weight block `w`, and stores their product
  `x · w` over the whole scratch; at every point it then loads the adjacency block `a`, the scratch and the bias row
  `b`, and stores `max (a · scratch + b, 0)` over the whole output block.  So at the first point the output block
  is computed from the product just stored, and at a later point from whatever the scratch was handed in with; the
  inputs are only read, and the scratch is left at the product (first point) or as it was (later points).
-/
import proofs.«165518_g91036126806365_cont_sun_c4_16_3_alg».proof.Proof.K.Vals
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The condition of the body's one conditional, from the grid coordinates: "coordinate 0 is 0", through the
    integer comparisons the body spells it with. -/
abbrev cond0 (i : grid0.Coords) : Prop :=
  (Scalar.cmpi .ne (Scalar.extui (Scalar.cmpi .eq (BitVec.ofNat 32 (i 0).val) 0#32)) 0#32) = 1#1

/-- It holds at the first point of the grid and at no other: decided over the 50 points. -/
theorem hcond0 : ∀ t : Fin cfg0.N, cond0 (grid0.coords t) ↔ t.val = 0 :=
  (by decide +kernel : ∀ t : Fin grid0.N, cond0 (grid0.coords t) ↔ t.val = 0)

/-- The zero offsets of a whole-buffer access of a rank-2 buffer, as a constant function. -/
theorem hz2 : (![0, 0] : Fin 2 → Nat) = fun _ => 0 := funext fun a => by fin_cases a <;> rfl

set_option maxHeartbeats 1000000 in
/-- THE FIRST POINT.  On whole memrefs, the four inputs at contents `x`, `a`, `w`, `b` and the output block and
    the scratch at anything, the body with its condition true runs to the continuation holding the inputs as they
    were, the scratch at the product `k0_pay1 x w`, and the output block at `k0_pay2 a (k0_pay1 x w) b`: the
    scratch is read back after the store that covers it, so what the second store computes from is the product. -/
theorem run0_first (c : Dev nD) (E : Set ℕ) (i : grid0.Coords)
    (arg1 : Memref sig .tc .vmem S10000x128 .f32) (harg1 : arg1.IsWhole)
    (arg2 : Memref sig .tc .vmem S200x10000 .f32) (harg2 : arg2.IsWhole)
    (arg3 : Memref sig .tc .vmem S128x64 .f32) (harg3 : arg3.IsWhole)
    (arg4 : Memref sig .tc .vmem S1x64 .f32) (harg4 : arg4.IsWhole)
    (arg5 : Memref sig .tc .vmem S200x64 .f32) (harg5 : arg5.IsWhole)
    (arg6 : Memref sig .tc .vmem S10000x64 .f32) (harg6 : arg6.IsWhole)
    (hc : cond0 i)
    (x : Vec F S10000x128 .f32) (a : Vec F S200x10000 .f32) (w : Vec F S128x64 .f32) (b : Vec F S1x64 .f32)
    (K : PUnit → sProp 𝕄) :
    iprop(owns (c : Thread nD τ) arg1 fullShare x ∗ owns (c : Thread nD τ) arg2 fullShare a
        ∗ owns (c : Thread nD τ) arg3 fullShare w ∗ owns (c : Thread nD τ) arg4 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare a
            ∗ owns (c : Thread nD τ) arg3 fullShare w ∗ owns (c : Thread nD τ) arg4 fullShare b
            ∗ owns (c : Thread nD τ) arg5 fullShare (k0_pay2 a (k0_pay1 x w) b)
            ∗ owns (c : Thread nD τ) arg6 fullShare (k0_pay1 x w)) -∗ K ⟨⟩))
      ⊢ wp frame (wpE (defs₀ (F := F)) Variants.none c none) E
          (cc0__layer1_body i arg1 harg1 arg2 harg2 arg3 harg3 arg4 harg4 arg5 harg5 arg6 harg6) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz2 inb_S200x64_S200x64_0_0 y⟩)]
    rw [View.canon_unit_zero hz2]
    sl_unfold_run_names
    rw [View.readCov_unit_zero _ hz2]
    simp only [View.readAt_eq_ld, View.ld_unit_zero (S := S200x10000) hz2, View.ld_unit_zero (S := S10000x128) hz2, View.ld_unit_zero (S := S128x64) hz2, View.ld_unit_zero (S := S1x64) hz2]
  iexists _; isplitr
  swap; · iexact H6
  ipureintro
  sl_unfold_run_names
  rw [View.read_writes_eq_canon _ _ _ (fun y => ⟨_, List.mem_singleton_self _, View.mem_set_unit_zero hz2 inb_S10000x64_S10000x64_0_0 y⟩)]
  rw [View.canon_unit_zero hz2]
  simp only [View.readAt_eq_ld, View.ld_unit_zero (S := S10000x128) hz2, View.ld_unit_zero (S := S128x64) hz2]

set_option maxHeartbeats 1000000 in
/-- A LATER POINT.  With its condition false the body touches neither `x` nor `w`; the scratch, handed in at
    contents `s`, is only read; the output block ends at `k0_pay2 a s b`. -/
theorem run0_later (c : Dev nD) (E : Set ℕ) (i : grid0.Coords)
    (arg1 : Memref sig .tc .vmem S10000x128 .f32) (harg1 : arg1.IsWhole)
    (arg2 : Memref sig .tc .vmem S200x10000 .f32) (harg2 : arg2.IsWhole)
    (arg3 : Memref sig .tc .vmem S128x64 .f32) (harg3 : arg3.IsWhole)
    (arg4 : Memref sig .tc .vmem S1x64 .f32) (harg4 : arg4.IsWhole)
    (arg5 : Memref sig .tc .vmem S200x64 .f32) (harg5 : arg5.IsWhole)
    (arg6 : Memref sig .tc .vmem S10000x64 .f32) (harg6 : arg6.IsWhole)
    (hc : ¬cond0 i)
    (x : Vec F S10000x128 .f32) (a : Vec F S200x10000 .f32) (w : Vec F S128x64 .f32) (b : Vec F S1x64 .f32)
    (s : Vec F S10000x64 .f32)
    (K : PUnit → sProp 𝕄) :
    iprop(owns (c : Thread nD τ) arg1 fullShare x ∗ owns (c : Thread nD τ) arg2 fullShare a
        ∗ owns (c : Thread nD τ) arg3 fullShare w ∗ owns (c : Thread nD τ) arg4 fullShare b
        ∗ (∃ d, owns (c : Thread nD τ) arg5 fullShare d) ∗ owns (c : Thread nD τ) arg6 fullShare s
        ∗ (iprop(owns (c : Thread nD τ) arg1 fullShare x ∗ owns (c : Thread nD τ) arg2 fullShare a
            ∗ owns (c : Thread nD τ) arg3 fullShare w ∗ owns (c : Thread nD τ) arg4 fullShare b
            ∗ owns (c : Thread nD τ) arg5 fullShare (k0_pay2 a s b)
            ∗ owns (c : Thread nD τ) arg6 fullShare s) -∗ K ⟨⟩))
      ⊢ wp frame (wpE (defs₀ (F := F)) Variants.none c none) E
          (cc0__layer1_body i arg1 harg1 arg2 harg2 arg3 harg3 arg4 harg4 arg5 harg5 arg6 harg6) K := by
  simp only [cc0__layer1_body_eq_skeleton]; unfold cc0__layer1_body_skel
  unfold owns
  iintro ⟨H1, ⟨%f2, %hf2, H2⟩, H3, ⟨%f4, %hf4, H4⟩, ⟨%d5, %f5, -, H5⟩, ⟨%f6, %hf6, H6⟩, Hk⟩
  subst hf2; subst hf4; subst hf6
  sl_exec (disch := first | exact hc)
  sl_step
  iapply Hk
  isplitl [H1]; · iexact H1
  isplitl [H2]
  · iexists f2; isplitr; · ipureintro; rfl
    iexact H2
  isplitl [H3]; · iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz2 inb_S200x64_S200x64_0_0 y⟩)]
    rw [View.canon_unit_zero hz2]
    sl_unfold_run_names
    simp only [View.readAt_eq_ld, View.ld_unit_zero (S := S200x10000) hz2, View.ld_unit_zero (S := S10000x64) hz2, View.ld_unit_zero (S := S1x64) hz2]
  iexists f6; isplitr; · ipureintro; rfl
  iexact H6

end Cert.Kernel.Hand

end
-- ==== Proof.K.R0.lean ====
/-
  Region 0 (layer 1) of the kernel program: its proof data and body obligation, at any float instance and at any
  contents `V` of the TensorCore's buffers when the region is entered.

  The region walks the 50 blocks of 200 rows of the adjacency.  The feature block, the weight block and the bias
  row do not move with the point, so each is fetched once and stays in its buffer; the adjacency block is fetched
  at every point; the output block is written back at every point.  The kernel's scratch is not a window: the body
  fills it with the product `x · W1` at the first point and only reads it afterwards, so the region's invariant has
  to carry it — before the first point the scratch holds anything, after any point it holds that product (`sc0`).
  With that, the body at point `t` leaves `max (adj_t · sc0 + b1, 0)` in the output block (`out0`): at the first
  point because the product it has just stored is `sc0`, at a later point because the invariant says so.
-/
import proofs.«165518_g91036126806365_cont_sun_c4_16_3_alg».proof.Proof.K.R0Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant: the scratch carried from point to point -/

/-- The kernel's scratch, a whole scoped buffer passed to the body beside the windows. -/
abbrev scM0 : Memref sig .tc .vmem S10000x64 .f32 := Memref.whole cc0_scratch0

/-- The core's other scoped buffers that are no staging buffer of this region (they belong to region 1), each at
    some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the launch hands the region, with the scratch as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-- The invariant before position `n`: before the first point what the launch hands over (the scratch at
    anything); afterwards the scratch at the product the first point stored, the other scoped buffers and the
    generator register as they may be. -/
def Phi0 (c : Dev nD) : ℕ → sProp 𝕄
  | 0 => Pipeline.ΦA spec0 c
  | _ + 1 => iprop((owns (c : Thread nD τ) scM0 fullShare (sc0 V c) ∗ rest0 (F := F) c) ∗ (∃ r, prngReg c r))

theorem Phi0_zero (c : Dev nD) (n : ℕ) (hz : n = 0) : Phi0 V c n = Pipeline.ΦA spec0 c := by
  subst hz; rfl

theorem Phi0_pos (c : Dev nD) (n : ℕ) (hz : n ≠ 0) :
    Phi0 V c n = iprop((owns (c : Thread nD τ) scM0 fullShare (sc0 V c) ∗ rest0 (F := F) c) ∗ (∃ r, prngReg c r)) := by
  cases n with
  | zero => exact absurd rfl hz
  | succ n => rfl

/-! ## The proof data -/

/-- The proof data of pipeline 0 on core `c`: the arrays as the region finds them; after the body at point `t`
    each input's buffer at its block and the output's at `out0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- The invariant at a point's start and at its end, restated at the point's number. -/
theorem Phi_castSucc (c : Dev nD) (t : Fin cfg0.N) : (dat0 V c).Φ t.castSucc = Phi0 V c t.val := by
  dsimp only [dat0]; simp only [Fin.coe_castSucc]

theorem Phi_succ (c : Dev nD) (t : Fin cfg0.N) :
    (dat0 V c).Φ t.succ = iprop((owns (c : Thread nD τ) scM0 fullShare (sc0 V c) ∗ rest0 (F := F) c) ∗ (∃ r, prngReg c r)) := rfl

/-- Each input's current staging buffer holds its block at every point, fetched there or not: an input that is not
    fetched at a point has the block index it had at the point before, and the body leaves inputs in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The first point's product is the carried product -/

/-- At the first point the blocks the body multiplies are the ones `sc0` is stated at. -/
theorem sc0_first (c : Dev nD) (t : Fin cfg0.N) (hz : t.val = 0) :
    sc0 V c = k0_pay1 (iblk0 V c 0 t) (iblk0 V c 2 t) := by
  obtain rfl : t = t00 := Fin.ext hz
  rfl

/-- So there the output block computed from the product just stored is `out0`. -/
theorem out0_first (c : Dev nD) (t : Fin cfg0.N) (hz : t.val = 0) :
    out0 V c t = k0_pay2 (iblk0 V c 1 t) (k0_pay1 (iblk0 V c 0 t) (iblk0 V c 2 t)) (iblk0 V c 3 t) := by
  unfold out0; rw [sc0_first V c t hz]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4800000 in
/-- The body at any point.  The inputs' buffers hold their blocks (`before0_W`).  At the first point the invariant
    hands the scratch at anything and `run0_first` applies: it leaves the scratch at the product of that point's
    blocks, which is `sc0`, and the output block at `out0`.  At a later point the invariant hands the scratch at
    `sc0` and `run0_later` applies.  The other scoped buffers, the generator register and the core's debts pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi_succ, Phi_castSucc, after0_0, after0_1, after0_2, after0_3, after0_4]
  by_cases hz : t.val = 0
  · rw [Phi0_zero V c _ hz, PhiA0_eq, out0_first V c t hz, sc0_first V c t hz]
    iintro ⟨⟨⟨HS, HR⟩, Hg⟩, Ho, ⟨%d0, H0⟩, ⟨%d1, H1⟩, ⟨%d2, H2⟩, ⟨%d3, H3⟩, ⟨%d4, H4⟩⟩
    iapply (run0_first c Set.univ (grid0.coords t) _ _ _ _ _ _ _ _ _ _ _ _ ((hcond0 t).mpr hz)
      (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Phi0_pos V c _ hz]
    iintro ⟨⟨⟨HS, HR⟩, Hg⟩, Ho, ⟨%d0, H0⟩, ⟨%d1, H1⟩, ⟨%d2, H2⟩, ⟨%d3, H3⟩, ⟨%d4, H4⟩⟩
    iapply (run0_later c Set.univ (grid0.coords t) _ _ _ _ _ _ _ _ _ _ _ _ (fun h => hz ((hcond0 t).mp h))
      (iblk0 V c 0 t) (iblk0 V c 1 t) (iblk0 V c 2 t) (iblk0 V c 3 t) (sc0 V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    unfold out0; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = Phi0 V c 0 from rfl, Phi0_zero V c 0 rfl]
  try exact Idealize.SL.BI.Entails.refl _

/-- After the last point the invariant gives it back: what the scratch holds is forgotten. -/
theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val from rfl,
    Phi0_pos V c _ (by rw [Fin.val_last]; have : cfg0.N = 50 := N_0; omega), PhiA0_eq]
  iintro ⟨⟨HS, HR⟩, Hg⟩
  isplitl [HS HR]
  · isplitl [HS]
    · iexists _; iexact HS
    iexact HR
  iexact Hg

end Cert.Kernel.Hand

end
-- ==== Proof.K.R1Run.lean ====
/-
  Region 1 (layer 2 and the tail) of the kernel program, the body case by case: the closed forms of the body's two conditions
  over the grid, where the output window is idle, what the region's invariant is made of, that every input window's
  staging memref holds its block at every point, and the body's Hoare triple in each of its three cases (the first
  point, a middle point, the last point), at any float instance.
-/
import proofs.«165518_g91036126806365_cont_sun_c4_16_3_alg».proof.Proof.K.Vals
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The zero offsets of a whole-buffer access, as the function that is zero everywhere. -/
theorem hz2 : (![0, 0] : Fin 2 → Nat) = fun _ => 0 := funext fun a => by fin_cases a <;> rfl

/-- A list of stores whose last is a store of the whole buffer covers the buffer. -/
theorem cover_unit_zero {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-! ## The body's two conditions -/

/-- The first conditional's condition (the grid coordinate is 0), from the coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional's condition (the grid coordinate is 49), from the coordinates. -/
abbrev cond1_1 (i : grid1.Coords) : Prop := k1_cond2 i = 1#1
/-- It holds at the last point only. -/
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Off the last point the output window is idle and is not written back; at the last point it is live. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The memrefs the body is called with -/

abbrev ms1_0 (t : Fin cfg1.N) : Memref sig .tc .vmem S200x10000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x16 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x16 .f32 := win1_7.stage (cfg1.slots t 7)
abbrev hs1_7 (t : Fin cfg1.N) : (ms1_7 t).IsWhole := hstage1_7 ((cfg1.slots t 7).cast nbuf1_7)
/-- The two scratch operands: whole scoped buffers of the kernel's own. -/
abbrev scM1_0 : Memref sig .tc .vmem S10000x16 .f32 := Memref.whole cc1_scratch0
abbrev scM1_1 : Memref sig .tc .vmem S1x16 .f32 := Memref.whole cc1_scratch1

/-- A scoped buffer of the core held whole at some contents. -/
abbrev anyBuf (c : Dev nD) (b : Ref sig .tc) : sProp 𝕄 :=
  iprop(∃ f : Buf (Elt F) ((c : Thread nD τ).loc b), ((c : Thread nD τ).loc b) ↦{fullShare} f)

/-- The class invariant with the two scratch operands as memrefs owned at some contents. -/
theorem PhiA1_eq (c : Dev nD) :
    (Pipeline.ΦA spec1 c : sProp 𝕄)
      = iprop(iprop(anyBuf c cc0_stg0_0 ∗ anyBuf c cc0_stg1_0 ∗ anyBuf c cc0_stg1_1 ∗ anyBuf c cc0_stg2_0 ∗ anyBuf c cc0_stg3_0 ∗ anyBuf c cc0_stg4_0 ∗ anyBuf c cc0_stg4_1 ∗ anyBuf c cc0_scratch0 ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The input windows' staging memrefs hold their blocks at every point -/

section Before
variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
end Before

/-! ## The body's triple, case by case -/

set_option maxHeartbeats 1000000 in
/-- The body at the first grid point (first conditional taken, second not): it loads the `h1` and `W2` blocks and stores
    their product whole into the first scratch, stores zero whole into the accumulator, then loads the adjacency
    block, the first scratch, the bias row and the accumulator and stores the accumulator plus the block's column
    sums whole into the accumulator. The loaded memrefs come back as they were; the two scratch memrefs hold the
    product and the first partial sum. The other staging memrefs are not touched. -/
theorem run1_A (c : Dev nD) (i : grid1.Coords) (arg1 : Memref sig .tc .vmem S200x10000 .f32) (harg1 : arg1.IsWhole) (arg2 : Memref sig .tc .vmem S10000x64 .f32) (harg2 : arg2.IsWhole) (arg3 : Memref sig .tc .vmem S64x16 .f32) (harg3 : arg3.IsWhole) (arg4 : Memref sig .tc .vmem S1x16 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S10000x16 .f32) (harg9 : arg9.IsWhole) (arg10 : Memref sig .tc .vmem S1x16 .f32) (harg10 : arg10.IsWhole) (hc0 : cond1_0 i) (hc1 : ¬cond1_1 i)
    (x0 : Vec F S200x10000 .f32) (x1 : Vec F S10000x64 .f32) (x2 : Vec F S64x16 .f32) (x3 : Vec F S1x16 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg9 fullShare (k1_pay1 x1 x2) ∗ owns (c : Thread nD τ) arg10 fullShare (k1_pay3 x0 (k1_pay1 x1 x2) x3 (k1_pay2 (F := F)))) -∗ K ⟨⟩))
      ⊢ wp frame (wpE (defs₀ (F := F)) Variants.none c none) E (cc1__layer2_body i arg1 harg1 arg2 harg2 arg3 harg3 arg4 harg4 arg5 harg5 arg6 harg6 arg7 harg7 arg8 harg8 arg9 harg9 arg10 harg10) K := by
  simp only [cc1__layer2_body_eq_skeleton]; unfold cc1__layer2_body_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_words
    rw [View.read_writes_eq_canon _ _ _ (cover_unit_zero hz2 _ _ _)]
    rw [View.canon_unit_zero hz2]
    simp only [View.readAt_eq_ld, harg2.read_unread, harg3.read_unread, View.ld_unit_zero (S := S10000x64) hz2, View.ld_unit_zero (S := S64x16) hz2]
  iexists _; isplitr
  swap; · iexact HS1
  ipureintro
  sl_unfold_words
  rw [View.read_writes_eq_canon _ _ _ (cover_unit_zero hz2 _ _ _)]
  rw [View.canon_cons_unit_zero hz2]
  rw [View.readCov_unit_zero (S := S10000x16) _ hz2, View.readCov_unit_zero (S := S1x16) _ hz2]
  simp only [View.readAt_eq_ld, harg1.read_unread, harg2.read_unread, harg3.read_unread, harg4.read_unread, View.ld_unit_zero (S := S200x10000) hz2, View.ld_unit_zero (S := S1x16) hz2, View.ld_unit_zero (S := S10000x64) hz2, View.ld_unit_zero (S := S64x16) hz2]

set_option maxHeartbeats 1000000 in
/-- The body at a point that is neither the first nor the last (neither conditional taken): it loads the adjacency
    block, the first scratch, the bias row and the accumulator and stores the accumulator plus the block's column
    sums whole into the accumulator. -/
theorem run1_B (c : Dev nD) (i : grid1.Coords) (arg1 : Memref sig .tc .vmem S200x10000 .f32) (harg1 : arg1.IsWhole) (arg2 : Memref sig .tc .vmem S10000x64 .f32) (harg2 : arg2.IsWhole) (arg3 : Memref sig .tc .vmem S64x16 .f32) (harg3 : arg3.IsWhole) (arg4 : Memref sig .tc .vmem S1x16 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S10000x16 .f32) (harg9 : arg9.IsWhole) (arg10 : Memref sig .tc .vmem S1x16 .f32) (harg10 : arg10.IsWhole) (hc0 : ¬cond1_0 i) (hc1 : ¬cond1_1 i)
    (x0 : Vec F S200x10000 .f32) (x3 : Vec F S1x16 .f32) (xs0 : Vec F S10000x16 .f32) (xs1 : Vec F S1x16 .f32)
    (E : Set ℕ) (K : PUnit → sProp 𝕄) :
    iprop(owns (c : Thread nD τ) arg1 fullShare x0 ∗ owns (c : Thread nD τ) arg4 fullShare x3 ∗ owns (c : Thread nD τ) arg9 fullShare xs0 ∗ owns (c : Thread nD τ) arg10 fullShare xs1
        ∗ (iprop(owns (c : Thread nD τ) arg1 fullShare x0 ∗ owns (c : Thread nD τ) arg4 fullShare x3 ∗ owns (c : Thread nD τ) arg9 fullShare xs0 ∗ owns (c : Thread nD τ) arg10 fullShare (k1_pay3 x0 xs0 x3 xs1)) -∗ K ⟨⟩))
      ⊢ wp frame (wpE (defs₀ (F := F)) Variants.none c none) E (cc1__layer2_body i arg1 harg1 arg2 harg2 arg3 harg3 arg4 harg4 arg5 harg5 arg6 harg6 arg7 harg7 arg8 harg8 arg9 harg9 arg10 harg10) K := by
  simp only [cc1__layer2_body_eq_skeleton]; unfold cc1__layer2_body_skel
  unfold owns
  iintro ⟨⟨%f0, %hf0, H0⟩, ⟨%f3, %hf3, H3⟩, ⟨%fs0, %hfs0, HS0⟩, ⟨%fs1, %hfs1, HS1⟩, Hk⟩
  obtain rfl := harg1.eq_unread hf0; obtain rfl := harg4.eq_unread hf3; obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H3]
  · iexists _; isplitr; · ipureintro; exact harg4.read_unread _
    iexact H3
  isplitl [HS0]
  · iexists _; isplitr; · ipureintro; exact harg9.read_unread _
    iexact HS0
  iexists _; isplitr
  swap; · iexact HS1
  ipureintro
  sl_unfold_words
  rw [View.read_writes_eq_canon _ _ _ (cover_unit_zero hz2 _ _ _)]
  rw [View.canon_unit_zero hz2]
  simp only [View.readAt_eq_ld, harg1.read_unread, harg4.read_unread, harg9.read_unread, harg10.read_unread, View.ld_unit_zero (S := S200x10000) hz2, View.ld_unit_zero (S := S1x16) hz2, View.ld_unit_zero (S := S10000x16) hz2]

set_option maxHeartbeats 1000000 in
/-- The body at the last grid point (first conditional not taken, second taken): the accumulation as at the other
    points, then it loads the accumulator, the side branch's input, weight and bias blocks (and the output's staging
    memref, whose value it does not use) and stores the tail of the network whole into the output's staging memref. -/
theorem run1_C (c : Dev nD) (i : grid1.Coords) (arg1 : Memref sig .tc .vmem S200x10000 .f32) (harg1 : arg1.IsWhole) (arg2 : Memref sig .tc .vmem S10000x64 .f32) (harg2 : arg2.IsWhole) (arg3 : Memref sig .tc .vmem S64x16 .f32) (harg3 : arg3.IsWhole) (arg4 : Memref sig .tc .vmem S1x16 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S10000x16 .f32) (harg9 : arg9.IsWhole) (arg10 : Memref sig .tc .vmem S1x16 .f32) (harg10 : arg10.IsWhole) (hc0 : ¬cond1_0 i) (hc1 : cond1_1 i)
    (x0 : Vec F S200x10000 .f32) (x3 : Vec F S1x16 .f32) (x4 : Vec F S1x256 .f32) (x5 : Vec F S256x16 .f32) (x6 : Vec F S1x16 .f32)
    (xs0 : Vec F S10000x16 .f32) (xs1 : Vec F S1x16 .f32)
    (E : Set ℕ) (K : PUnit → sProp 𝕄) :
    iprop(owns (c : Thread nD τ) arg1 fullShare x0 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay4 (k1_pay3 x0 xs0 x3 xs1) x4 x5 x6) ∗ owns (c : Thread nD τ) arg9 fullShare xs0 ∗ owns (c : Thread nD τ) arg10 fullShare (k1_pay3 x0 xs0 x3 xs1)) -∗ K ⟨⟩))
      ⊢ wp frame (wpE (defs₀ (F := F)) Variants.none c none) E (cc1__layer2_body i arg1 harg1 arg2 harg2 arg3 harg3 arg4 harg4 arg5 harg5 arg6 harg6 arg7 harg7 arg8 harg8 arg9 harg9 arg10 harg10) K := by
  simp only [cc1__layer2_body_eq_skeleton]; unfold cc1__layer2_body_skel
  unfold owns
  iintro ⟨⟨%f0, %hf0, H0⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  obtain rfl := harg1.eq_unread hf0; obtain rfl := harg4.eq_unread hf3; obtain rfl := harg5.eq_unread hf4; obtain rfl := harg6.eq_unread hf5; obtain rfl := harg7.eq_unread hf6
  obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    rw [View.read_writes_eq_canon _ _ _ (cover_unit_zero hz2 _ _ _)]
    rw [View.canon_unit_zero hz2]
    rw [View.readCov_unit_zero (S := S1x16) _ hz2]
    simp only [View.readAt_eq_ld, harg1.read_unread, harg4.read_unread, harg5.read_unread, harg6.read_unread, harg7.read_unread, harg9.read_unread, harg10.read_unread, View.ld_unit_zero (S := S200x10000) hz2, View.ld_unit_zero (S := S1x16) hz2, View.ld_unit_zero (S := S10000x16) hz2, View.ld_unit_zero (S := S1x256) hz2, View.ld_unit_zero (S := S256x16) hz2]
  isplitl [HS0]
  · iexists _; isplitr; · ipureintro; exact harg9.read_unread _
    iexact HS0
  iexists _; isplitr
  swap; · iexact HS1
  ipureintro
  sl_unfold_words
  rw [View.read_writes_eq_canon _ _ _ (cover_unit_zero hz2 _ _ _)]
  rw [View.canon_unit_zero hz2]
  simp only [View.readAt_eq_ld, harg1.read_unread, harg4.read_unread, harg9.read_unread, harg10.read_unread, View.ld_unit_zero (S := S200x10000) hz2, View.ld_unit_zero (S := S1x16) hz2, View.ld_unit_zero (S := S10000x16) hz2]

end Cert.Kernel.Hand

end
-- ==== Proof.K.R1.lean ====
/-
  Region 1 (layer 2 and the tail) of the kernel program: its proof data and body obligation, at any float instance
  and at any contents `V` of the TensorCore's buffers when the region is entered. The region's invariant carries the
  two scratch buffers from point to point: after any point the first holds the product `h1 · W2` and the second the
  column sums accumulated so far.
-/
import proofs.«165518_g91036126806365_cont_sun_c4_16_3_alg».proof.Proof.K.R1Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator and the product, point by point -/

/-- At the first point the accumulator is the first block's column sums over zero. -/
theorem acc1_zero (c : Dev nD) (t : Fin cfg1.N) (h0 : t.val = 0) :
    acc1 V c t.val t.isLt = k1_pay3 (iblk1 V c 0 t) (sc1 V c) (iblk1 V c 3 t) (k1_pay2 (F := F)) := by
  obtain ⟨n, hn⟩ := t
  cases n with
  | zero => rfl
  | succ n => exact absurd h0 (Nat.succ_ne_zero n)

/-- At a later point it is the point's block's column sums over what the point before left. -/
theorem acc1_pos (c : Dev nD) (t : Fin cfg1.N) (h0 : t.val ≠ 0) :
    acc1 V c t.val t.isLt = k1_pay3 (iblk1 V c 0 t) (sc1 V c) (iblk1 V c 3 t) (acc1 V c (t.val - 1) (Nat.lt_of_le_of_lt (Nat.sub_le _ _) t.isLt)) := by
  obtain ⟨n, hn⟩ := t
  cases n with
  | zero => exact absurd rfl h0
  | succ n => rfl

/-- The product, from the first point's own blocks. -/
theorem sc1_eq (c : Dev nD) (t : Fin cfg1.N) (h0 : t.val = 0) : sc1 V c = k1_pay1 (iblk1 V c 1 t) (iblk1 V c 2 t) := by
  obtain rfl : t = t10 := Fin.ext h0
  rfl

/-! ## The region's invariant -/

/-- The invariant before position `n`: before the first point the class's (every scoped buffer that is no staging
    buffer at anything, the generator register at some state); afterwards the same with the first scratch at the
    product and the second at the sums up to the point before. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg1_0 ∗ anyBuf c cc0_stg1_1 ∗ anyBuf c cc0_stg2_0 ∗ anyBuf c cc0_stg3_0 ∗ anyBuf c cc0_stg4_0 ∗ anyBuf c cc0_stg4_1 ∗ anyBuf c cc0_scratch0 ∗ owns (c : Thread nD τ) scM1_0 fullShare (sc1 V c) ∗ owns (c : Thread nD τ) scM1_1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf c cc0_stg0_0 ∗ anyBuf c cc0_stg1_0 ∗ anyBuf c cc0_stg1_1 ∗ anyBuf c cc0_stg2_0 ∗ anyBuf c cc0_stg3_0 ∗ anyBuf c cc0_stg4_0 ∗ anyBuf c cc0_stg4_1 ∗ anyBuf c cc0_scratch0 ∗ owns (c : Thread nD τ) scM1_0 fullShare (sc1 V c) ∗ owns (c : Thread nD τ) scM1_1 fullShare (acc1 V c n hn)) ∗ (∃ r, prngReg c r)) := rfl

theorem PhiS1_pos (c : Dev nD) (n : ℕ) (h : n ≤ cfg1.N) (hz : n ≠ 0) :
    PhiS1 V c n h = iprop(iprop(anyBuf c cc0_stg0_0 ∗ anyBuf c cc0_stg1_0 ∗ anyBuf c cc0_stg1_1 ∗ anyBuf c cc0_stg2_0 ∗ anyBuf c cc0_stg3_0 ∗ anyBuf c cc0_stg4_0 ∗ anyBuf c cc0_stg4_1 ∗ anyBuf c cc0_scratch0 ∗ owns (c : Thread nD τ) scM1_0 fullShare (sc1 V c) ∗ owns (c : Thread nD τ) scM1_1 fullShare (acc1 V c (n - 1) (by omega))) ∗ (∃ r, prngReg c r)) := by
  cases n with
  | zero => exact absurd rfl hz
  | succ n => rfl

/-! ## The proof data -/

/-- The proof data of pipeline 1 on core `c`: the arrays as the region finds them; after the body at point `t`
    each input's buffer at its block and the output's at `out1` (consulted at the last point only: the window is
    idle elsewhere); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' memrefs hold their blocks; the closed forms of the two conditions say which of
    the three cases the point is in, and that case's triple applies; the invariant hands the body the two scratch
    buffers (at anything before the first point, at the product and the sums so far afterwards) and takes them back at
    the product and the sums including this point; off the last point the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val = 0
  · have h1 : ¬t.val = 49 := by omega
    rw [Dat.leavesExact_idle (dat1 V c) 7 t (idleAt1_7 t (fun h => h1 ((hcond1_1 t).mp h))) (noFlush1_7 t (fun h => h1 ((hcond1_1 t).mp h)))]
    rw [acc1_zero V c t h0, sc1_eq V c t h0]
    rw [PhiS1_castSucc V c t, PhiS1_zero V c _ _ h0, PhiA1_eq]
    iintro ⟨⟨⟨HR0, HR1, HR2, HR3, HR4, HR5, HR6, HR7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HR0 HR1 HR2 HR3 HR4 HR5 HR6 HR7 HS0 HS1 Hg]
    · isplitl [HR0 HR1 HR2 HR3 HR4 HR5 HR6 HR7 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val = 49
    · rw [show (dat1 V c).leavesExact 7 t = owns (c : Thread nD τ) (ms1_7 t) fullShare ((dat1 V c).after 7 t) from by
        unfold Dat.leavesExact; rw [liveAt1_7 t ((hcond1_1 t).mpr h1)], after1_7]
      unfold out1
      rw [acc1_pos V c t h0]
      rw [PhiS1_castSucc V c t, PhiS1_pos V c _ _ h0]
      iintro ⟨⟨⟨HR0, HR1, HR2, HR3, HR4, HR5, HR6, HR7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c (grid1.coords t) _ _ _ _ _ _ _ _ _ _ _ _ _ _ _ _ _ _ _ _ (fun h => h0 ((hcond1_0 t).mp h)) ((hcond1_1 t).mpr h1) (iblk1 V c 0 t) (iblk1 V c 3 t) (iblk1 V c 4 t) (iblk1 V c 5 t) (iblk1 V c 6 t) (sc1 V c) (acc1 V c (t.val - 1) _) Set.univ _)
      isplitl [H0]; · iexact H0
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H3, H4, H5, H6, H7, HS0, HS1⟩
      isplitl [HR0 HR1 HR2 HR3 HR4 HR5 HR6 HR7 HS0 HS1 Hg]
      · isplitl [HR0 HR1 HR2 HR3 HR4 HR5 HR6 HR7 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 7 t (idleAt1_7 t (fun h => h1 ((hcond1_1 t).mp h))) (noFlush1_7 t (fun h => h1 ((hcond1_1 t).mp h)))]
      rw [acc1_pos V c t h0]
      rw [PhiS1_castSucc V c t, PhiS1_pos V c _ _ h0]
      iintro ⟨⟨⟨HR0, HR1, HR2, HR3, HR4, HR5, HR6, HR7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ _ _ (fun h => h0 ((hcond1_0 t).mp h)) (fun h => h1 ((hcond1_1 t).mp h)) (iblk1 V c 0 t) (iblk1 V c 3 t) (sc1 V c) (acc1 V c (t.val - 1) _) Set.univ _)
      isplitl [H0]; · iexact H0
      isplitl [H3]; · iexact H3
      isplitl [HS0]; · iexact HS0
      isplitl [HS1]; · iexact HS1
      iintro ⟨H0, H3, HS0, HS1⟩
      isplitl [HR0 HR1 HR2 HR3 HR4 HR5 HR6 HR7 HS0 HS1 Hg]
      · isplitl [HR0 HR1 HR2 HR3 HR4 HR5 HR6 HR7 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the scratch buffers' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HS0, HS1⟩, Hg⟩
  isplitl [HR0 HR1 HR2 HR3 HR4 HR5 HR6 HR7 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HS0]; · iexists _; iexact HS0
    iexists _; iexact HS1
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 50 := N_1; omega)

end Cert.Kernel.Hand

end
-- ==== Proof.K.Frame.lean ====
/-
  The kernel program's run, at any float instance: @main is a host stretch, region 0, a host stretch, region 1. The
  buffer contents at each boundary are named (a stretch applies its operations; a region leaves in each of its arrays
  what its write-backs leave and every other buffer as entered), every argument array is walked back through them to
  its launch contents, and the result array is what region 1's write-backs leave.
-/
import proofs.«165518_g91036126806365_cont_sun_c4_16_3_alg».proof.Proof.K.R0
import proofs.«165518_g91036126806365_cont_sun_c4_16_3_alg».proof.Proof.K.R1
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation and no region writes one -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W3_main_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_main_arg1 m ρ c)
theorem W3_main_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg1 m ρ c)
theorem W4_main_arg1 (c : Dev nD) : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (W3_main_arg1 m ρ c)
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg2 m ρ c)
theorem W4_main_arg2 (c : Dev nD) : W4 m ρ c (Proc.devRef .tc main_arg2) = m ((c : Thread nD τ).loc main_arg2) :=
  ((W4_arr m ρ c 4).trans (((dat1 (V3 m ρ) c).arrAt_in 4 rfl _).trans (A_eq1 (V3 m ρ) c 4))).trans (W3_main_arg2 m ρ c)
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg3 (c : Dev nD) : W2 m ρ c (Proc.devRef .tc main_arg3) = m ((c : Thread nD τ).loc main_arg3) :=
  ((W2_arr m ρ c 2).trans (((dat0 (V1 m ρ) c).arrAt_in 2 rfl _).trans (A_eq0 (V1 m ρ) c 2))).trans (W1_main_arg3 m ρ c)
theorem W3_main_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg5 m ρ c)
theorem W4_main_arg5 (c : Dev nD) : W4 m ρ c (Proc.devRef .tc main_arg5) = m ((c : Thread nD τ).loc main_arg5) :=
  ((W4_arr m ρ c 2).trans (((dat1 (V3 m ρ) c).arrAt_in 2 rfl _).trans (A_eq1 (V3 m ρ) c 2))).trans (W3_main_arg5 m ρ c)
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)

/-- Region 0's result array `main_v1` reaches region 1 as region 0's write-backs left it. -/
theorem W3_main_v1 (c : Dev nD) : W3 m ρ c (Proc.devRef .tc main_v1) = (dat0 (V1 m ρ) c).arrAt 4 cfg0.N :=
  (StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 4)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the boundary's contents, left at the next
    boundary's; its arrays split out of the unscoped buffers and put back at what the write-backs leave; the generator
    register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's; its arrays split out of the unscoped buffers and put back at what the write-backs leave; the generator
    register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting; the
    result array ends at what region 1's write-backs leave and every argument array as launched. -/
theorem run : θ_run defs (onTc (τ := τ) (main (F := F))) ⟨m, fun _ => 0, ρ⟩ (fun r => ∀ c : Dev nD,
      r.2.mem ((c.tc : Thread nD τ).loc main_v5) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Kernel.Hand

end
-- ==== Proof.KI.Vals.lean ====
/-
  The values the two kernel regions compute, named once, at any float instance `F`, as functions of the
  TensorCore's buffer contents `V` when a region is entered.
  Region 0 (layer 1): at its first grid point the body stores the product `x · W1` into its scratch (`sc0`),
  and at every point `t` it stores `max (adj_t · sc0 + b1, 0)` into the output block (`out0`), `adj_t` the
  point's 200 rows of the adjacency.
  Region 1 (layer 2): at its first point the body stores `h1 · W2` into one scratch (`sc1`) and zero into the
  accumulator; at every point it adds the column sums of `max (adj_t · sc1 + b2, 0)` to the accumulator
  (`acc1`, by recursion on the point); at the last point it stores the tail (mean, selu, the dense side branch,
  log-softmax) of the accumulator into the output block (`out1`).
-/
import proofs.«165518_g91036126806365_cont_sun_c4_16_3_alg».proof.Proof.Gen.KernelIdeal.Launch
import proofs.«165518_g91036126806365_cont_sun_c4_16_3_alg».proof.Proof.Gen.KernelIdeal.Skeleton
import proofs.«165518_g91036126806365_cont_sun_c4_16_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of region 1 at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point of each region. -/
abbrev t00 : Fin cfg0.N := ⟨0, by decide⟩
abbrev t10 : Fin cfg1.N := ⟨0, by decide⟩

/-- Region 0's scratch after any point: the product of the first point's `x` and `W1` blocks. -/
def sc0 (c : Dev nD) : Vec F S10000x64 .f32 := k0_pay1 (iblk0 V c 0 t00) (iblk0 V c 2 t00)

/-- Region 0's output block after point `t`. -/
def out0 (c : Dev nD) (t : Fin cfg0.N) : Vec F S200x64 .f32 := k0_pay2 (iblk0 V c 1 t) (sc0 V c) (iblk0 V c 3 t)

/-- Region 1's first scratch after any point: the product of the first point's `h1` and `W2` blocks. -/
def sc1 (c : Dev nD) : Vec F S10000x16 .f32 := k1_pay1 (iblk1 V c 1 t10) (iblk1 V c 2 t10)

/-- Region 1's accumulator after point `n`: zero plus the column sums of the points up to `n`. -/
def acc1 (c : Dev nD) : (n : ℕ) → n < cfg1.N → Vec F S1x16 .f32
  | 0, h => k1_pay3 (iblk1 V c 0 ⟨0, h⟩) (sc1 V c) (iblk1 V c 3 ⟨0, h⟩) (k1_pay2 (F := F))
  | n + 1, h => k1_pay3 (iblk1 V c 0 ⟨n + 1, h⟩) (sc1 V c) (iblk1 V c 3 ⟨n + 1, h⟩) (acc1 c n (Nat.lt_of_succ_lt h))

/-- Region 1's output block after the last point `t` (the window is idle at every other point). -/
def out1 (c : Dev nD) (t : Fin cfg1.N) : Vec F S1x16 .f32 :=
  k1_pay4 (acc1 V c t.val t.isLt) (iblk1 V c 4 t) (iblk1 V c 5 t) (iblk1 V c 6 t)

end Cert.KernelIdeal.Hand

end
-- ==== Proof.KI.R0Run.lean ====
/-
  Region 0 (layer 1) of the kernel program: what one run of the kernel body does to the buffers it is handed, in
  each of the two cases of its one conditional, at any float instance.

  The body is called once per block of 200 rows of the adjacency.  Its conditional asks whether the grid coordinate
  is 0.  At the first point it loads the whole feature block `x` and the weight block `w`, and stores their product
  `x · w` over the whole scratch; at every point it then loads the adjacency block `a`, the scratch and the bias row
  `b`, and stores `max (a · scratch + b, 0)` over the whole output block.  So at the first point the output block
  is computed from the product just stored, and at a later point from whatever the scratch was handed in with; the
  inputs are only read, and the scratch is left at the product (first point) or as it was (later points).
-/
import proofs.«165518_g91036126806365_cont_sun_c4_16_3_alg».proof.Proof.KI.Vals
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

/-- The condition of the body's one conditional, from the grid coordinates: "coordinate 0 is 0", through the
    integer comparisons the body spells it with. -/
abbrev cond0 (i : grid0.Coords) : Prop :=
  (Scalar.cmpi .ne (Scalar.extui (Scalar.cmpi .eq (BitVec.ofNat 32 (i 0).val) 0#32)) 0#32) = 1#1

/-- It holds at the first point of the grid and at no other: decided over the 50 points. -/
theorem hcond0 : ∀ t : Fin cfg0.N, cond0 (grid0.coords t) ↔ t.val = 0 :=
  (by decide +kernel : ∀ t : Fin grid0.N, cond0 (grid0.coords t) ↔ t.val = 0)

/-- The zero offsets of a whole-buffer access of a rank-2 buffer, as a constant function. -/
theorem hz2 : (![0, 0] : Fin 2 → Nat) = fun _ => 0 := funext fun a => by fin_cases a <;> rfl

set_option maxHeartbeats 1000000 in
/-- THE FIRST POINT.  On whole memrefs, the four inputs at contents `x`, `a`, `w`, `b` and the output block and
    the scratch at anything, the body with its condition true runs to the continuation holding the inputs as they
    were, the scratch at the product `k0_pay1 x w`, and the output block at `k0_pay2 a (k0_pay1 x w) b`: the
    scratch is read back after the store that covers it, so what the second store computes from is the product. -/
theorem run0_first (c : Dev nD) (E : Set ℕ) (i : grid0.Coords)
    (arg1 : Memref sig .tc .vmem S10000x128 .f32) (harg1 : arg1.IsWhole)
    (arg2 : Memref sig .tc .vmem S200x10000 .f32) (harg2 : arg2.IsWhole)
    (arg3 : Memref sig .tc .vmem S128x64 .f32) (harg3 : arg3.IsWhole)
    (arg4 : Memref sig .tc .vmem S1x64 .f32) (harg4 : arg4.IsWhole)
    (arg5 : Memref sig .tc .vmem S200x64 .f32) (harg5 : arg5.IsWhole)
    (arg6 : Memref sig .tc .vmem S10000x64 .f32) (harg6 : arg6.IsWhole)
    (hc : cond0 i)
    (x : Vec F S10000x128 .f32) (a : Vec F S200x10000 .f32) (w : Vec F S128x64 .f32) (b : Vec F S1x64 .f32)
    (K : PUnit → sProp 𝕄) :
    iprop(owns (c : Thread nD τ) arg1 fullShare x ∗ owns (c : Thread nD τ) arg2 fullShare a
        ∗ owns (c : Thread nD τ) arg3 fullShare w ∗ owns (c : Thread nD τ) arg4 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare a
            ∗ owns (c : Thread nD τ) arg3 fullShare w ∗ owns (c : Thread nD τ) arg4 fullShare b
            ∗ owns (c : Thread nD τ) arg5 fullShare (k0_pay2 a (k0_pay1 x w) b)
            ∗ owns (c : Thread nD τ) arg6 fullShare (k0_pay1 x w)) -∗ K ⟨⟩))
      ⊢ wp frame (wpE (defs₀ (F := F)) Variants.none c none) E
          (cc0__layer1_body i arg1 harg1 arg2 harg2 arg3 harg3 arg4 harg4 arg5 harg5 arg6 harg6) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz2 inb_S200x64_S200x64_0_0 y⟩)]
    rw [View.canon_unit_zero hz2]
    sl_unfold_run_names
    rw [View.readCov_unit_zero _ hz2]
    simp only [View.readAt_eq_ld, View.ld_unit_zero (S := S200x10000) hz2, View.ld_unit_zero (S := S10000x128) hz2, View.ld_unit_zero (S := S128x64) hz2, View.ld_unit_zero (S := S1x64) hz2]
  iexists _; isplitr
  swap; · iexact H6
  ipureintro
  sl_unfold_run_names
  rw [View.read_writes_eq_canon _ _ _ (fun y => ⟨_, List.mem_singleton_self _, View.mem_set_unit_zero hz2 inb_S10000x64_S10000x64_0_0 y⟩)]
  rw [View.canon_unit_zero hz2]
  simp only [View.readAt_eq_ld, View.ld_unit_zero (S := S10000x128) hz2, View.ld_unit_zero (S := S128x64) hz2]

set_option maxHeartbeats 1000000 in
/-- A LATER POINT.  With its condition false the body touches neither `x` nor `w`; the scratch, handed in at
    contents `s`, is only read; the output block ends at `k0_pay2 a s b`. -/
theorem run0_later (c : Dev nD) (E : Set ℕ) (i : grid0.Coords)
    (arg1 : Memref sig .tc .vmem S10000x128 .f32) (harg1 : arg1.IsWhole)
    (arg2 : Memref sig .tc .vmem S200x10000 .f32) (harg2 : arg2.IsWhole)
    (arg3 : Memref sig .tc .vmem S128x64 .f32) (harg3 : arg3.IsWhole)
    (arg4 : Memref sig .tc .vmem S1x64 .f32) (harg4 : arg4.IsWhole)
    (arg5 : Memref sig .tc .vmem S200x64 .f32) (harg5 : arg5.IsWhole)
    (arg6 : Memref sig .tc .vmem S10000x64 .f32) (harg6 : arg6.IsWhole)
    (hc : ¬cond0 i)
    (x : Vec F S10000x128 .f32) (a : Vec F S200x10000 .f32) (w : Vec F S128x64 .f32) (b : Vec F S1x64 .f32)
    (s : Vec F S10000x64 .f32)
    (K : PUnit → sProp 𝕄) :
    iprop(owns (c : Thread nD τ) arg1 fullShare x ∗ owns (c : Thread nD τ) arg2 fullShare a
        ∗ owns (c : Thread nD τ) arg3 fullShare w ∗ owns (c : Thread nD τ) arg4 fullShare b
        ∗ (∃ d, owns (c : Thread nD τ) arg5 fullShare d) ∗ owns (c : Thread nD τ) arg6 fullShare s
        ∗ (iprop(owns (c : Thread nD τ) arg1 fullShare x ∗ owns (c : Thread nD τ) arg2 fullShare a
            ∗ owns (c : Thread nD τ) arg3 fullShare w ∗ owns (c : Thread nD τ) arg4 fullShare b
            ∗ owns (c : Thread nD τ) arg5 fullShare (k0_pay2 a s b)
            ∗ owns (c : Thread nD τ) arg6 fullShare s) -∗ K ⟨⟩))
      ⊢ wp frame (wpE (defs₀ (F := F)) Variants.none c none) E
          (cc0__layer1_body i arg1 harg1 arg2 harg2 arg3 harg3 arg4 harg4 arg5 harg5 arg6 harg6) K := by
  simp only [cc0__layer1_body_eq_skeleton]; unfold cc0__layer1_body_skel
  unfold owns
  iintro ⟨H1, ⟨%f2, %hf2, H2⟩, H3, ⟨%f4, %hf4, H4⟩, ⟨%d5, %f5, -, H5⟩, ⟨%f6, %hf6, H6⟩, Hk⟩
  subst hf2; subst hf4; subst hf6
  sl_exec (disch := first | exact hc)
  sl_step
  iapply Hk
  isplitl [H1]; · iexact H1
  isplitl [H2]
  · iexists f2; isplitr; · ipureintro; rfl
    iexact H2
  isplitl [H3]; · iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz2 inb_S200x64_S200x64_0_0 y⟩)]
    rw [View.canon_unit_zero hz2]
    sl_unfold_run_names
    simp only [View.readAt_eq_ld, View.ld_unit_zero (S := S200x10000) hz2, View.ld_unit_zero (S := S10000x64) hz2, View.ld_unit_zero (S := S1x64) hz2]
  iexists f6; isplitr; · ipureintro; rfl
  iexact H6

end Cert.KernelIdeal.Hand

end
-- ==== Proof.KI.R0.lean ====
/-
  Region 0 (layer 1) of the kernel program: its proof data and body obligation, at any float instance and at any
  contents `V` of the TensorCore's buffers when the region is entered.

  The region walks the 50 blocks of 200 rows of the adjacency.  The feature block, the weight block and the bias
  row do not move with the point, so each is fetched once and stays in its buffer; the adjacency block is fetched
  at every point; the output block is written back at every point.  The kernel's scratch is not a window: the body
  fills it with the product `x · W1` at the first point and only reads it afterwards, so the region's invariant has
  to carry it — before the first point the scratch holds anything, after any point it holds that product (`sc0`).
  With that, the body at point `t` leaves `max (adj_t · sc0 + b1, 0)` in the output block (`out0`): at the first
  point because the product it has just stored is `sc0`, at a later point because the invariant says so.
-/
import proofs.«165518_g91036126806365_cont_sun_c4_16_3_alg».proof.Proof.KI.R0Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The invariant: the scratch carried from point to point -/

/-- The kernel's scratch, a whole scoped buffer passed to the body beside the windows. -/
abbrev scM0 : Memref sig .tc .vmem S10000x64 .f32 := Memref.whole cc0_scratch0

/-- The core's other scoped buffers that are no staging buffer of this region (they belong to region 1), each at
    some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the launch hands the region, with the scratch as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-- The invariant before position `n`: before the first point what the launch hands over (the scratch at
    anything); afterwards the scratch at the product the first point stored, the other scoped buffers and the
    generator register as they may be. -/
def Phi0 (c : Dev nD) : ℕ → sProp 𝕄
  | 0 => Pipeline.ΦA spec0 c
  | _ + 1 => iprop((owns (c : Thread nD τ) scM0 fullShare (sc0 V c) ∗ rest0 (F := F) c) ∗ (∃ r, prngReg c r))

theorem Phi0_zero (c : Dev nD) (n : ℕ) (hz : n = 0) : Phi0 V c n = Pipeline.ΦA spec0 c := by
  subst hz; rfl

theorem Phi0_pos (c : Dev nD) (n : ℕ) (hz : n ≠ 0) :
    Phi0 V c n = iprop((owns (c : Thread nD τ) scM0 fullShare (sc0 V c) ∗ rest0 (F := F) c) ∗ (∃ r, prngReg c r)) := by
  cases n with
  | zero => exact absurd rfl hz
  | succ n => rfl

/-! ## The proof data -/

/-- The proof data of pipeline 0 on core `c`: the arrays as the region finds them; after the body at point `t`
    each input's buffer at its block and the output's at `out0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- The invariant at a point's start and at its end, restated at the point's number. -/
theorem Phi_castSucc (c : Dev nD) (t : Fin cfg0.N) : (dat0 V c).Φ t.castSucc = Phi0 V c t.val := by
  dsimp only [dat0]; simp only [Fin.coe_castSucc]

theorem Phi_succ (c : Dev nD) (t : Fin cfg0.N) :
    (dat0 V c).Φ t.succ = iprop((owns (c : Thread nD τ) scM0 fullShare (sc0 V c) ∗ rest0 (F := F) c) ∗ (∃ r, prngReg c r)) := rfl

/-- Each input's current staging buffer holds its block at every point, fetched there or not: an input that is not
    fetched at a point has the block index it had at the point before, and the body leaves inputs in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The first point's product is the carried product -/

/-- At the first point the blocks the body multiplies are the ones `sc0` is stated at. -/
theorem sc0_first (c : Dev nD) (t : Fin cfg0.N) (hz : t.val = 0) :
    sc0 V c = k0_pay1 (iblk0 V c 0 t) (iblk0 V c 2 t) := by
  obtain rfl : t = t00 := Fin.ext hz
  rfl

/-- So there the output block computed from the product just stored is `out0`. -/
theorem out0_first (c : Dev nD) (t : Fin cfg0.N) (hz : t.val = 0) :
    out0 V c t = k0_pay2 (iblk0 V c 1 t) (k0_pay1 (iblk0 V c 0 t) (iblk0 V c 2 t)) (iblk0 V c 3 t) := by
  unfold out0; rw [sc0_first V c t hz]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4800000 in
/-- The body at any point.  The inputs' buffers hold their blocks (`before0_W`).  At the first point the invariant
    hands the scratch at anything and `run0_first` applies: it leaves the scratch at the product of that point's
    blocks, which is `sc0`, and the output block at `out0`.  At a later point the invariant hands the scratch at
    `sc0` and `run0_later` applies.  The other scoped buffers, the generator register and the core's debts pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi_succ, Phi_castSucc, after0_0, after0_1, after0_2, after0_3, after0_4]
  by_cases hz : t.val = 0
  · rw [Phi0_zero V c _ hz, PhiA0_eq, out0_first V c t hz, sc0_first V c t hz]
    iintro ⟨⟨⟨HS, HR⟩, Hg⟩, Ho, ⟨%d0, H0⟩, ⟨%d1, H1⟩, ⟨%d2, H2⟩, ⟨%d3, H3⟩, ⟨%d4, H4⟩⟩
    iapply (run0_first c Set.univ (grid0.coords t) _ _ _ _ _ _ _ _ _ _ _ _ ((hcond0 t).mpr hz)
      (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Phi0_pos V c _ hz]
    iintro ⟨⟨⟨HS, HR⟩, Hg⟩, Ho, ⟨%d0, H0⟩, ⟨%d1, H1⟩, ⟨%d2, H2⟩, ⟨%d3, H3⟩, ⟨%d4, H4⟩⟩
    iapply (run0_later c Set.univ (grid0.coords t) _ _ _ _ _ _ _ _ _ _ _ _ (fun h => hz ((hcond0 t).mp h))
      (iblk0 V c 0 t) (iblk0 V c 1 t) (iblk0 V c 2 t) (iblk0 V c 3 t) (sc0 V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    unfold out0; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = Phi0 V c 0 from rfl, Phi0_zero V c 0 rfl]
  try exact Idealize.SL.BI.Entails.refl _

/-- After the last point the invariant gives it back: what the scratch holds is forgotten. -/
theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val from rfl,
    Phi0_pos V c _ (by rw [Fin.val_last]; have : cfg0.N = 50 := N_0; omega), PhiA0_eq]
  iintro ⟨⟨HS, HR⟩, Hg⟩
  isplitl [HS HR]
  · isplitl [HS]
    · iexists _; iexact HS
    iexact HR
  iexact Hg

end Cert.KernelIdeal.Hand

end
-- ==== Proof.KI.R1Run.lean ====
/-
  Region 1 (layer 2 and the tail) of the kernel program, the body case by case: the closed forms of the body's two conditions
  over the grid, where the output window is idle, what the region's invariant is made of, that every input window's
  staging memref holds its block at every point, and the body's Hoare triple in each of its three cases (the first
  point, a middle point, the last point), at any float instance.
-/
import proofs.«165518_g91036126806365_cont_sun_c4_16_3_alg».proof.Proof.KI.Vals
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

/-- The zero offsets of a whole-buffer access, as the function that is zero everywhere. -/
theorem hz2 : (![0, 0] : Fin 2 → Nat) = fun _ => 0 := funext fun a => by fin_cases a <;> rfl

/-- A list of stores whose last is a store of the whole buffer covers the buffer. -/
theorem cover_unit_zero {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-! ## The body's two conditions -/

/-- The first conditional's condition (the grid coordinate is 0), from the coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional's condition (the grid coordinate is 49), from the coordinates. -/
abbrev cond1_1 (i : grid1.Coords) : Prop := k1_cond2 i = 1#1
/-- It holds at the last point only. -/
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Off the last point the output window is idle and is not written back; at the last point it is live. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The memrefs the body is called with -/

abbrev ms1_0 (t : Fin cfg1.N) : Memref sig .tc .vmem S200x10000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x16 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x16 .f32 := win1_7.stage (cfg1.slots t 7)
abbrev hs1_7 (t : Fin cfg1.N) : (ms1_7 t).IsWhole := hstage1_7 ((cfg1.slots t 7).cast nbuf1_7)
/-- The two scratch operands: whole scoped buffers of the kernel's own. -/
abbrev scM1_0 : Memref sig .tc .vmem S10000x16 .f32 := Memref.whole cc1_scratch0
abbrev scM1_1 : Memref sig .tc .vmem S1x16 .f32 := Memref.whole cc1_scratch1

/-- A scoped buffer of the core held whole at some contents. -/
abbrev anyBuf (c : Dev nD) (b : Ref sig .tc) : sProp 𝕄 :=
  iprop(∃ f : Buf (Elt F) ((c : Thread nD τ).loc b), ((c : Thread nD τ).loc b) ↦{fullShare} f)

/-- The class invariant with the two scratch operands as memrefs owned at some contents. -/
theorem PhiA1_eq (c : Dev nD) :
    (Pipeline.ΦA spec1 c : sProp 𝕄)
      = iprop(iprop(anyBuf c cc0_stg0_0 ∗ anyBuf c cc0_stg1_0 ∗ anyBuf c cc0_stg1_1 ∗ anyBuf c cc0_stg2_0 ∗ anyBuf c cc0_stg3_0 ∗ anyBuf c cc0_stg4_0 ∗ anyBuf c cc0_stg4_1 ∗ anyBuf c cc0_scratch0 ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The input windows' staging memrefs hold their blocks at every point -/

section Before
variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
end Before

/-! ## The body's triple, case by case -/

set_option maxHeartbeats 1000000 in
/-- The body at the first grid point (first conditional taken, second not): it loads the `h1` and `W2` blocks and stores
    their product whole into the first scratch, stores zero whole into the accumulator, then loads the adjacency
    block, the first scratch, the bias row and the accumulator and stores the accumulator plus the block's column
    sums whole into the accumulator. The loaded memrefs come back as they were; the two scratch memrefs hold the
    product and the first partial sum. The other staging memrefs are not touched. -/
theorem run1_A (c : Dev nD) (i : grid1.Coords) (arg1 : Memref sig .tc .vmem S200x10000 .f32) (harg1 : arg1.IsWhole) (arg2 : Memref sig .tc .vmem S10000x64 .f32) (harg2 : arg2.IsWhole) (arg3 : Memref sig .tc .vmem S64x16 .f32) (harg3 : arg3.IsWhole) (arg4 : Memref sig .tc .vmem S1x16 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S10000x16 .f32) (harg9 : arg9.IsWhole) (arg10 : Memref sig .tc .vmem S1x16 .f32) (harg10 : arg10.IsWhole) (hc0 : cond1_0 i) (hc1 : ¬cond1_1 i)
    (x0 : Vec F S200x10000 .f32) (x1 : Vec F S10000x64 .f32) (x2 : Vec F S64x16 .f32) (x3 : Vec F S1x16 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg9 fullShare (k1_pay1 x1 x2) ∗ owns (c : Thread nD τ) arg10 fullShare (k1_pay3 x0 (k1_pay1 x1 x2) x3 (k1_pay2 (F := F)))) -∗ K ⟨⟩))
      ⊢ wp frame (wpE (defs₀ (F := F)) Variants.none c none) E (cc1__layer2_body i arg1 harg1 arg2 harg2 arg3 harg3 arg4 harg4 arg5 harg5 arg6 harg6 arg7 harg7 arg8 harg8 arg9 harg9 arg10 harg10) K := by
  simp only [cc1__layer2_body_eq_skeleton]; unfold cc1__layer2_body_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_words
    rw [View.read_writes_eq_canon _ _ _ (cover_unit_zero hz2 _ _ _)]
    rw [View.canon_unit_zero hz2]
    simp only [View.readAt_eq_ld, harg2.read_unread, harg3.read_unread, View.ld_unit_zero (S := S10000x64) hz2, View.ld_unit_zero (S := S64x16) hz2]
  iexists _; isplitr
  swap; · iexact HS1
  ipureintro
  sl_unfold_words
  rw [View.read_writes_eq_canon _ _ _ (cover_unit_zero hz2 _ _ _)]
  rw [View.canon_cons_unit_zero hz2]
  rw [View.readCov_unit_zero (S := S10000x16) _ hz2, View.readCov_unit_zero (S := S1x16) _ hz2]
  simp only [View.readAt_eq_ld, harg1.read_unread, harg2.read_unread, harg3.read_unread, harg4.read_unread, View.ld_unit_zero (S := S200x10000) hz2, View.ld_unit_zero (S := S1x16) hz2, View.ld_unit_zero (S := S10000x64) hz2, View.ld_unit_zero (S := S64x16) hz2]

set_option maxHeartbeats 1000000 in
/-- The body at a point that is neither the first nor the last (neither conditional taken): it loads the adjacency
    block, the first scratch, the bias row and the accumulator and stores the accumulator plus the block's column
    sums whole into the accumulator. -/
theorem run1_B (c : Dev nD) (i : grid1.Coords) (arg1 : Memref sig .tc .vmem S200x10000 .f32) (harg1 : arg1.IsWhole) (arg2 : Memref sig .tc .vmem S10000x64 .f32) (harg2 : arg2.IsWhole) (arg3 : Memref sig .tc .vmem S64x16 .f32) (harg3 : arg3.IsWhole) (arg4 : Memref sig .tc .vmem S1x16 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S10000x16 .f32) (harg9 : arg9.IsWhole) (arg10 : Memref sig .tc .vmem S1x16 .f32) (harg10 : arg10.IsWhole) (hc0 : ¬cond1_0 i) (hc1 : ¬cond1_1 i)
    (x0 : Vec F S200x10000 .f32) (x3 : Vec F S1x16 .f32) (xs0 : Vec F S10000x16 .f32) (xs1 : Vec F S1x16 .f32)
    (E : Set ℕ) (K : PUnit → sProp 𝕄) :
    iprop(owns (c : Thread nD τ) arg1 fullShare x0 ∗ owns (c : Thread nD τ) arg4 fullShare x3 ∗ owns (c : Thread nD τ) arg9 fullShare xs0 ∗ owns (c : Thread nD τ) arg10 fullShare xs1
        ∗ (iprop(owns (c : Thread nD τ) arg1 fullShare x0 ∗ owns (c : Thread nD τ) arg4 fullShare x3 ∗ owns (c : Thread nD τ) arg9 fullShare xs0 ∗ owns (c : Thread nD τ) arg10 fullShare (k1_pay3 x0 xs0 x3 xs1)) -∗ K ⟨⟩))
      ⊢ wp frame (wpE (defs₀ (F := F)) Variants.none c none) E (cc1__layer2_body i arg1 harg1 arg2 harg2 arg3 harg3 arg4 harg4 arg5 harg5 arg6 harg6 arg7 harg7 arg8 harg8 arg9 harg9 arg10 harg10) K := by
  simp only [cc1__layer2_body_eq_skeleton]; unfold cc1__layer2_body_skel
  unfold owns
  iintro ⟨⟨%f0, %hf0, H0⟩, ⟨%f3, %hf3, H3⟩, ⟨%fs0, %hfs0, HS0⟩, ⟨%fs1, %hfs1, HS1⟩, Hk⟩
  obtain rfl := harg1.eq_unread hf0; obtain rfl := harg4.eq_unread hf3; obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H3]
  · iexists _; isplitr; · ipureintro; exact harg4.read_unread _
    iexact H3
  isplitl [HS0]
  · iexists _; isplitr; · ipureintro; exact harg9.read_unread _
    iexact HS0
  iexists _; isplitr
  swap; · iexact HS1
  ipureintro
  sl_unfold_words
  rw [View.read_writes_eq_canon _ _ _ (cover_unit_zero hz2 _ _ _)]
  rw [View.canon_unit_zero hz2]
  simp only [View.readAt_eq_ld, harg1.read_unread, harg4.read_unread, harg9.read_unread, harg10.read_unread, View.ld_unit_zero (S := S200x10000) hz2, View.ld_unit_zero (S := S1x16) hz2, View.ld_unit_zero (S := S10000x16) hz2]

set_option maxHeartbeats 1000000 in
/-- The body at the last grid point (first conditional not taken, second taken): the accumulation as at the other
    points, then it loads the accumulator, the side branch's input, weight and bias blocks (and the output's staging
    memref, whose value it does not use) and stores the tail of the network whole into the output's staging memref. -/
theorem run1_C (c : Dev nD) (i : grid1.Coords) (arg1 : Memref sig .tc .vmem S200x10000 .f32) (harg1 : arg1.IsWhole) (arg2 : Memref sig .tc .vmem S10000x64 .f32) (harg2 : arg2.IsWhole) (arg3 : Memref sig .tc .vmem S64x16 .f32) (harg3 : arg3.IsWhole) (arg4 : Memref sig .tc .vmem S1x16 .f32) (harg4 : arg4.IsWhole) (arg5 : Memref sig .tc .vmem S1x256 .f32) (harg5 : arg5.IsWhole) (arg6 : Memref sig .tc .vmem S256x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S10000x16 .f32) (harg9 : arg9.IsWhole) (arg10 : Memref sig .tc .vmem S1x16 .f32) (harg10 : arg10.IsWhole) (hc0 : ¬cond1_0 i) (hc1 : cond1_1 i)
    (x0 : Vec F S200x10000 .f32) (x3 : Vec F S1x16 .f32) (x4 : Vec F S1x256 .f32) (x5 : Vec F S256x16 .f32) (x6 : Vec F S1x16 .f32)
    (xs0 : Vec F S10000x16 .f32) (xs1 : Vec F S1x16 .f32)
    (E : Set ℕ) (K : PUnit → sProp 𝕄) :
    iprop(owns (c : Thread nD τ) arg1 fullShare x0 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay4 (k1_pay3 x0 xs0 x3 xs1) x4 x5 x6) ∗ owns (c : Thread nD τ) arg9 fullShare xs0 ∗ owns (c : Thread nD τ) arg10 fullShare (k1_pay3 x0 xs0 x3 xs1)) -∗ K ⟨⟩))
      ⊢ wp frame (wpE (defs₀ (F := F)) Variants.none c none) E (cc1__layer2_body i arg1 harg1 arg2 harg2 arg3 harg3 arg4 harg4 arg5 harg5 arg6 harg6 arg7 harg7 arg8 harg8 arg9 harg9 arg10 harg10) K := by
  simp only [cc1__layer2_body_eq_skeleton]; unfold cc1__layer2_body_skel
  unfold owns
  iintro ⟨⟨%f0, %hf0, H0⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  obtain rfl := harg1.eq_unread hf0; obtain rfl := harg4.eq_unread hf3; obtain rfl := harg5.eq_unread hf4; obtain rfl := harg6.eq_unread hf5; obtain rfl := harg7.eq_unread hf6
  obtain rfl := harg9.eq_unread hfs0; obtain rfl := harg10.eq_unread hfs1
  sl_exec (disch := first | exact hc0 | exact hc1)
  sl_step
  iapply Hk
  isplitl [H0]
  · iexists _; isplitr; · ipureintro; exact harg1.read_unread _
    iexact H0
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    rw [View.read_writes_eq_canon _ _ _ (cover_unit_zero hz2 _ _ _)]
    rw [View.canon_unit_zero hz2]
    rw [View.readCov_unit_zero (S := S1x16) _ hz2]
    simp only [View.readAt_eq_ld, harg1.read_unread, harg4.read_unread, harg5.read_unread, harg6.read_unread, harg7.read_unread, harg9.read_unread, harg10.read_unread, View.ld_unit_zero (S := S200x10000) hz2, View.ld_unit_zero (S := S1x16) hz2, View.ld_unit_zero (S := S10000x16) hz2, View.ld_unit_zero (S := S1x256) hz2, View.ld_unit_zero (S := S256x16) hz2]
  isplitl [HS0]
  · iexists _; isplitr; · ipureintro; exact harg9.read_unread _
    iexact HS0
  iexists _; isplitr
  swap; · iexact HS1
  ipureintro
  sl_unfold_words
  rw [View.read_writes_eq_canon _ _ _ (cover_unit_zero hz2 _ _ _)]
  rw [View.canon_unit_zero hz2]
  simp only [View.readAt_eq_ld, harg1.read_unread, harg4.read_unread, harg9.read_unread, harg10.read_unread, View.ld_unit_zero (S := S200x10000) hz2, View.ld_unit_zero (S := S1x16) hz2, View.ld_unit_zero (S := S10000x16) hz2]

end Cert.KernelIdeal.Hand

end
-- ==== Proof.KI.R1.lean ====
/-
  Region 1 (layer 2 and the tail) of the kernel program: its proof data and body obligation, at any float instance
  and at any contents `V` of the TensorCore's buffers when the region is entered. The region's invariant carries the
  two scratch buffers from point to point: after any point the first holds the product `h1 · W2` and the second the
  column sums accumulated so far.
-/
import proofs.«165518_g91036126806365_cont_sun_c4_16_3_alg».proof.Proof.KI.R1Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The accumulator and the product, point by point -/

/-- At the first point the accumulator is the first block's column sums over zero. -/
theorem acc1_zero (c : Dev nD) (t : Fin cfg1.N) (h0 : t.val = 0) :
    acc1 V c t.val t.isLt = k1_pay3 (iblk1 V c 0 t) (sc1 V c) (iblk1 V c 3 t) (k1_pay2 (F := F)) := by
  obtain ⟨n, hn⟩ := t
  cases n with
  | zero => rfl
  | succ n => exact absurd h0 (Nat.succ_ne_zero n)

/-- At a later point it is the point's block's column sums over what the point before left. -/
theorem acc1_pos (c : Dev nD) (t : Fin cfg1.N) (h0 : t.val ≠ 0) :
    acc1 V c t.val t.isLt = k1_pay3 (iblk1 V c 0 t) (sc1 V c) (iblk1 V c 3 t) (acc1 V c (t.val - 1) (Nat.lt_of_le_of_lt (Nat.sub_le _ _) t.isLt)) := by
  obtain ⟨n, hn⟩ := t
  cases n with
  | zero => exact absurd rfl h0
  | succ n => rfl

/-- The product, from the first point's own blocks. -/
theorem sc1_eq (c : Dev nD) (t : Fin cfg1.N) (h0 : t.val = 0) : sc1 V c = k1_pay1 (iblk1 V c 1 t) (iblk1 V c 2 t) := by
  obtain rfl : t = t10 := Fin.ext h0
  rfl

/-! ## The region's invariant -/

/-- The invariant before position `n`: before the first point the class's (every scoped buffer that is no staging
    buffer at anything, the generator register at some state); afterwards the same with the first scratch at the
    product and the second at the sums up to the point before. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg1_0 ∗ anyBuf c cc0_stg1_1 ∗ anyBuf c cc0_stg2_0 ∗ anyBuf c cc0_stg3_0 ∗ anyBuf c cc0_stg4_0 ∗ anyBuf c cc0_stg4_1 ∗ anyBuf c cc0_scratch0 ∗ owns (c : Thread nD τ) scM1_0 fullShare (sc1 V c) ∗ owns (c : Thread nD τ) scM1_1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf c cc0_stg0_0 ∗ anyBuf c cc0_stg1_0 ∗ anyBuf c cc0_stg1_1 ∗ anyBuf c cc0_stg2_0 ∗ anyBuf c cc0_stg3_0 ∗ anyBuf c cc0_stg4_0 ∗ anyBuf c cc0_stg4_1 ∗ anyBuf c cc0_scratch0 ∗ owns (c : Thread nD τ) scM1_0 fullShare (sc1 V c) ∗ owns (c : Thread nD τ) scM1_1 fullShare (acc1 V c n hn)) ∗ (∃ r, prngReg c r)) := rfl

theorem PhiS1_pos (c : Dev nD) (n : ℕ) (h : n ≤ cfg1.N) (hz : n ≠ 0) :
    PhiS1 V c n h = iprop(iprop(anyBuf c cc0_stg0_0 ∗ anyBuf c cc0_stg1_0 ∗ anyBuf c cc0_stg1_1 ∗ anyBuf c cc0_stg2_0 ∗ anyBuf c cc0_stg3_0 ∗ anyBuf c cc0_stg4_0 ∗ anyBuf c cc0_stg4_1 ∗ anyBuf c cc0_scratch0 ∗ owns (c : Thread nD τ) scM1_0 fullShare (sc1 V c) ∗ owns (c : Thread nD τ) scM1_1 fullShare (acc1 V c (n - 1) (by omega))) ∗ (∃ r, prngReg c r)) := by
  cases n with
  | zero => exact absurd rfl hz
  | succ n => rfl

/-! ## The proof data -/

/-- The proof data of pipeline 1 on core `c`: the arrays as the region finds them; after the body at point `t`
    each input's buffer at its block and the output's at `out1` (consulted at the last point only: the window is
    idle elsewhere); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' memrefs hold their blocks; the closed forms of the two conditions say which of
    the three cases the point is in, and that case's triple applies; the invariant hands the body the two scratch
    buffers (at anything before the first point, at the product and the sums so far afterwards) and takes them back at
    the product and the sums including this point; off the last point the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val = 0
  · have h1 : ¬t.val = 49 := by omega
    rw [Dat.leavesExact_idle (dat1 V c) 7 t (idleAt1_7 t (fun h => h1 ((hcond1_1 t).mp h))) (noFlush1_7 t (fun h => h1 ((hcond1_1 t).mp h)))]
    rw [acc1_zero V c t h0, sc1_eq V c t h0]
    rw [PhiS1_castSucc V c t, PhiS1_zero V c _ _ h0, PhiA1_eq]
    iintro ⟨⟨⟨HR0, HR1, HR2, HR3, HR4, HR5, HR6, HR7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HR0 HR1 HR2 HR3 HR4 HR5 HR6 HR7 HS0 HS1 Hg]
    · isplitl [HR0 HR1 HR2 HR3 HR4 HR5 HR6 HR7 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val = 49
    · rw [show (dat1 V c).leavesExact 7 t = owns (c : Thread nD τ) (ms1_7 t) fullShare ((dat1 V c).after 7 t) from by
        unfold Dat.leavesExact; rw [liveAt1_7 t ((hcond1_1 t).mpr h1)], after1_7]
      unfold out1
      rw [acc1_pos V c t h0]
      rw [PhiS1_castSucc V c t, PhiS1_pos V c _ _ h0]
      iintro ⟨⟨⟨HR0, HR1, HR2, HR3, HR4, HR5, HR6, HR7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c (grid1.coords t) _ _ _ _ _ _ _ _ _ _ _ _ _ _ _ _ _ _ _ _ (fun h => h0 ((hcond1_0 t).mp h)) ((hcond1_1 t).mpr h1) (iblk1 V c 0 t) (iblk1 V c 3 t) (iblk1 V c 4 t) (iblk1 V c 5 t) (iblk1 V c 6 t) (sc1 V c) (acc1 V c (t.val - 1) _) Set.univ _)
      isplitl [H0]; · iexact H0
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H3, H4, H5, H6, H7, HS0, HS1⟩
      isplitl [HR0 HR1 HR2 HR3 HR4 HR5 HR6 HR7 HS0 HS1 Hg]
      · isplitl [HR0 HR1 HR2 HR3 HR4 HR5 HR6 HR7 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 7 t (idleAt1_7 t (fun h => h1 ((hcond1_1 t).mp h))) (noFlush1_7 t (fun h => h1 ((hcond1_1 t).mp h)))]
      rw [acc1_pos V c t h0]
      rw [PhiS1_castSucc V c t, PhiS1_pos V c _ _ h0]
      iintro ⟨⟨⟨HR0, HR1, HR2, HR3, HR4, HR5, HR6, HR7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ _ _ (fun h => h0 ((hcond1_0 t).mp h)) (fun h => h1 ((hcond1_1 t).mp h)) (iblk1 V c 0 t) (iblk1 V c 3 t) (sc1 V c) (acc1 V c (t.val - 1) _) Set.univ _)
      isplitl [H0]; · iexact H0
      isplitl [H3]; · iexact H3
      isplitl [HS0]; · iexact HS0
      isplitl [HS1]; · iexact HS1
      iintro ⟨H0, H3, HS0, HS1⟩
      isplitl [HR0 HR1 HR2 HR3 HR4 HR5 HR6 HR7 HS0 HS1 Hg]
      · isplitl [HR0 HR1 HR2 HR3 HR4 HR5 HR6 HR7 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the scratch buffers' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HS0, HS1⟩, Hg⟩
  isplitl [HR0 HR1 HR2 HR3 HR4 HR5 HR6 HR7 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HS0]; · iexists _; iexact HS0
    iexists _; iexact HS1
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 50 := N_1; omega)

end Cert.KernelIdeal.Hand

end
-- ==== Proof.KI.Frame.lean ====
/-
  The kernel program's run, at any float instance: @main is a host stretch, region 0, a host stretch, region 1. The
  buffer contents at each boundary are named (a stretch applies its operations; a region leaves in each of its arrays
  what its write-backs leave and every other buffer as entered), every argument array is walked back through them to
  its launch contents, and the result array is what region 1's write-backs leave.
-/
import proofs.«165518_g91036126806365_cont_sun_c4_16_3_alg».proof.Proof.KI.R0
import proofs.«165518_g91036126806365_cont_sun_c4_16_3_alg».proof.Proof.KI.R1
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation and no region writes one -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W3_main_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_main_arg1 m ρ c)
theorem W3_main_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg1 m ρ c)
theorem W4_main_arg1 (c : Dev nD) : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (W3_main_arg1 m ρ c)
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg2 m ρ c)
theorem W4_main_arg2 (c : Dev nD) : W4 m ρ c (Proc.devRef .tc main_arg2) = m ((c : Thread nD τ).loc main_arg2) :=
  ((W4_arr m ρ c 4).trans (((dat1 (V3 m ρ) c).arrAt_in 4 rfl _).trans (A_eq1 (V3 m ρ) c 4))).trans (W3_main_arg2 m ρ c)
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg3 (c : Dev nD) : W2 m ρ c (Proc.devRef .tc main_arg3) = m ((c : Thread nD τ).loc main_arg3) :=
  ((W2_arr m ρ c 2).trans (((dat0 (V1 m ρ) c).arrAt_in 2 rfl _).trans (A_eq0 (V1 m ρ) c 2))).trans (W1_main_arg3 m ρ c)
theorem W3_main_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg5 m ρ c)
theorem W4_main_arg5 (c : Dev nD) : W4 m ρ c (Proc.devRef .tc main_arg5) = m ((c : Thread nD τ).loc main_arg5) :=
  ((W4_arr m ρ c 2).trans (((dat1 (V3 m ρ) c).arrAt_in 2 rfl _).trans (A_eq1 (V3 m ρ) c 2))).trans (W3_main_arg5 m ρ c)
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)

/-- Region 0's result array `main_v1` reaches region 1 as region 0's write-backs left it. -/
theorem W3_main_v1 (c : Dev nD) : W3 m ρ c (Proc.devRef .tc main_v1) = (dat0 (V1 m ρ) c).arrAt 4 cfg0.N :=
  (StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 4)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the boundary's contents, left at the next
    boundary's; its arrays split out of the unscoped buffers and put back at what the write-backs leave; the generator
    register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's; its arrays split out of the unscoped buffers and put back at what the write-backs leave; the generator
    register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting; the
    result array ends at what region 1's write-backs leave and every argument array as launched. -/
theorem run : θ_run defs (onTc (τ := τ) (main (F := F))) ⟨m, fun _ => 0, ρ⟩ (fun r => ∀ c : Dev nD,
      r.2.mem ((c.tc : Thread nD τ).loc main_v5) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Hand

end
-- ==== Proof.LibRowBias.lean ====
/-
  A vector laid out as a one-row table.

  Reshaping a vector of length n to the table [1, n] moves no element: the table's one row is the vector.  So the
  table read at row 0, column k is the vector's entry k.  This is how a bias vector reaches a kernel that takes its
  bias as a [1, n] row.
-/
import Idealize.ShloMosaic.Lib.ValueIdx
import Idealize.ShloMosaic.Lib.ValueLayout

namespace Cert.LibRowBias

open Idealize.ShloMosaic Idealize.ShloMosaic.ValueIdx

/-- A length-n vector laid out as a one-row table reads, at the row's one coordinate u and column k, the vector's
    entry k. -/
theorem row_of_vec_apply_at {n : ℕ} {α : Type} (b : (⟨1, ![n]⟩ : Shape).Idx → α)
    (h : (⟨1, ![n]⟩ : Shape).ShapeCasts ⟨2, ![1, n]⟩) (u : Fin 1) (k : Fin n) :
    shapeCast (⟨2, ![1, n]⟩ : Shape) b h (ix2 u k) = b (ix1 k) :=
  shapeCast_a_1a_apply b h u k

/-- A length-n vector laid out as a one-row table reads, at row 0 and column k, the vector's entry k. -/
theorem row_of_vec_apply {n : ℕ} {α : Type} (b : (⟨1, ![n]⟩ : Shape).Idx → α)
    (h : (⟨1, ![n]⟩ : Shape).ShapeCasts ⟨2, ![1, n]⟩) (k : Fin n) :
    shapeCast (⟨2, ![1, n]⟩ : Shape) b h (ix2 (0 : Fin 1) k) = b (ix1 k) :=
  row_of_vec_apply_at b h 0 k

end Cert.LibRowBias
-- ==== Proof.KI.Host.lean ====
/-
  The host stretches of the kernel program read at an index, at the ideal instance: the bias vectors laid as one-row
  tables, and `fc1_w` transposed.
-/
import proofs.«165518_g91036126806365_cont_sun_c4_16_3_alg».proof.Proof.KI.Frame
import proofs.«165518_g91036126806365_cont_sun_c4_16_3_alg».proof.Proof.LibRowBias
import Idealize.ShloMosaic.Lib.StableHlo.Run
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable (m : (ℓ : Loc nD τ sig) → Buf (Elt Ideal) ℓ) (ρ : Dev nD → PrngReg)

/-- Region 0 finds `b1` as the one-row table `main_v0`: at `(0, q)` the vector's entry `q`. -/
theorem V1_v0_apply (c : Dev nD) (q : Fin 64) :
    V1 (F := Ideal) m ρ c main_v0 (ix2 (0 : Fin 1) q) = m ((c : Thread nD τ).loc main_arg4) (ix1 q) := by
  have e : V1 (F := Ideal) m ρ c main_v0 = shapeCast S1x64 (m ((c : Thread nD τ).loc main_arg4)) shapeCasts_S64_S1x64 := by
    show StableHlo.after hostOps0 (W0 m ρ c) (Proc.devRef .tc main_v0) = _
    after_results; rfl
  rw [e]; exact Cert.LibRowBias.row_of_vec_apply _ _ q

/-- Region 1 finds `b2` as the one-row table `main_v2`. -/
theorem V3_v2_apply (c : Dev nD) (q : Fin 16) :
    V3 (F := Ideal) m ρ c main_v2 (ix2 (0 : Fin 1) q) = m ((c : Thread nD τ).loc main_arg6) (ix1 q) := by
  have e : V3 (F := Ideal) m ρ c main_v2 = shapeCast S1x16 (W2 m ρ c (Proc.devRef .tc main_arg6)) shapeCasts_S16_S1x16 := by
    show StableHlo.after hostOps1 (W2 m ρ c) (Proc.devRef .tc main_v2) = _
    after_results; rfl
  rw [e, W2_main_arg6]; exact Cert.LibRowBias.row_of_vec_apply _ _ q

/-- Region 1 finds `fc1_w` transposed as `main_v3`: at `(a, b)` the matrix's entry `(b, a)`. -/
theorem V3_v3_apply (c : Dev nD) (a : Fin 256) (b : Fin 16) :
    V3 (F := Ideal) m ρ c main_v3 (ix2 a b) = m ((c : Thread nD τ).loc main_arg7) (ix2 b a) := by
  have e : V3 (F := Ideal) m ρ c main_v3 = transpose S256x16 [1, 0] (W2 m ρ c (Proc.devRef .tc main_arg7)) transposes_S16x256_S256x16_1_0 := by
    show StableHlo.after hostOps1 (W2 m ρ c) (Proc.devRef .tc main_v3) = _
    after_results
  rw [e, W2_main_arg7]; exact transpose_ix2_apply _ _ a b

/-- Region 1 finds `fc1_b` as the one-row table `main_v4`. -/
theorem V3_v4_apply (c : Dev nD) (q : Fin 16) :
    V3 (F := Ideal) m ρ c main_v4 (ix2 (0 : Fin 1) q) = m ((c : Thread nD τ).loc main_arg8) (ix1 q) := by
  have e : V3 (F := Ideal) m ρ c main_v4 = shapeCast S1x16 (W2 m ρ c (Proc.devRef .tc main_arg8)) shapeCasts_S16_S1x16 := by
    show StableHlo.after hostOps1 (W2 m ρ c) (Proc.devRef .tc main_v4) = _
    after_results; rfl
  rw [e, W2_main_arg8]; exact Cert.LibRowBias.row_of_vec_apply _ _ q

end Cert.KernelIdeal.Hand

end
-- ==== Proof.Spec.lean ====
/-
  The network both programs compute, on the extended reals, index by index:
    h1  = max (adj · (x · W1) + b1, 0)                     (10000 × 64)
    h2  = max (adj · (h1 · W2) + b2, 0)                    (10000 × 16)
    s   = the column sums of h2                            (16)
    p   = s · (1 / 10000)
    u   = c_scale · (p if 0 < p else c_alpha · (exp p − 1))
    o   = u + c_half · (sub_fea · fc1_wᵀ + fc1_b)
    out = (o − max o) − log (Σ exp (o − max o))
  The three float literals stay the words the programs print (the same words on both sides).
-/
import Idealize.ShloMosaic.PureOps.Ideal
import Idealize.ShloMosaic.Lib.ValueIdx

noncomputable section

open scoped BigOperators

namespace Cert.Spec

open Idealize.ShloMosaic Idealize.ShloMosaic.ValueIdx

/-- An array of two axes, and of one, over the extended reals. -/
abbrev Arr2 (a b : ℕ) : Type := (⟨2, ![a, b]⟩ : Shape).Idx → EReal
abbrev Arr1 (a : ℕ) : Type := (⟨1, ![a]⟩ : Shape).Idx → EReal

/-- Row `k`, column `j` of `x · W1`. -/
def xw (x : Arr2 10000 128) (w1 : Arr2 128 64) (k : Fin 10000) (j : Fin 64) : EReal :=
  ∑ l : Fin 128, x (ix2 k l) * w1 (ix2 l j)

/-- One graph-convolution layer on a precomputed support `g`: `max (adj · g + b, 0)` at row `i`, column `j`. -/
def layer {n : ℕ} (adj : Arr2 10000 10000) (g : Fin 10000 → Fin n → EReal) (b : Arr1 n) (i : Fin 10000) (j : Fin n) : EReal :=
  max ((∑ k : Fin 10000, adj (ix2 i k) * g k j) + b (ix1 j)) 0

/-- The first layer's activations. -/
def h1 (x : Arr2 10000 128) (adj : Arr2 10000 10000) (w1 : Arr2 128 64) (b1 : Arr1 64) : Fin 10000 → Fin 64 → EReal :=
  layer adj (xw x w1) b1

/-- Row `k`, column `j` of `h · W2`. -/
def hw (h : Fin 10000 → Fin 64 → EReal) (w2 : Arr2 64 16) (k : Fin 10000) (j : Fin 16) : EReal :=
  ∑ l : Fin 64, h k l * w2 (ix2 l j)

/-- The second layer's activations. -/
def h2 (x : Arr2 10000 128) (adj : Arr2 10000 10000) (w1 : Arr2 128 64) (b1 : Arr1 64) (w2 : Arr2 64 16) (b2 : Arr1 16) :
    Fin 10000 → Fin 16 → EReal :=
  layer adj (hw (h1 x adj w1 b1) w2) b2

/-- The column sums over the 10000 nodes. -/
def colsum (f : Fin 10000 → Fin 16 → EReal) (j : Fin 16) : EReal := ∑ i : Fin 10000, f i j

/-- The three literals of the tail, as the words both programs print: selu's scale and alpha, and the mixing ratio. -/
abbrev cScale : EReal := Ideal.ofBits .f32 0x3F867D5F#32
abbrev cAlpha : EReal := Ideal.ofBits .f32 0x3FD62D7D#32
abbrev cHalf : EReal := Ideal.ofBits .f32 0x3F000000#32

/-- The mean over the nodes followed by selu, at one class. -/
def selu (s : EReal) : EReal :=
  let p := s * ((1 / 10000 : ℝ) : EReal)
  cScale * (if 0 < p then p else cAlpha * (Ideal.exp p - 1))

/-- The logits: selu of the pooled mean plus half the dense side branch `sub_fea · fc1_wᵀ + fc1_b`. -/
def logit (s : Fin 16 → EReal) (sub : Arr2 1 256) (fw : Arr2 16 256) (fb : Arr1 16) (j : Fin 16) : EReal :=
  selu (s j) + cHalf * ((∑ q : Fin 256, sub (ix2 0 q) * fw (ix2 j q)) + fb (ix1 j))

/-- log-softmax over the 16 classes of a logit vector. -/
def logSoftmax (o : Fin 16 → EReal) (j : Fin 16) : EReal :=
  (o j - ⨆ k : Fin 16, o k) - Ideal.log (∑ k : Fin 16, Ideal.exp (o k - ⨆ k' : Fin 16, o k'))

/-- The tail of the network on the column sums `s`. -/
def tail (s : Fin 16 → EReal) (sub : Arr2 1 256) (fw : Arr2 16 256) (fb : Arr1 16) (j : Fin 16) : EReal :=
  logSoftmax (logit s sub fw fb) j

/-- The whole network: the result array `[1, 16]` as a function of the nine argument arrays. -/
def out (x : Arr2 10000 128) (adj : Arr2 10000 10000) (sub : Arr2 1 256) (w1 : Arr2 128 64) (b1 : Arr1 64)
    (w2 : Arr2 64 16) (b2 : Arr1 16) (fw : Arr2 16 256) (fb : Arr1 16) : Arr2 1 16 :=
  fun i => tail (colsum (h2 x adj w1 b1 w2 b2)) sub fw fb (i 1)

end Cert.Spec

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.LibMaxReduce.lean ====
/-
  A maximum taken along ONE axis, at the ideal float values, is the supremum over that axis's coordinates.

  At the ideal values `maximumf` is `max` on the extended reals, so a reduction with a maximum body from
  `-∞` along one axis is, at each reduced index `j`, the least upper bound of the source's entries at
  `j` with each coordinate `k` of the reduced axis put back (`Shape.Reduces.lift j k`). Stated for the
  in-kernel vector reduction and for the host's one-operand reduce, as an `⨆` over `Fin`: a form whose
  only law a proof needs is `iSup_le_iff`.
-/
import Idealize.ShloMosaic.PureOps.Ideal.Laws
import Idealize.ShloMosaic.PureOps.Reduce

noncomputable section

namespace Idealize.ShloMosaic.Ideal

/-- The f32 pattern of `-∞` denotes the bottom of the extended reals. -/
theorem ofBits_negInf_f32 : Ideal.ofBits .f32 0xFF800000#32 = (⊥ : EReal) := by
  simp [Ideal.ofBits, Ideal.ieee]

/-- A fold of `max` from the bottom over all of `Fin n` is the supremum of the entries. -/
theorem fold_max_bot_eq_iSup {n : Nat} (f : Fin n → EReal) :
    (Finset.univ : Finset (Fin n)).fold max (⊥ : EReal) f = ⨆ k : Fin n, f k := by
  refine eq_of_forall_ge_iff fun z => ?_
  rw [Finset.fold_max_le, iSup_le_iff]
  exact ⟨fun h k => h.2 k (Finset.mem_univ k), fun h => ⟨bot_le, fun k _ => h k⟩⟩

/-- The in-kernel maximum along one axis from `-∞`, at a reduced index, is the supremum over that axis. -/
theorem multiReduction_maximumf_single_iSup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf_f32]
  exact fold_max_bot_eq_iSup _

/-- The host's one-operand reduce with a maximum body from `-∞` along one axis is the same supremum. -/
theorem hostReduce_maximumf_single_iSup {s t u : Shape} {a : Fin s.rank} (x : FVec Ideal s .f32)
    (h' : s.ReducesTo [a] t) (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (x ∘ h.lift j) = _
  rw [ofBits_negInf_f32]
  exact fold_max_bot_eq_iSup _

end Idealize.ShloMosaic.Ideal

end
-- ==== Proof.KI.PayRead.lean ====
/-
  The values the kernel's bodies store, read at one index, at the extended reals.

  Each stored value is a short chain of vector operations over the values loaded before it. Read at an index,
  and with no rounding left at the extended reals, a product into the zero accumulator is the finite sum over
  the contracted coordinate, a broadcast row is its entry, a reduction along one axis is the sum (or the
  supremum) over that axis, and the elementwise operations are the extended reals' own. So every stored value
  is, entry by entry, the corresponding expression of the network.
-/
import proofs.«165518_g91036126806365_cont_sun_c4_16_3_alg».proof.Proof.Gen.KernelIdeal.Skeleton
import proofs.«165518_g91036126806365_cont_sun_c4_16_3_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import proofs.«165518_g91036126806365_cont_sun_c4_16_3_alg».proof.Proof.LibTileMatmul
import proofs.«165518_g91036126806365_cont_sun_c4_16_3_alg».proof.Proof.LibRowBias
import proofs.«165518_g91036126806365_cont_sun_c4_16_3_alg».proof.Proof.LibMaxReduce

set_option maxRecDepth 16384

noncomputable section

open scoped BigOperators

namespace Cert.KernelIdeal.Hand

open Cert.KernelIdeal Cert.KernelIdeal.Gen Idealize.ShloMosaic Idealize.ShloMosaic.ValueIdx

/-- The zero word denotes zero. -/
theorem pay1_2_apply (i : S1x16.Idx) : k1_pay2 (F := Ideal) i = 0 := by
  unfold k1_pay2
  rw [shapeCast_self]
  exact Ideal.ofBits_zero_f32

/-- Region 0's scratch: row k, column j of x · W1. -/
theorem pay0_1_apply (x : Vec Ideal S10000x128 .f32) (w1 : Vec Ideal S128x64 .f32) (k : Fin 10000) (j : Fin 64) :
    k0_pay1 (F := Ideal) x w1 (ix2 k j) = ∑ l : Fin 128, x (ix2 k l) * w1 (ix2 l j) := by
  unfold k0_pay1
  rw [shapeCast_self]
  exact TileMatmul.matmul_zero_apply _ none x w1 k j

/-- Region 1's first scratch: row k, column j of h · W2. -/
theorem pay1_1_apply (h : Vec Ideal S10000x64 .f32) (w2 : Vec Ideal S64x16 .f32) (k : Fin 10000) (j : Fin 16) :
    k1_pay1 (F := Ideal) h w2 (ix2 k j) = ∑ l : Fin 64, h (ix2 k l) * w2 (ix2 l j) := by
  unfold k1_pay1
  rw [shapeCast_self, shapeCast_self]
  exact TileMatmul.matmul_zero_apply _ none h w2 k j

/-- Region 0's output block: row r, column j of max (adj_blk · s + b, 0). -/
theorem pay0_2_apply (a : Vec Ideal S200x10000 .f32) (s : Vec Ideal S10000x64 .f32) (b : Vec Ideal S1x64 .f32)
    (r : Fin 200) (j : Fin 64) :
    k0_pay2 (F := Ideal) a s b (ix2 r j)
      = max ((∑ k : Fin 10000, a (ix2 r k) * s (ix2 k j)) + b (ix2 0 j)) 0 := by
  unfold k0_pay2
  rw [shapeCast_self, maximumf_apply, addf_apply, broadcast_apply, broadcastTo_1b_ab_apply]
  rw [show (Scalar.ofBits .f32 0x00000000#32 : Ideal .f32) = 0 from Ideal.ofBits_zero_f32]
  refine congrArg (fun z => max (z + b (ix2 0 j)) 0) ?_
  exact TileMatmul.matmul_zero_apply _ none a s r j

/-- A sum along the rows of a 200 × 16 table from zero, read at column j: the sum over the rows of the entries. -/
theorem rowsum_read (v : FVec Ideal S200x16 .f32) (hφ : FKind.Formats .f32)
    (hacc : (0x00000000#32 : BitVec 32) = FKind.add.neutral .f32 hφ) (j : Fin 16) :
    multiReduction .add [0] S16 v 0x00000000#32 reduces_S200x16_S16 hφ hacc (ix1 j) = ∑ r : Fin 200, v (ix2 r j) := by
  refine (Ideal.multiReduction_add_single v 0x00000000#32 reduces_S200x16_S16 hφ hacc (ix1 j)).trans ?_
  refine Finset.sum_congr rfl fun r _ => congrArg v ?_
  funext c
  match c with
  | ⟨0, _⟩ => rfl
  | ⟨1, _⟩ => rfl

/-- Region 1's accumulator after a point: what it held plus the column sums of max (adj_blk · s + b, 0). -/
theorem pay1_3_apply (a : Vec Ideal S200x10000 .f32) (s : Vec Ideal S10000x16 .f32) (b a0 : Vec Ideal S1x16 .f32)
    (j : Fin 16) :
    k1_pay3 (F := Ideal) a s b a0 (ix2 0 j)
      = a0 (ix2 0 j) + ∑ r : Fin 200, max ((∑ k : Fin 10000, a (ix2 r k) * s (ix2 k j)) + b (ix2 0 j)) 0 := by
  unfold k1_pay3
  rw [shapeCast_self, shapeCast_self, addf_apply, shapeCast_a_1a_apply]
  refine congrArg (fun z => a0 (ix2 0 j) + z) ?_
  refine (rowsum_read _ _ _ j).trans ?_
  refine Finset.sum_congr rfl fun r _ => ?_
  rw [maximumf_apply, addf_apply, broadcast_apply, broadcastTo_1b_ab_apply]
  rw [show (Scalar.ofBits .f32 0x00000000#32 : Ideal .f32) = 0 from Ideal.ofBits_zero_f32]
  refine congrArg (fun z => max (z + b (ix2 0 j)) 0) ?_
  exact TileMatmul.matmul_zero_apply _ none a s r j

/-! ## The tail: mean, selu, the dense side branch, log-softmax -/

/-- The named reciprocal denotes 1/10000. -/
theorem inv_10000 :
    Named.named (F := Ideal) Cert.KernelIdeal.κ "inv_10000" (φ := .f32) 0x38D1B717#32 = ((1 / 10000 : ℝ) : EReal) :=
  IdealRules.named_const.ideal_named_scalar _ _ _ _ rfl

/-- The word of 1.0 denotes one. -/
theorem ofBits_one_f32 : Ideal.ofBits .f32 0x3F800000#32 = 1 := by
  simp [Ideal.ofBits, Ideal.ieee, -EReal.coe_mul]; norm_num

/-- A select on "p is greater than z" between p and e is the `if`. -/
theorem select_ogt (p z e : EReal) : Scalar.select (Ideal.cmp .ogt p z) p e = if z < p then p else e := by
  unfold Scalar.select Ideal.cmp
  by_cases h : z < p <;> simp [h]

/-- The exponential and the logarithm of a vector, at an index, are the extended reals'. -/
theorem exp_apply {s : Shape} (v : FVec Ideal s .f32) (i : s.Idx) : exp v i = Ideal.exp (v i) := rfl
theorem log_apply {s : Shape} (v : FVec Ideal s .f32) (i : s.Idx) : log v i = Ideal.log (v i) := rfl

/-- A 1 × 1 table spread along a row of 16 reads its one entry at every column. -/
theorem bcast_read {α : Type} (w : S1x1.Idx → α) (j : Fin 16) :
    broadcastTo S1x16 w broadcasts_S1x1_S1x16 (ix2 (0 : Fin 1) j) = w (ix2 (0 : Fin 1) (0 : Fin 1)) := by
  refine broadcastTo_apply w broadcasts_S1x1_S1x16 (ix2 (0 : Fin 1) j) (ix2 (0 : Fin 1) (0 : Fin 1)) fun c => ?_
  match c with
  | ⟨0, _⟩ => rfl
  | ⟨1, _⟩ => rfl

/-- The maximum along the one row of a 1 × 16 table from -∞: the supremum of the row's entries. -/
theorem rowmax_read (v : FVec Ideal S1x16 .f32) (hφ : FKind.Formats .f32)
    (hacc : (0xFF800000#32 : BitVec 32) = FKind.maximumf.neutral .f32 hφ) :
    multiReduction .maximumf [1] S1 v 0xFF800000#32 reduces_S1x16_S1 hφ hacc (ix1 (0 : Fin 1))
      = ⨆ k : Fin 16, v (ix2 (0 : Fin 1) k) := by
  refine (Ideal.multiReduction_maximumf_single_iSup v reduces_S1x16_S1 hφ hacc (ix1 (0 : Fin 1))).trans ?_
  refine iSup_congr fun k => congrArg v ?_
  funext c
  match c with
  | ⟨0, _⟩ => rfl
  | ⟨1, _⟩ => rfl

/-- The sum along the one row of a 1 × 16 table from zero: the sum of the row's entries. -/
theorem rowsum16_read (v : FVec Ideal S1x16 .f32) (hφ : FKind.Formats .f32)
    (hacc : (0x00000000#32 : BitVec 32) = FKind.add.neutral .f32 hφ) :
    multiReduction .add [1] S1 v 0x00000000#32 reduces_S1x16_S1 hφ hacc (ix1 (0 : Fin 1))
      = ∑ k : Fin 16, v (ix2 (0 : Fin 1) k) := by
  refine (Ideal.multiReduction_add_single v 0x00000000#32 reduces_S1x16_S1 hφ hacc (ix1 (0 : Fin 1))).trans ?_
  refine Finset.sum_congr rfl fun k _ => congrArg v ?_
  funext c
  match c with
  | ⟨0, _⟩ => rfl
  | ⟨1, _⟩ => rfl

/-- The last operations of the tail on a row v of logits — subtract the row's maximum, then the logarithm of the sum
    of the exponentials — read at column j: the log-softmax of the row. -/
theorem lsm_read (v : FVec Ideal S1x16 .f32) (hφ hφ' : FKind.Formats .f32)
    (hm : (0xFF800000#32 : BitVec 32) = FKind.maximumf.neutral .f32 hφ)
    (ha : (0x00000000#32 : BitVec 32) = FKind.add.neutral .f32 hφ') (j : Fin 16) :
    subf
        (subf v (broadcastTo S1x16 (shapeCast S1x1
          (multiReduction .maximumf [1] S1 v 0xFF800000#32 reduces_S1x16_S1 hφ hm) shapeCasts_S1_S1x1) broadcasts_S1x1_S1x16))
        (broadcastTo S1x16 (log (shapeCast S1x1
          (multiReduction .add [1] S1
            (exp (subf v (broadcastTo S1x16 (shapeCast S1x1
              (multiReduction .maximumf [1] S1 v 0xFF800000#32 reduces_S1x16_S1 hφ hm) shapeCasts_S1_S1x1) broadcasts_S1x1_S1x16)))
            0x00000000#32 reduces_S1x16_S1 hφ' ha) shapeCasts_S1_S1x1)) broadcasts_S1x1_S1x16)
        (ix2 (0 : Fin 1) j)
      = Cert.Spec.logSoftmax (fun q => v (ix2 (0 : Fin 1) q)) j := by
  have hmax : ∀ q : Fin 16,
      broadcastTo S1x16 (shapeCast S1x1
          (multiReduction .maximumf [1] S1 v 0xFF800000#32 reduces_S1x16_S1 hφ hm) shapeCasts_S1_S1x1) broadcasts_S1x1_S1x16
          (ix2 (0 : Fin 1) q)
        = ⨆ k : Fin 16, v (ix2 (0 : Fin 1) k) := fun q =>
    (bcast_read _ q).trans ((shapeCast_a_1a_apply _ shapeCasts_S1_S1x1 0 0).trans (rowmax_read v hφ hm))
  rw [subf_apply, subf_apply, hmax, bcast_read, log_apply, shapeCast_a_1a_apply, rowsum16_read]
  unfold Cert.Spec.logSoftmax
  refine congrArg (fun z => (v (ix2 (0 : Fin 1) j) - ⨆ k : Fin 16, v (ix2 (0 : Fin 1) k)) - Ideal.log z) ?_
  refine Finset.sum_congr rfl fun k _ => ?_
  rw [exp_apply, subf_apply, hmax]

/-- Region 1's output block at the last point: the tail of the network on the accumulator's row. -/
theorem pay1_4_apply (a : Vec Ideal S1x16 .f32) (sub : Vec Ideal S1x256 .f32) (fwt : Vec Ideal S256x16 .f32)
    (fb : Vec Ideal S1x16 .f32) (j : Fin 16) :
    k1_pay4 (F := Ideal) a sub fwt fb (ix2 0 j)
      = Cert.Spec.tail (fun q => a (ix2 0 q)) sub (fun i => fwt (ix2 (i 1) (i 0))) (fun q => fb (ix2 0 (q 0))) j := by
  unfold k1_pay4
  refine (lsm_read _ _ _ _ _ j).trans ?_
  unfold Cert.Spec.tail
  refine congrArg (fun o => Cert.Spec.logSoftmax o j) (funext fun q => ?_)
  rw [shapeCast_self, shapeCast_self]
  simp only [addf_apply, mulf_apply, subf_apply, broadcast_apply, select_apply, cmpf_apply, exp_apply]
  simp only [Ideal.ofBits_def, Ideal.cmpf_def, select_ogt, inv_10000, Ideal.ofBits_zero_f32, ofBits_one_f32]
  rw [show matmul (F := Ideal) dot_S1x256_S256x16_S1x16_1_0_0_1_n_n none sub fwt
        (constant (F := Ideal) S1x16 .f32 0x00000000#32) (ix2 (0 : Fin 1) q)
      = ∑ c : Fin 256, sub (ix2 (0 : Fin 1) c) * fwt (ix2 c q) from TileMatmul.matmul_zero_apply _ none sub fwt 0 q]
  rfl

end Cert.KernelIdeal.Hand

end
-- ==== Proof.KI.R0V.lean ====
/-
  The array region 0 leaves behind, index by index, at the extended reals.

  Region 0 walks the 10000 rows of the adjacency in 50 blocks of 200. At its first point it stores the product
  x · W1 in a scratch; at every point t it stores, into block t of the output, max (adj_t · scratch + b1, 0),
  where adj_t is rows 200 t … 200 t + 199 of the adjacency. Row r of block t is row 200 t + r of the whole
  array, so every block is the restriction of ONE function of the argument arrays — the first layer of the
  network — and, the 50 blocks covering the rows, the output array ends holding that function.
-/
import proofs.«165518_g91036126806365_cont_sun_c4_16_3_alg».proof.Proof.KI.R0
import proofs.«165518_g91036126806365_cont_sun_c4_16_3_alg».proof.Proof.KI.PayRead
import proofs.«165518_g91036126806365_cont_sun_c4_16_3_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)

open Cert.KernelIdeal Cert.KernelIdeal.Gen

/-- One entry of an output block, over the blocks the body loads: if row r of the adjacency block is row i of the
    adjacency, and the other three blocks are their whole arrays, the entry at (r, j) is the first layer at (i, j). -/
theorem layer_block (ablk : Vec Ideal S200x10000 .f32) (xb : Vec Ideal S10000x128 .f32) (wb : Vec Ideal S128x64 .f32)
    (bb : Vec Ideal S1x64 .f32) (adj : Cert.Spec.Arr2 10000 10000) (x : Cert.Spec.Arr2 10000 128)
    (w1 : Cert.Spec.Arr2 128 64) (b : Cert.Spec.Arr2 1 64) (r : Fin 200) (j : Fin 64) (i : Fin 10000)
    (hadj : ∀ k : Fin 10000, ablk (ix2 r k) = adj (ix2 i k)) (hx : xb = x) (hw : wb = w1) (hb : bb = b) :
    k0_pay2 (F := Ideal) ablk (k0_pay1 (F := Ideal) xb wb) bb (ix2 r j)
      = Cert.Spec.layer adj (Cert.Spec.xw x w1) (fun q => b (ix2 0 (q 0))) i j := by
  subst hx hw hb
  rw [pay0_2_apply]
  unfold Cert.Spec.layer
  refine congrArg (fun z => max (z + bb (ix2 0 j)) 0) (Finset.sum_congr rfl fun k _ => ?_)
  rw [hadj k, pay0_1_apply]
  rfl

/-- The printed index maps over the grid: the adjacency's and the output's blocks move with the point along the rows;
    the other three windows stay on their one block. -/
theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block of x at any point is all of x. -/
theorem read_whole0 (f : S10000x128.Idx → EReal) (t : Fin cfg0.N) :
    ((cfg0.win 0).blk t).view.read (Elt Ideal) f = f := by
  obtain ⟨e0, e1, -⟩ := idx_facts0 t
  funext y
  show f (((cfg0.win 0).blk t).view.emb y) = f y
  refine congrArg f (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The block of W1 at any point is all of W1. -/
theorem read_whole2 (f : S128x64.Idx → EReal) (t : Fin cfg0.N) :
    ((cfg0.win 2).blk t).view.read (Elt Ideal) f = f := by
  obtain ⟨-, -, -, -, e0, e1, -⟩ := idx_facts0 t
  funext y
  show f (((cfg0.win 2).blk t).view.emb y) = f y
  refine congrArg f (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The block of the bias row at any point is the whole row. -/
theorem read_whole3 (f : S1x64.Idx → EReal) (t : Fin cfg0.N) :
    ((cfg0.win 3).blk t).view.read (Elt Ideal) f = f := by
  obtain ⟨-, -, -, -, -, -, e0, e1, -⟩ := idx_facts0 t
  funext y
  show f (((cfg0.win 3).blk t).view.emb y) = f y
  refine congrArg f (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Row r of the adjacency's block at point t is row 200 t + r of the adjacency. -/
theorem read_rows1 (f : S10000x10000.Idx → EReal) (t : Fin cfg0.N) (r : Fin 200) (k : Fin 10000) (i : Fin 10000)
    (hi : i.val = t.val * 200 + r.val) :
    ((cfg0.win 1).blk t).view.read (Elt Ideal) f (ix2 r k) = f (ix2 i k) := by
  obtain ⟨-, -, e0, e1, -⟩ := idx_facts0 t
  show f (((cfg0.win 1).blk t).view.emb (ix2 r k)) = f (ix2 i k)
  refine congrArg f (funext fun a => Fin.ext ?_)
  match a with
  | ⟨0, _⟩ => show win0_1.index t (0 : Fin 2) * 200 + 1 * r.val = i.val; omega
  | ⟨1, _⟩ => show win0_1.index t (1 : Fin 2) * 10000 + 1 * k.val = k.val; omega

variable (V : (c : Dev nD) → (b : Ref sig .tc) → Buf (Elt Ideal) ((c : Thread nD τ).loc b))

/-- The first layer over the arrays as region 0 finds them. -/
def G0 (c : Dev nD) : S10000x64.Idx → EReal := fun i =>
  Cert.Spec.layer (V c main_arg1) (Cert.Spec.xw (V c main_arg0) (V c main_arg3)) (fun q => V c main_v0 (ix2 0 (q 0))) (i 0) (i 1)

/-- Entry (r, j) of the output block at point t is the first layer at row 200 t + r, column j. -/
theorem out_entry (c : Dev nD) (t : Fin cfg0.N) (r : Fin 200) (j : Fin 64) (i : Fin 10000)
    (hi : i.val = t.val * 200 + r.val) : out0 V c t (ix2 r j) = G0 V c (ix2 i j) :=
  layer_block (iblk0 V c 1 t) (iblk0 V c 0 t00) (iblk0 V c 2 t00) (iblk0 V c 3 t)
    (V c main_arg1) (V c main_arg0) (V c main_arg3) (V c main_v0) r j i
    (fun k => read_rows1 (V c main_arg1) t r k i hi) (read_whole0 (V c main_arg0) t00)
    (read_whole2 (V c main_arg3) t00) (read_whole3 (V c main_v0) t)

/-- What point t writes back is block t of the first layer. -/
theorem flushed0_eq (c : Dev nD) (t : Fin cfg0.N) :
    (dat0 (F := Ideal) V c).flushed 4 t = ((cfg0.win 4).blk t).view.read (Elt Ideal) (G0 V c) := by
  show (cfg0.win 4).cut (grid0.coords t) ((dat0 V c).after 4 t) = _
  rw [after0_4]
  funext y
  obtain ⟨-, -, -, -, -, -, -, -, e0, e1⟩ := idx_facts0 t
  have hN : grid0.N = 50 := N_0
  have ht : t.val < 50 := by have h : t.val < grid0.N := t.isLt; omega
  have hy0 : (y 0).val < 200 := (y 0).isLt
  have hy1 : (y 1).val < 64 := (y 1).isLt
  have hx : (cfg0.win 4).xinj (grid0.coords t) y = ix2 (⟨(y 0).val, hy0⟩ : Fin 200) (⟨(y 1).val, hy1⟩ : Fin 64) :=
    funext fun a => match a with
      | ⟨0, _⟩ => rfl
      | ⟨1, _⟩ => rfl
  show out0 V c t ((cfg0.win 4).xinj (grid0.coords t) y) = G0 V c (((cfg0.win 4).blk t).view.emb y)
  rw [hx]
  refine (out_entry V c t ⟨(y 0).val, hy0⟩ ⟨(y 1).val, hy1⟩ ⟨t.val * 200 + (y 0).val, by omega⟩ rfl).trans ?_
  refine congrArg (G0 V c) (funext fun a => Fin.ext ?_)
  match a with
  | ⟨0, _⟩ => show t.val * 200 + (y 0).val = win0_4.index t (0 : Fin 2) * 200 + 1 * (y 0).val; omega
  | ⟨1, _⟩ => show (y 1).val = win0_4.index t (1 : Fin 2) * 64 + 1 * (y 1).val; omega

/-- An index of the output array is in point t's block iff each coordinate is in the block's range on its axis. -/
theorem mem_blk4 (t : Fin cfg0.N) (i : S10000x64.Idx) :
    i ∈ ((cfg0.win 4).blk t).view.set
      ↔ ∀ a : Fin 2, win0_4.index t a * S200x64.size a ≤ (i a).val
          ∧ (i a).val < win0_4.index t a * S200x64.size a + S200x64.size a := by
  show i ∈ ((View.whole main_v1).slice (win0_4.rect t)).set ↔ _
  rw [View.set_slice_whole, Rect.mem_set_unit]
  exact Iff.rfl

/-- Row i of the output array is in the block of point i / 200. -/
theorem cover4 (i : S10000x64.Idx) :
    ∃ t : Fin cfg0.N, (cfg0.win 4).flush t = true ∧ i ∈ ((cfg0.win 4).blk t).view.set := by
  have hN : grid0.N = 50 := N_0
  have hi0 : (i 0).val < 10000 := (i 0).isLt
  have hi1 : (i 1).val < 64 := (i 1).isLt
  have htlt : (i 0).val / 200 < grid0.N := by omega
  obtain ⟨-, -, -, -, -, -, -, -, e0, e1⟩ := idx_facts0 ⟨(i 0).val / 200, htlt⟩
  refine ⟨⟨(i 0).val / 200, htlt⟩, flush0_4 _, ?_⟩
  rw [mem_blk4]
  intro a
  match a with
  | ⟨0, _⟩ =>
    show win0_4.index ⟨(i 0).val / 200, htlt⟩ (0 : Fin 2) * 200 ≤ (i 0).val
      ∧ (i 0).val < win0_4.index ⟨(i 0).val / 200, htlt⟩ (0 : Fin 2) * 200 + 200
    rw [e0]
    show (i 0).val / 200 * 200 ≤ (i 0).val ∧ (i 0).val < (i 0).val / 200 * 200 + 200
    omega
  | ⟨1, _⟩ =>
    show win0_4.index ⟨(i 0).val / 200, htlt⟩ (1 : Fin 2) * 64 ≤ (i 1).val
      ∧ (i 1).val < win0_4.index ⟨(i 0).val / 200, htlt⟩ (1 : Fin 2) * 64 + 64
    rw [e1]
    omega

/-- The array region 0 leaves in its output: the first layer of the network over the arrays the region finds. -/
theorem arr0_eq (c : Dev nD) (i : Fin 10000) (j : Fin 64) :
    (dat0 (F := Ideal) V c).arrAt 4 cfg0.N (ix2 i j)
      = Cert.Spec.layer (V c main_arg1) (Cert.Spec.xw (V c main_arg0) (V c main_arg3))
          (fun q => V c main_v0 (ix2 0 (q 0))) i j :=
  congrFun ((dat0 (F := Ideal) V c).arrAt_eq_of_cover 4 (G0 V c) (fun t _ => flushed0_eq V c t) (cover4)) (ix2 i j)

end Cert.KernelIdeal.Hand

end
-- ==== Proof.LibBlockSum.lean ====
/-
  Sums over rows cut into equal blocks.

  A table of B·R rows is processed block by block, R rows at a time, and a running total is kept: it starts from
  zero, takes the first block's sum, and then one more block's sum per step.  The two lemmas say that the sum over all
  rows is the sum over the blocks of the sums inside each block, and that the running total after step n is the sum of
  the blocks 0, …, n.  Both hold in any commutative additive monoid, so at infinite values too.
-/
import Idealize.ShloMosaic.PureOps.Ideal

open scoped BigOperators

namespace Cert.LibBlockSum

/-- Row r of block t, in a table of B blocks of R rows, is a row of the table: t·R + r < B·R. -/
theorem block_lt {B R : ℕ} (t : Fin B) (r : Fin R) : t.val * R + r.val < B * R :=
  calc t.val * R + r.val < t.val * R + R := Nat.add_lt_add_left r.isLt _
    _ = (t.val + 1) * R := (Nat.succ_mul _ _).symm
    _ ≤ B * R := Nat.mul_le_mul_right _ t.isLt

/-- A sum over B·R rows is the sum over the B blocks of the sums over the R rows inside each block, row r of block t
    being row t·R + r. -/
theorem sum_blocks {M : Type*} [AddCommMonoid M] (B R : ℕ) (f : Fin (B * R) → M) :
    ∑ i : Fin (B * R), f i = ∑ t : Fin B, ∑ r : Fin R, f ⟨t.val * R + r.val, block_lt t r⟩ := by
  rw [← Equiv.sum_comp finProdFinEquiv f, Fintype.sum_prod_type]
  refine Finset.sum_congr rfl fun t _ => Finset.sum_congr rfl fun r _ => congrArg f (Fin.ext ?_)
  show r.val + R * t.val = t.val * R + r.val
  rw [Nat.mul_comm, Nat.add_comm]

/-- The same for a function of the row's number. -/
theorem sum_blocks_nat {M : Type*} [AddCommMonoid M] (B R : ℕ) (f : ℕ → M) :
    ∑ i : Fin (B * R), f i.val = ∑ t : Fin B, ∑ r : Fin R, f (t.val * R + r.val) :=
  sum_blocks B R fun i => f i.val

/-- A running total that starts from zero plus block 0's sum and adds block k+1's sum at step k+1 holds, after step n,
    the sum of the blocks 0, …, n. -/
theorem acc_blocks {M : Type*} [AddCommMonoid M] (g : ℕ → M) :
    ∀ n, (Nat.rec (0 + g 0) (fun k acc => acc + g (k + 1)) n : M) = ∑ t ∈ Finset.range (n + 1), g t := by
  intro n
  induction n with
  | zero =>
    rw [Finset.sum_range_one]
    exact zero_add (g 0)
  | succ n ih =>
    show (Nat.rec (0 + g 0) (fun k acc => acc + g (k + 1)) n : M) + g (n + 1) = _
    rw [ih, Finset.sum_range_succ _ (n + 1)]

/-- A sum over the first B naturals is the sum over the B-element index type. -/
theorem sum_range_eq_fin {M : Type*} [AddCommMonoid M] (g : ℕ → M) (B : ℕ) :
    ∑ t ∈ Finset.range B, g t = ∑ t : Fin B, g t.val :=
  (Fin.sum_univ_eq_sum_range g B).symm

/-- So for a table of B + 1 blocks of R rows, with the blocks' sums g t = ∑ r, f (t·R + r), the running total after
    the last step, step B, is the sum over all (B + 1)·R rows. -/
theorem acc_all_rows {M : Type*} [AddCommMonoid M] (B R : ℕ) (f : ℕ → M) :
    (Nat.rec (0 + ∑ r : Fin R, f (0 * R + r.val)) (fun k acc => acc + ∑ r : Fin R, f ((k + 1) * R + r.val)) B : M)
      = ∑ i : Fin ((B + 1) * R), f i.val := by
  rw [acc_blocks (fun t => ∑ r : Fin R, f (t * R + r.val)) B, sum_range_eq_fin, sum_blocks_nat]

end Cert.LibBlockSum
-- ==== Proof.KI.R1V.lean ====
/-
  Region 1's value: what the result array holds after the second layer and the tail, at the extended reals.

  The region walks the 10000 rows of the adjacency in 50 blocks of 200 rows.  Its first point forms the support
  h1 · W2 once; every point adds, to a running row of 16 totals, the column sums of max (adj_blk · support + b2, 0)
  over the block's 200 rows; the last point applies the tail (mean, selu, the dense side branch, log-softmax) to the
  totals and writes the row back.  Row r of block t is row 200·t + r of the adjacency, so the running totals after
  the last block are the column sums over all 10000 rows, and the row written back is the tail of those sums.
-/
import proofs.«165518_g91036126806365_cont_sun_c4_16_3_alg».proof.Proof.KI.R1
import proofs.«165518_g91036126806365_cont_sun_c4_16_3_alg».proof.Proof.KI.PayRead
import proofs.«165518_g91036126806365_cont_sun_c4_16_3_alg».proof.Proof.Spec
import proofs.«165518_g91036126806365_cont_sun_c4_16_3_alg».proof.Proof.LibBlockSum
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The last grid point. -/
abbrev t149 : Fin cfg1.N := ⟨49, by decide⟩

/-- The one write-back, at the last point, writes the tail's row: the output's one block, read through zero offsets,
    is the whole 1 × 16 array. -/
theorem flushed1_eq (c : Dev nD) (t : Fin cfg1.N) (hf : (cfg1.win 7).flush t = true) :
    (dat1 (F := Ideal) V c).flushed 7 t = ((cfg1.win 7).blk t).view.read (Elt Ideal) (out1 V c t149) := by
  have hN : cfg1.N = 50 := N_1
  have h49 : t.val = 49 := by have := (flush1_7 t).mp hf; have := t.isLt; omega
  obtain rfl : t = t149 := Fin.ext h49
  show (cfg1.win 7).cut (grid1.coords t149) ((dat1 V c).after 7 t149) = _
  rw [after1_7]
  have hz' : (fun a => win1_7.index t149 a * main_v5.ty.shape.size a) = fun _ => 0 := funext fun a => by fin_cases a <;> decide
  exact (Memref.read_access_unit_zero (Elt Ideal) main_v5 hz' (fun a => by rw [congrFun hz' a]; simp) (out1 V c t149)).symm

/-- So the result array ends holding the row the last point wrote: that point's block covers every index. -/
theorem arr1_final (c : Dev nD) : (dat1 (F := Ideal) V c).arrAt 7 cfg1.N = out1 V c t149 :=
  (dat1 V c).arrAt_eq_of_cover 7 (out1 V c t149) (flushed1_eq V c) fun i =>
    ⟨t149, (flush1_7 t149).mpr rfl, by
      show i ∈ ((View.whole main_v5).slice (win1_7.rect t149)).set
      rw [View.set_slice_whole, Rect.mem_set_unit]
      intro a
      have h0 : (i 0 : Nat) < 1 := (i 0).isLt
      have h1 : (i 1 : Nat) < 16 := (i 1).isLt
      match a with
      | ⟨0, _⟩ => show win1_7.index t149 0 * win1_7.size 0 ≤ (i 0 : Nat) ∧ (i 0 : Nat) < win1_7.index t149 0 * win1_7.size 0 + win1_7.xsize (grid1.coords t149) 0
                  rw [show win1_7.index t149 0 * win1_7.size 0 = 0 from by decide +kernel, show win1_7.xsize (grid1.coords t149) 0 = 1 from by decide +kernel]; omega
      | ⟨1, _⟩ => show win1_7.index t149 1 * win1_7.size 1 ≤ (i 1 : Nat) ∧ (i 1 : Nat) < win1_7.index t149 1 * win1_7.size 1 + win1_7.xsize (grid1.coords t149) 1
                  rw [show win1_7.index t149 1 * win1_7.size 1 = 0 from by decide +kernel, show win1_7.xsize (grid1.coords t149) 1 = 16 from by decide +kernel]; omega⟩

/-! ## The blocks the region reads

Six of the seven inputs are staged whole: their one block, read through zero offsets, is the array.  The adjacency is
staged 200 rows at a time: row r of the block at point t is row 200·t + r of the array. -/

/-- The index maps of the inputs staged whole send every grid point to block (0, 0). -/
theorem whole_index1 : ∀ t : Fin cfg1.N, (∀ a : Fin 2, win1_1.index t a = 0) ∧ (∀ a : Fin 2, win1_2.index t a = 0)
    ∧ (∀ a : Fin 2, win1_3.index t a = 0) ∧ (∀ a : Fin 2, win1_4.index t a = 0) ∧ (∀ a : Fin 2, win1_5.index t a = 0)
    ∧ (∀ a : Fin 2, win1_6.index t a = 0) :=
  (by decide +kernel : ∀ t : Fin grid1.N, (∀ a : Fin 2, win1_1.index t a = 0) ∧ (∀ a : Fin 2, win1_2.index t a = 0)
    ∧ (∀ a : Fin 2, win1_3.index t a = 0) ∧ (∀ a : Fin 2, win1_4.index t a = 0) ∧ (∀ a : Fin 2, win1_5.index t a = 0)
    ∧ (∀ a : Fin 2, win1_6.index t a = 0))

theorem iblk1_1 (c : Dev nD) (t : Fin cfg1.N) : (iblk1 V c 1 t : Vec Ideal S10000x64 .f32) = V c main_v1 := by
  unfold iblk1
  have hz' : (fun a => win1_1.index t a * main_v1.ty.shape.size a) = fun _ => 0 :=
    funext fun a => by rw [(whole_index1 t).1 a]; exact Nat.zero_mul _
  exact Memref.read_access_unit_zero (Elt Ideal) main_v1 hz' (fun a => by rw [congrFun hz' a]; simp) (V c main_v1)

theorem iblk1_2 (c : Dev nD) (t : Fin cfg1.N) : (iblk1 V c 2 t : Vec Ideal S64x16 .f32) = V c main_arg5 := by
  unfold iblk1
  have hz' : (fun a => win1_2.index t a * main_arg5.ty.shape.size a) = fun _ => 0 :=
    funext fun a => by rw [(whole_index1 t).2.1 a]; exact Nat.zero_mul _
  exact Memref.read_access_unit_zero (Elt Ideal) main_arg5 hz' (fun a => by rw [congrFun hz' a]; simp) (V c main_arg5)

theorem iblk1_3 (c : Dev nD) (t : Fin cfg1.N) : (iblk1 V c 3 t : Vec Ideal S1x16 .f32) = V c main_v2 := by
  unfold iblk1
  have hz' : (fun a => win1_3.index t a * main_v2.ty.shape.size a) = fun _ => 0 :=
    funext fun a => by rw [(whole_index1 t).2.2.1 a]; exact Nat.zero_mul _
  exact Memref.read_access_unit_zero (Elt Ideal) main_v2 hz' (fun a => by rw [congrFun hz' a]; simp) (V c main_v2)

theorem iblk1_4 (c : Dev nD) (t : Fin cfg1.N) : (iblk1 V c 4 t : Vec Ideal S1x256 .f32) = V c main_arg2 := by
  unfold iblk1
  have hz' : (fun a => win1_4.index t a * main_arg2.ty.shape.size a) = fun _ => 0 :=
    funext fun a => by rw [(whole_index1 t).2.2.2.1 a]; exact Nat.zero_mul _
  exact Memref.read_access_unit_zero (Elt Ideal) main_arg2 hz' (fun a => by rw [congrFun hz' a]; simp) (V c main_arg2)

theorem iblk1_5 (c : Dev nD) (t : Fin cfg1.N) : (iblk1 V c 5 t : Vec Ideal S256x16 .f32) = V c main_v3 := by
  unfold iblk1
  have hz' : (fun a => win1_5.index t a * main_v3.ty.shape.size a) = fun _ => 0 :=
    funext fun a => by rw [(whole_index1 t).2.2.2.2.1 a]; exact Nat.zero_mul _
  exact Memref.read_access_unit_zero (Elt Ideal) main_v3 hz' (fun a => by rw [congrFun hz' a]; simp) (V c main_v3)

theorem iblk1_6 (c : Dev nD) (t : Fin cfg1.N) : (iblk1 V c 6 t : Vec Ideal S1x16 .f32) = V c main_v4 := by
  unfold iblk1
  have hz' : (fun a => win1_6.index t a * main_v4.ty.shape.size a) = fun _ => 0 :=
    funext fun a => by rw [(whole_index1 t).2.2.2.2.2 a]; exact Nat.zero_mul _
  exact Memref.read_access_unit_zero (Elt Ideal) main_v4 hz' (fun a => by rw [congrFun hz' a]; simp) (V c main_v4)

/-- The adjacency's block index at point t: (t, 0). -/
theorem adj_index1 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row r of the adjacency's block at point t is row 200·t + r of the adjacency. -/
theorem iblk1_0_apply (c : Dev nD) (t : Fin cfg1.N) (r : Fin 200) (k : Fin 10000) (h : t.val * 200 + r.val < 10000) :
    (iblk1 V c 0 t : Vec Ideal S200x10000 .f32) (ix2 r k) = V c main_arg1 (ix2 ⟨t.val * 200 + r.val, h⟩ k) := by
  obtain ⟨e0, e1⟩ := adj_index1 t
  unfold iblk1
  rw [View.read_apply]
  show V c main_arg1 _ = V c main_arg1 _
  congr 1
  funext a
  apply Fin.ext
  match a with
  | ⟨0, _⟩ => show win1_0.index t 0 * 200 + 1 * r.val = t.val * 200 + r.val; rw [e0]; omega
  | ⟨1, _⟩ => show win1_0.index t 1 * 10000 + 1 * k.val = k.val; rw [e1]; omega

/-! ## The support, the activations, and the running totals -/

/-- The second layer's support h1 · W2, and its activations max (adj · support + b2, 0), at the arrays the region finds. -/
abbrev supp1 (c : Dev nD) : Fin 10000 → Fin 16 → EReal :=
  Cert.Spec.hw (fun k l => V c main_v1 (ix2 k l)) (V c main_arg5)
abbrev act1 (c : Dev nD) : Fin 10000 → Fin 16 → EReal :=
  Cert.Spec.layer (V c main_arg1) (supp1 V c) (fun q => V c main_v2 (ix2 0 (q 0)))

/-- The scratch written at the first point holds the support. -/
theorem sc1_apply (c : Dev nD) (k : Fin 10000) (j : Fin 16) : sc1 V c (ix2 k j) = supp1 V c k j := by
  unfold sc1
  rw [iblk1_1, iblk1_2]
  exact pay1_1_apply (V c main_v1) (V c main_arg5) k j

/-- Column j of the activations at row number i (zero past the last row: never read). -/
def rowv1 (c : Dev nD) (j : Fin 16) (i : ℕ) : EReal := if h : i < 10000 then act1 V c ⟨i, h⟩ j else 0

/-- One point's update of the running totals: what they held plus the column sums of the activations over the
    point's 200 rows, rows 200·t, …, 200·t + 199. -/
theorem point1_apply (c : Dev nD) (t : Fin cfg1.N) (a0 : Vec Ideal S1x16 .f32) (j : Fin 16) :
    k1_pay3 (F := Ideal) (iblk1 V c 0 t) (sc1 V c) (iblk1 V c 3 t) a0 (ix2 0 j)
      = a0 (ix2 0 j) + ∑ r : Fin 200, rowv1 V c j (t.val * 200 + r.val) := by
  have hN : cfg1.N = 50 := N_1
  refine (pay1_3_apply (iblk1 V c 0 t) (sc1 V c) (iblk1 V c 3 t) a0 j).trans ?_
  refine congrArg (fun z => a0 (ix2 0 j) + z) ?_
  refine Finset.sum_congr rfl fun r _ => ?_
  have h : t.val * 200 + r.val < 10000 := by have := t.isLt; have := r.isLt; omega
  unfold rowv1
  rw [dif_pos h, iblk1_3]
  show _ = Cert.Spec.layer (V c main_arg1) (supp1 V c) (fun q => V c main_v2 (ix2 0 (q 0))) ⟨t.val * 200 + r.val, h⟩ j
  unfold Cert.Spec.layer
  refine congrArg (fun z : EReal => max z 0) ?_
  refine congrArg₂ (fun y z : EReal => y + z) (Finset.sum_congr rfl fun k _ => ?_) rfl
  rw [iblk1_0_apply V c t r k h, sc1_apply]

/-- The running totals after point n: zero plus the first block's column sums, then one more block's per point. -/
theorem acc1_apply (c : Dev nD) (j : Fin 16) : ∀ (n : ℕ) (h : n < cfg1.N),
    acc1 V c n h (ix2 0 j)
      = (Nat.rec (0 + ∑ r : Fin 200, rowv1 V c j (0 * 200 + r.val))
          (fun k acc => acc + ∑ r : Fin 200, rowv1 V c j ((k + 1) * 200 + r.val)) n : EReal)
  | 0, h => by
    show k1_pay3 (F := Ideal) (iblk1 V c 0 ⟨0, h⟩) (sc1 V c) (iblk1 V c 3 ⟨0, h⟩) (k1_pay2 (F := Ideal)) (ix2 0 j) = _
    rw [point1_apply, pay1_2_apply]
    rfl
  | n + 1, h => by
    show k1_pay3 (F := Ideal) (iblk1 V c 0 ⟨n + 1, h⟩) (sc1 V c) (iblk1 V c 3 ⟨n + 1, h⟩) (acc1 V c n (Nat.lt_of_succ_lt h)) (ix2 0 j) = _
    rw [point1_apply, acc1_apply c j n]

/-- After the last point the running totals are the column sums of the activations over all 10000 rows: the 50
    blocks of 200 rows are the rows 0, …, 9999, each once. -/
theorem acc1_last (c : Dev nD) (j : Fin 16) : acc1 V c 49 t149.isLt (ix2 0 j) = Cert.Spec.colsum (act1 V c) j := by
  rw [acc1_apply]
  refine (Cert.LibBlockSum.acc_all_rows 49 200 (rowv1 V c j)).trans ?_
  show ∑ i : Fin 10000, rowv1 V c j i.val = ∑ i : Fin 10000, act1 V c i j
  refine Finset.sum_congr rfl fun i _ => ?_
  unfold rowv1
  rw [dif_pos i.isLt]

/-! ## The result array -/

/-- The result array after the region: the tail of the network on the column sums of the second layer's activations. -/
theorem arr1_eq (c : Dev nD) (j : Fin 16) :
    (dat1 (F := Ideal) V c).arrAt 7 cfg1.N (ix2 0 j)
      = Cert.Spec.tail (Cert.Spec.colsum (Cert.Spec.layer (V c main_arg1) (Cert.Spec.hw (fun k l => V c main_v1 (ix2 k l)) (V c main_arg5)) (fun q => V c main_v2 (ix2 0 (q 0)))))
          (V c main_arg2) (fun i => V c main_v3 (ix2 (i 1) (i 0))) (fun q => V c main_v4 (ix2 0 (q 0))) j := by
  rw [arr1_final]
  unfold out1
  rw [iblk1_4, iblk1_5, iblk1_6]
  refine (pay1_4_apply (acc1 V c t149.val t149.isLt) (V c main_arg2) (V c main_v3) (V c main_v4) j).trans ?_
  refine congrArg (fun s => Cert.Spec.tail s (V c main_arg2) (fun i => V c main_v3 (ix2 (i 1) (i 0))) (fun q => V c main_v4 (ix2 0 (q 0))) j) ?_
  exact funext fun q => acc1_last V c q

end Cert.KernelIdeal.Hand

end
-- ==== Proof.KI.Final.lean ====
/-
  The kernel program's result at the ideal instance is the network `Cert.Spec.out` of the nine argument arrays:
  region 1's result array is the tail of the column sums of the second layer on what it finds in its arrays; those
  are the arguments, their re-laid copies, and the first layer's activations as region 0 left them.
-/
import proofs.«165518_g91036126806365_cont_sun_c4_16_3_alg».proof.Proof.KI.Host
import proofs.«165518_g91036126806365_cont_sun_c4_16_3_alg».proof.Proof.KI.R0V
import proofs.«165518_g91036126806365_cont_sun_c4_16_3_alg».proof.Proof.KI.R1V
import proofs.«165518_g91036126806365_cont_sun_c4_16_3_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable (m : (ℓ : Loc nD τ sig) → Buf (Elt Ideal) ℓ) (ρ : Dev nD → PrngReg)

theorem result_eq (c : Dev nD) :
    (dat1 (F := Ideal) (V3 m ρ) c).arrAt 7 cfg1.N
      = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨u, j, rfl⟩ : ∃ (u : Fin 1) (j : Fin 16), i = ix2 u j := ⟨i 0, i 1, eq_ix2 i⟩
  obtain rfl : u = 0 := Subsingleton.elim _ _
  refine (arr1_eq (V3 m ρ) c j).trans ?_
  have e1 : V3 (F := Ideal) m ρ c main_arg1 = (m ((c : Thread nD τ).loc main_arg1)) := W3_main_arg1 m ρ c
  have e2 : V3 (F := Ideal) m ρ c main_arg2 = (m ((c : Thread nD τ).loc main_arg2)) := W3_main_arg2 m ρ c
  have e5 : V3 (F := Ideal) m ρ c main_arg5 = (m ((c : Thread nD τ).loc main_arg5)) := W3_main_arg5 m ρ c
  have f0 : V1 (F := Ideal) m ρ c main_arg0 = (m ((c : Thread nD τ).loc main_arg0)) := W1_main_arg0 m ρ c
  have f1 : V1 (F := Ideal) m ρ c main_arg1 = (m ((c : Thread nD τ).loc main_arg1)) := W1_main_arg1 m ρ c
  have f3 : V1 (F := Ideal) m ρ c main_arg3 = (m ((c : Thread nD τ).loc main_arg3)) := W1_main_arg3 m ρ c
  have eb1 : (fun q : (⟨1, ![64]⟩ : Shape).Idx => V1 (F := Ideal) m ρ c main_v0 (ix2 0 (q 0))) = (m ((c : Thread nD τ).loc main_arg4)) := by
    funext q; exact (V1_v0_apply m ρ c (q 0)).trans (congrArg _ (eq_ix1 q).symm)
  have eb2 : (fun q : (⟨1, ![16]⟩ : Shape).Idx => V3 (F := Ideal) m ρ c main_v2 (ix2 0 (q 0))) = (m ((c : Thread nD τ).loc main_arg6)) := by
    funext q; exact (V3_v2_apply m ρ c (q 0)).trans (congrArg _ (eq_ix1 q).symm)
  have eb4 : (fun q : (⟨1, ![16]⟩ : Shape).Idx => V3 (F := Ideal) m ρ c main_v4 (ix2 0 (q 0))) = (m ((c : Thread nD τ).loc main_arg8)) := by
    funext q; exact (V3_v4_apply m ρ c (q 0)).trans (congrArg _ (eq_ix1 q).symm)
  have efw : (fun i : (⟨2, ![16, 256]⟩ : Shape).Idx => V3 (F := Ideal) m ρ c main_v3 (ix2 (i 1) (i 0))) = (m ((c : Thread nD τ).loc main_arg7)) := by
    funext i; exact (V3_v3_apply m ρ c (i 1) (i 0)).trans (congrArg _ (eq_ix2 i).symm)
  have eh : (fun (k : Fin 10000) (l : Fin 64) => V3 (F := Ideal) m ρ c main_v1 (ix2 k l))
      = Cert.Spec.h1 (m ((c : Thread nD τ).loc main_arg0)) (m ((c : Thread nD τ).loc main_arg1)) (m ((c : Thread nD τ).loc main_arg3)) (m ((c : Thread nD τ).loc main_arg4)) := by
    funext k l
    rw [show V3 (F := Ideal) m ρ c main_v1 = (dat0 (V1 m ρ) c).arrAt 4 cfg0.N from W3_main_v1 m ρ c, arr0_eq (V1 m ρ) c k l, f0, f1, f3, eb1]
    rfl
  rw [e1, e2, e5, eb2, eb4, efw, eh]
  rfl

end Cert.KernelIdeal.Hand

end
-- ==== Proof.Ref.Run.lean ====
/-
  The reference program's run.

  @main is a straight line of host operations once its calls are unfolded (a call executes the callee's body
  on the call's own buffers): the two graph-convolution layers with their outlined relu, the pooling, selu
  through elu and its two selects, the dense side branch, and log-softmax.  The line is cut into six
  stretches; `after` over the whole line is `after` over the stretches in turn, and every weakly fair
  execution of @main ends with each buffer at that fold over its launch contents.
-/
import proofs.«165518_g91036126806365_cont_sun_c4_16_3_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first layer: `x · W1`, `adj ·` it, the bias laid out as a row and repeated down the rows, the sum, and the maximum with zero (the outlined relu's three operations). -/
abbrev opsA : List (HloOp τ sig (Elt F)) :=
  [ binary main_arg0 main_arg3 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v0 main_v1 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg4 main_v2 (broadcastInDim S1x64 ![1] bcast_S64_S1x64_1 : (⟨S64, .f32⟩ : BufTy).Contents (Elt F) → (⟨S1x64, .f32⟩ : BufTy).Contents (Elt F)),
    unary main_v2 main_v3 (broadcastInDim S10000x64 ![0, 1] bcast_S1x64_S10000x64_0_1 : (⟨S1x64, .f32⟩ : BufTy).Contents (Elt F) → (⟨S10000x64, .f32⟩ : BufTy).Contents (Elt F)),
    binary main_v1 main_v3 main_v4 (addf : (⟨S10000x64, .f32⟩ : BufTy).Contents (Elt F) → (⟨S10000x64, .f32⟩ : BufTy).Contents (Elt F) → (⟨S10000x64, .f32⟩ : BufTy).Contents (Elt F)),
    TRef.nullary main_call0.cst (constant S_ .f32 0x00000000#32),
    TRef.unary main_call0.cst main_call0.v0 (broadcastInDim S10000x64 ![] bcast_S_S10000x64),
    TRef.binary (.of main_v4) main_call0.v0 main_call0.v1 maximumf ]

/-- The second layer, the same eight over the first layer's result and `W2`, `b2`. -/
abbrev opsB : List (HloOp τ sig (Elt F)) :=
  [ binary main_v5 main_arg5 main_v6 ((fun l r => Host.dotGeneral dot_S10000x64_S64x16_S10000x16_1_0_0_1_n_n none l r) : (⟨S10000x64, .f32⟩ : BufTy).Contents (Elt F) → (⟨S64x16, .f32⟩ : BufTy).Contents (Elt F) → (⟨S10000x16, .f32⟩ : BufTy).Contents (Elt F)),
    binary main_arg1 main_v6 main_v7 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg6 main_v8 (broadcastInDim S1x16 ![1] bcast_S16_S1x16_1 : (⟨S16, .f32⟩ : BufTy).Contents (Elt F) → (⟨S1x16, .f32⟩ : BufTy).Contents (Elt F)),
    unary main_v8 main_v9 (broadcastInDim S10000x16 ![0, 1] bcast_S1x16_S10000x16_0_1 : (⟨S1x16, .f32⟩ : BufTy).Contents (Elt F) → (⟨S10000x16, .f32⟩ : BufTy).Contents (Elt F)),
    binary main_v7 main_v9 main_v10 (addf : (⟨S10000x16, .f32⟩ : BufTy).Contents (Elt F) → (⟨S10000x16, .f32⟩ : BufTy).Contents (Elt F) → (⟨S10000x16, .f32⟩ : BufTy).Contents (Elt F)),
    TRef.nullary main_call1.cst (constant S_ .f32 0x00000000#32),
    TRef.unary main_call1.cst main_call1.v0 (broadcastInDim S10000x16 ![] bcast_S_S10000x16),
    TRef.binary (.of main_v10) main_call1.v0 main_call1.v1 maximumf ]

/-- The pooling: the column sums from zero, laid out as a row, divided by the constant 10000 repeated along the row. -/
abbrev opsC : List (HloOp τ sig (Elt F)) :=
  [ nullary main_cst (constant S_ .f32 0x00000000#32),
    binary main_v11 main_cst main_v12 ((fun x v => Host.reduceAdd x v reducesTo_S10000x16_S16_d0 h_S_) : (⟨S10000x16, .f32⟩ : BufTy).Contents (Elt F) → (⟨S_, .f32⟩ : BufTy).Contents (Elt F) → (⟨S16, .f32⟩ : BufTy).Contents (Elt F)),
    unary main_v12 main_v13 (broadcastInDim S1x16 ![1] bcast_S16_S1x16_1 : (⟨S16, .f32⟩ : BufTy).Contents (Elt F) → (⟨S1x16, .f32⟩ : BufTy).Contents (Elt F)),
    nullary main_cst_0 (constant S_ .f32 0x461C4000#32),
    unary main_cst_0 main_v14 (broadcastInDim S1x16 ![] bcast_S_S1x16 : (⟨S_, .f32⟩ : BufTy).Contents (Elt F) → (⟨S1x16, .f32⟩ : BufTy).Contents (Elt F)),
    binary main_v13 main_v14 main_v15 (Host.divf : (⟨S1x16, .f32⟩ : BufTy).Contents (Elt F) → (⟨S1x16, .f32⟩ : BufTy).Contents (Elt F) → (⟨S1x16, .f32⟩ : BufTy).Contents (Elt F)) ]

/-- selu, its outlined functions' operations in the order they run: alpha; elu's zero rows and its two comparisons with zero, the inner `where` (zero where positive, else the argument), `expm1` of it, alpha repeated along the row, their product, the outer `where` (the argument where positive, else the product); the scale repeated along the row and the final product. -/
abbrev opsD : List (HloOp τ sig (Elt F)) :=
  [ TRef.nullary main_call2.cst (constant S_ .f32 0x3FD62D7D#32),
    TRef.nullary main_call2.call0.cst (constant S_ .f32 0x00000000#32),
    TRef.unary main_call2.call0.cst main_call2.call0.v0 (broadcastInDim S1x16 ![] bcast_S_S1x16),
    TRef.binary (.of main_v15) main_call2.call0.v0 main_call2.call0.v1 (cmpf .ogt),
    TRef.nullary main_call2.call0.cst_0 (constant S_ .f32 0x00000000#32),
    TRef.unary main_call2.call0.cst_0 main_call2.call0.v2 (broadcastInDim S1x16 ![] bcast_S_S1x16),
    TRef.binary (.of main_v15) main_call2.call0.v2 main_call2.call0.v3 (cmpf .ogt),
    TRef.nullary main_call2.call0.cst_1 (constant S_ .f32 0x00000000#32),
    TRef.unary main_call2.call0.cst_1 main_call2.call0.call0.v0 id,
    TRef.unary main_call2.call0.call0.v0 main_call2.call0.call0.v1 (broadcastInDim S1x16 ![] bcast_S_S1x16),
    TRef.ternary main_call2.call0.v3 main_call2.call0.call0.v1 (.of main_v15) main_call2.call0.call0.v2 select,
    TRef.unary main_call2.call0.call0.v2 main_call2.call0.v5 Host.expm1,
    TRef.unary main_call2.cst main_call2.call0.v6 id,
    TRef.unary main_call2.call0.v6 main_call2.call0.v7 (broadcastInDim S1x16 ![] bcast_S_S1x16),
    TRef.binary main_call2.call0.v7 main_call2.call0.v5 main_call2.call0.v8 mulf,
    TRef.ternary main_call2.call0.v1 (.of main_v15) main_call2.call0.v8 main_call2.call0.call1.v0 select,
    TRef.nullary main_call2.cst_0 (constant S_ .f32 0x3F867D5F#32),
    TRef.unary main_call2.cst_0 main_call2.v1 (broadcastInDim S1x16 ![] bcast_S_S1x16),
    TRef.binary main_call2.v1 main_call2.call0.call1.v0 main_call2.v2 mulf ]

/-- The dense side branch and the mix: the weight transposed, the product with the sub-feature row, the bias, one half repeated along the row, the product, and the sum with selu's result. -/
abbrev opsE : List (HloOp τ sig (Elt F)) :=
  [ unary main_arg7 main_v17 ((transpose S256x16 [1, 0] · transposes_S16x256_S256x16_1_0) : (⟨S16x256, .f32⟩ : BufTy).Contents (Elt F) → (⟨S256x16, .f32⟩ : BufTy).Contents (Elt F)),
    binary main_arg2 main_v17 main_v18 ((fun l r => Host.dotGeneral dot_S1x256_S256x16_S1x16_1_0_0_1_n_n none l r) : (⟨S1x256, .f32⟩ : BufTy).Contents (Elt F) → (⟨S256x16, .f32⟩ : BufTy).Contents (Elt F) → (⟨S1x16, .f32⟩ : BufTy).Contents (Elt F)),
    unary main_arg8 main_v19 (broadcastInDim S1x16 ![1] bcast_S16_S1x16_1 : (⟨S16, .f32⟩ : BufTy).Contents (Elt F) → (⟨S1x16, .f32⟩ : BufTy).Contents (Elt F)),
    binary main_v18 main_v19 main_v20 (addf : (⟨S1x16, .f32⟩ : BufTy).Contents (Elt F) → (⟨S1x16, .f32⟩ : BufTy).Contents (Elt F) → (⟨S1x16, .f32⟩ : BufTy).Contents (Elt F)),
    nullary main_cst_1 (constant S_ .f32 0x3F000000#32),
    unary main_cst_1 main_v21 (broadcastInDim S1x16 ![] bcast_S_S1x16 : (⟨S_, .f32⟩ : BufTy).Contents (Elt F) → (⟨S1x16, .f32⟩ : BufTy).Contents (Elt F)),
    binary main_v21 main_v20 main_v22 (mulf : (⟨S1x16, .f32⟩ : BufTy).Contents (Elt F) → (⟨S1x16, .f32⟩ : BufTy).Contents (Elt F) → (⟨S1x16, .f32⟩ : BufTy).Contents (Elt F)),
    binary main_v16 main_v22 main_v23 (addf : (⟨S1x16, .f32⟩ : BufTy).Contents (Elt F) → (⟨S1x16, .f32⟩ : BufTy).Contents (Elt F) → (⟨S1x16, .f32⟩ : BufTy).Contents (Elt F)) ]

/-- log-softmax's operations: the row maximum from -∞ (and its maximum with -∞ again), laid out and repeated along the row, subtracted; the exponential, its row sum from zero, the logarithm of it repeated along the row, subtracted. -/
abbrev opsF : List (HloOp τ sig (Elt F)) :=
  [ TRef.nullary main_call3.cst (constant S_ .f32 0xFF800000#32),
    TRef.binary (.of main_v23) main_call3.cst main_call3.v0 ((fun x v => Host.reduce FloatOps.maximumf x v reducesTo_S1x16_S1_d1 h_S_) : (⟨S1x16, .f32⟩ : BufTy).Contents (Elt F) → (⟨S_, .f32⟩ : BufTy).Contents (Elt F) → (⟨S1, .f32⟩ : BufTy).Contents (Elt F)),
    TRef.nullary main_call3.cst_0 (constant S_ .f32 0xFF800000#32),
    TRef.unary main_call3.cst_0 main_call3.v1 (broadcastInDim S1 ![] bcast_S_S1),
    TRef.binary main_call3.v1 main_call3.v0 main_call3.v2 maximumf,
    TRef.unary main_call3.v2 main_call3.v3 (broadcastInDim S1x1 ![0] bcast_S1_S1x1_0),
    TRef.unary main_call3.v3 main_call3.v4 (broadcastInDim S1x16 ![0, 1] bcast_S1x1_S1x16_0_1),
    TRef.binary (.of main_v23) main_call3.v4 main_call3.v5 subf,
    TRef.unary main_call3.v5 main_call3.v6 Host.exp,
    TRef.nullary main_call3.cst_1 (constant S_ .f32 0x00000000#32),
    TRef.binary main_call3.v6 main_call3.cst_1 main_call3.v7 ((fun x v => Host.reduceAdd x v reducesTo_S1x16_S1_d1 h_S_) : (⟨S1x16, .f32⟩ : BufTy).Contents (Elt F) → (⟨S_, .f32⟩ : BufTy).Contents (Elt F) → (⟨S1, .f32⟩ : BufTy).Contents (Elt F)),
    TRef.unary main_call3.v7 main_call3.v8 (broadcastInDim S1x1 ![0] bcast_S1_S1x1_0),
    TRef.unary main_call3.v8 main_call3.v9 Host.log,
    TRef.unary main_call3.v9 main_call3.v10 (broadcastInDim S1x16 ![0, 1] bcast_S1x1_S1x16_0_1),
    TRef.binary main_call3.v5 main_call3.v10 main_call3.v11 subf ]

/-- @main's operations, in order. -/
abbrev ops : List (HloOp τ sig (Elt F)) := opsA ++ (opsB ++ (opsC ++ (opsD ++ (opsE ++ opsF))))

set_option maxHeartbeats 4000000 in
set_option maxRecDepth 4096 in
/-- @main is that straight line: the callees' bodies unfolded at their calls, both sides are one chain of
    host steps once sequencing is reassociated. -/
theorem main_eq (c : Dev nD) : main (F := F) c = seq ops := by
  simp only [ops, seq_append]
  simp only [opsA, opsB, opsC, opsD, opsE, opsF, main, fn_relu.body, fn_relu_0.body, fn_where.body,
    fn_where_1.body, fn_elu.body, fn_selu.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨⟨binary_bufs_sub .., binary_bufs_sub .., unary_bufs_sub .., unary_bufs_sub .., binary_bufs_sub .., nullary_bufs_sub .., unary_bufs_sub .., binary_bufs_sub ..⟩,
  List.forall_append.mpr ⟨⟨binary_bufs_sub .., binary_bufs_sub .., unary_bufs_sub .., unary_bufs_sub .., binary_bufs_sub .., nullary_bufs_sub .., unary_bufs_sub .., binary_bufs_sub ..⟩,
  List.forall_append.mpr ⟨⟨nullary_bufs_sub .., binary_bufs_sub .., unary_bufs_sub .., nullary_bufs_sub .., unary_bufs_sub .., binary_bufs_sub ..⟩,
  List.forall_append.mpr ⟨⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩,
  List.forall_append.mpr ⟨⟨unary_bufs_sub .., binary_bufs_sub .., unary_bufs_sub .., binary_bufs_sub .., nullary_bufs_sub .., unary_bufs_sub .., binary_bufs_sub .., binary_bufs_sub ..⟩,
    ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩⟩⟩⟩⟩⟩

theorem freshA : ∀ op ∈ (opsA : List (HloOp τ sig (Elt F))), op.fresh = ∅ := by
  intro _ h; (repeat (cases h with | head => rfl | tail _ h => ?_)); exact nomatch h
theorem freshB : ∀ op ∈ (opsB : List (HloOp τ sig (Elt F))), op.fresh = ∅ := by
  intro _ h; (repeat (cases h with | head => rfl | tail _ h => ?_)); exact nomatch h
theorem freshC : ∀ op ∈ (opsC : List (HloOp τ sig (Elt F))), op.fresh = ∅ := by
  intro _ h; (repeat (cases h with | head => rfl | tail _ h => ?_)); exact nomatch h
theorem freshD : ∀ op ∈ (opsD : List (HloOp τ sig (Elt F))), op.fresh = ∅ := by
  intro _ h; (repeat (cases h with | head => rfl | tail _ h => ?_)); exact nomatch h
theorem freshE : ∀ op ∈ (opsE : List (HloOp τ sig (Elt F))), op.fresh = ∅ := by
  intro _ h; (repeat (cases h with | head => rfl | tail _ h => ?_)); exact nomatch h
theorem freshF : ∀ op ∈ (opsF : List (HloOp τ sig (Elt F))), op.fresh = ∅ := by
  intro _ h; (repeat (cases h with | head => rfl | tail _ h => ?_)); exact nomatch h

/-- Every operation determines its results. -/
theorem ops_fresh : ∀ op ∈ (ops : List (HloOp τ sig (Elt F))), op.fresh = ∅ := by
  intro op h
  simp only [ops, List.mem_append] at h
  rcases h with h | h | h | h | h | h
  exacts [freshA op h, freshB op h, freshC op h, freshD op h, freshE op h, freshF op h]

/-- From any memory with zero counters every weakly fair execution of @main terminates with each buffer at the
    fold of the operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What the line leaves where

The fold over the whole line is the fold over the stretches in turn. No operation writes an argument's buffer. -/

theorem after_ops (V : Valuation τ sig (Elt F)) :
    after ops V = after opsF (after opsE (after opsD (after opsC (after opsB (after opsA V))))) := by
  simp only [ops, StableHlo.after_append]

/-- Every buffer the line writes: @main's values and its calls' (every buffer but the nine arguments'). -/
abbrev written : List (Ref sig .tc) :=
  [ main_v0, main_v1, main_v2, main_v3, main_v4, main_call0.cst.ref, main_call0.v0.ref, main_call0.v1.ref, main_v6, main_v7, main_v8, main_v9, main_v10, main_call1.cst.ref, main_call1.v0.ref, main_call1.v1.ref, main_cst, main_v12, main_v13, main_cst_0, main_v14, main_v15, main_call2.cst.ref, main_call2.call0.cst.ref, main_call2.call0.v0.ref, main_call2.call0.v1.ref, main_call2.call0.cst_0.ref, main_call2.call0.v2.ref, main_call2.call0.v3.ref, main_call2.call0.cst_1.ref, main_call2.call0.call0.v0.ref, main_call2.call0.call0.v1.ref, main_call2.call0.call0.v2.ref, main_call2.call0.v5.ref, main_call2.call0.v6.ref, main_call2.call0.v7.ref, main_call2.call0.v8.ref, main_call2.call0.call1.v0.ref, main_call2.cst_0.ref, main_call2.v1.ref, main_call2.v2.ref, main_v17, main_v18, main_v19, main_v20, main_cst_1, main_v21, main_v22, main_v23, main_call3.cst.ref, main_call3.v0.ref, main_call3.cst_0.ref, main_call3.v1.ref, main_call3.v2.ref, main_call3.v3.ref, main_call3.v4.ref, main_call3.v5.ref, main_call3.v6.ref, main_call3.cst_1.ref, main_call3.v7.ref, main_call3.v8.ref, main_call3.v9.ref, main_call3.v10.ref, main_call3.v11.ref ]

theorem wsub {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map_of_mem h))

theorem writesA : (opsA : List (HloOp τ sig (Elt F))).Forall fun op => op.writes ⊆ (written.map (Proc.devRef (τ := τ) .tc)).toFinset :=
  ⟨wsub (y := main_v0) (by decide),
    wsub (y := main_v1) (by decide),
    wsub (y := main_v2) (by decide),
    wsub (y := main_v3) (by decide),
    wsub (y := main_v4) (by decide),
    wsub (y := main_call0.cst.ref) (by decide),
    wsub (y := main_call0.v0.ref) (by decide),
    wsub (y := main_call0.v1.ref) (by decide)⟩
theorem writesB : (opsB : List (HloOp τ sig (Elt F))).Forall fun op => op.writes ⊆ (written.map (Proc.devRef (τ := τ) .tc)).toFinset :=
  ⟨wsub (y := main_v6) (by decide),
    wsub (y := main_v7) (by decide),
    wsub (y := main_v8) (by decide),
    wsub (y := main_v9) (by decide),
    wsub (y := main_v10) (by decide),
    wsub (y := main_call1.cst.ref) (by decide),
    wsub (y := main_call1.v0.ref) (by decide),
    wsub (y := main_call1.v1.ref) (by decide)⟩
theorem writesC : (opsC : List (HloOp τ sig (Elt F))).Forall fun op => op.writes ⊆ (written.map (Proc.devRef (τ := τ) .tc)).toFinset :=
  ⟨wsub (y := main_cst) (by decide),
    wsub (y := main_v12) (by decide),
    wsub (y := main_v13) (by decide),
    wsub (y := main_cst_0) (by decide),
    wsub (y := main_v14) (by decide),
    wsub (y := main_v15) (by decide)⟩
theorem writesD : (opsD : List (HloOp τ sig (Elt F))).Forall fun op => op.writes ⊆ (written.map (Proc.devRef (τ := τ) .tc)).toFinset :=
  ⟨wsub (y := main_call2.cst.ref) (by decide),
    wsub (y := main_call2.call0.cst.ref) (by decide),
    wsub (y := main_call2.call0.v0.ref) (by decide),
    wsub (y := main_call2.call0.v1.ref) (by decide),
    wsub (y := main_call2.call0.cst_0.ref) (by decide),
    wsub (y := main_call2.call0.v2.ref) (by decide),
    wsub (y := main_call2.call0.v3.ref) (by decide),
    wsub (y := main_call2.call0.cst_1.ref) (by decide),
    wsub (y := main_call2.call0.call0.v0.ref) (by decide),
    wsub (y := main_call2.call0.call0.v1.ref) (by decide),
    wsub (y := main_call2.call0.call0.v2.ref) (by decide),
    wsub (y := main_call2.call0.v5.ref) (by decide),
    wsub (y := main_call2.call0.v6.ref) (by decide),
    wsub (y := main_call2.call0.v7.ref) (by decide),
    wsub (y := main_call2.call0.v8.ref) (by decide),
    wsub (y := main_call2.call0.call1.v0.ref) (by decide),
    wsub (y := main_call2.cst_0.ref) (by decide),
    wsub (y := main_call2.v1.ref) (by decide),
    wsub (y := main_call2.v2.ref) (by decide)⟩
theorem writesE : (opsE : List (HloOp τ sig (Elt F))).Forall fun op => op.writes ⊆ (written.map (Proc.devRef (τ := τ) .tc)).toFinset :=
  ⟨wsub (y := main_v17) (by decide),
    wsub (y := main_v18) (by decide),
    wsub (y := main_v19) (by decide),
    wsub (y := main_v20) (by decide),
    wsub (y := main_cst_1) (by decide),
    wsub (y := main_v21) (by decide),
    wsub (y := main_v22) (by decide),
    wsub (y := main_v23) (by decide)⟩
theorem writesF : (opsF : List (HloOp τ sig (Elt F))).Forall fun op => op.writes ⊆ (written.map (Proc.devRef (τ := τ) .tc)).toFinset :=
  ⟨wsub (y := main_call3.cst.ref) (by decide),
    wsub (y := main_call3.v0.ref) (by decide),
    wsub (y := main_call3.cst_0.ref) (by decide),
    wsub (y := main_call3.v1.ref) (by decide),
    wsub (y := main_call3.v2.ref) (by decide),
    wsub (y := main_call3.v3.ref) (by decide),
    wsub (y := main_call3.v4.ref) (by decide),
    wsub (y := main_call3.v5.ref) (by decide),
    wsub (y := main_call3.v6.ref) (by decide),
    wsub (y := main_call3.cst_1.ref) (by decide),
    wsub (y := main_call3.v7.ref) (by decide),
    wsub (y := main_call3.v8.ref) (by decide),
    wsub (y := main_call3.v9.ref) (by decide),
    wsub (y := main_call3.v10.ref) (by decide),
    wsub (y := main_call3.v11.ref) (by decide)⟩

/-- A buffer no operation writes keeps its contents through each stretch. -/
theorem keepA (V : Valuation τ sig (Elt F)) {r : Ref sig .tc} (hr : r ∉ written) : after opsA V (r : DevRef τ sig) = V (r : DevRef τ sig) :=
  after_of_writes_sub opsA V writesA hr
theorem keepB (V : Valuation τ sig (Elt F)) {r : Ref sig .tc} (hr : r ∉ written) : after opsB V (r : DevRef τ sig) = V (r : DevRef τ sig) :=
  after_of_writes_sub opsB V writesB hr
theorem keepC (V : Valuation τ sig (Elt F)) {r : Ref sig .tc} (hr : r ∉ written) : after opsC V (r : DevRef τ sig) = V (r : DevRef τ sig) :=
  after_of_writes_sub opsC V writesC hr
theorem keepD (V : Valuation τ sig (Elt F)) {r : Ref sig .tc} (hr : r ∉ written) : after opsD V (r : DevRef τ sig) = V (r : DevRef τ sig) :=
  after_of_writes_sub opsD V writesD hr
theorem keepE (V : Valuation τ sig (Elt F)) {r : Ref sig .tc} (hr : r ∉ written) : after opsE V (r : DevRef τ sig) = V (r : DevRef τ sig) :=
  after_of_writes_sub opsE V writesE hr
theorem keepF (V : Valuation τ sig (Elt F)) {r : Ref sig .tc} (hr : r ∉ written) : after opsF V (r : DevRef τ sig) = V (r : DevRef τ sig) :=
  after_of_writes_sub opsF V writesF hr

/-- … and so through the whole line. -/
theorem keep (V : Valuation τ sig (Elt F)) {r : Ref sig .tc} (hr : r ∉ written) : after ops V (r : DevRef τ sig) = V (r : DevRef τ sig) := by
  rw [after_ops, keepF _ hr, keepE _ hr, keepD _ hr, keepC _ hr, keepB _ hr, keepA _ hr]

/-! ## The stages, named

What each stretch leaves in its last buffer, as a function of what it reads. -/

/-- The contents of an f32 buffer of shape `s`. -/
abbrev Tn (F : FTy → Type) [FloatOps F] (s : Shape) : Type := (⟨s, .f32⟩ : BufTy).Contents (Elt F)

/-- The first layer: `max (adj · (x · W1) + b1, 0)`. -/
def stA (x : Tn F S10000x128) (adj : Tn F S10000x10000) (w1 : Tn F S128x64) (b1 : Tn F S64) : Tn F S10000x64 :=
  maximumf
    (addf
      (Host.dotGeneral dot_S10000x10000_S10000x64_S10000x64_1_0_0_1_n_n none adj
        (Host.dotGeneral dot_S10000x128_S128x64_S10000x64_1_0_0_1_n_n none x w1))
      (broadcastInDim S10000x64 ![0, 1] bcast_S1x64_S10000x64_0_1 (broadcastInDim S1x64 ![1] bcast_S64_S1x64_1 b1)))
    (broadcastInDim S10000x64 ![] bcast_S_S10000x64 (constant S_ .f32 0x00000000#32))

/-- The second layer: `max (adj · (h · W2) + b2, 0)`. -/
def stB (h : Tn F S10000x64) (adj : Tn F S10000x10000) (w2 : Tn F S64x16) (b2 : Tn F S16) : Tn F S10000x16 :=
  maximumf
    (addf
      (Host.dotGeneral dot_S10000x10000_S10000x16_S10000x16_1_0_0_1_n_n none adj
        (Host.dotGeneral dot_S10000x64_S64x16_S10000x16_1_0_0_1_n_n none h w2))
      (broadcastInDim S10000x16 ![0, 1] bcast_S1x16_S10000x16_0_1 (broadcastInDim S1x16 ![1] bcast_S16_S1x16_1 b2)))
    (broadcastInDim S10000x16 ![] bcast_S_S10000x16 (constant S_ .f32 0x00000000#32))

/-- The pooling: the column sums, as a row, over 10000. -/
def stC (h : Tn F S10000x16) : Tn F S1x16 :=
  Host.divf
    (broadcastInDim S1x16 ![1] bcast_S16_S1x16_1
      (Host.reduceAdd h (constant S_ .f32 0x00000000#32) reducesTo_S10000x16_S16_d0 h_S_))
    (broadcastInDim S1x16 ![] bcast_S_S1x16 (constant S_ .f32 0x461C4000#32))

/-- selu: `scale · where (p > 0, p, alpha · expm1 (where (p > 0, 0, p)))`. -/
def stD (p : Tn F S1x16) : Tn F S1x16 :=
  mulf (broadcastInDim S1x16 ![] bcast_S_S1x16 (constant S_ .f32 0x3F867D5F#32))
    (select (cmpf .ogt p (broadcastInDim S1x16 ![] bcast_S_S1x16 (constant S_ .f32 0x00000000#32))) p
      (mulf (broadcastInDim S1x16 ![] bcast_S_S1x16 (constant S_ .f32 0x3FD62D7D#32))
        (Host.expm1
          (select (cmpf .ogt p (broadcastInDim S1x16 ![] bcast_S_S1x16 (constant S_ .f32 0x00000000#32)))
            (broadcastInDim S1x16 ![] bcast_S_S1x16 (constant S_ .f32 0x00000000#32)) p))))

/-- The mix: `s + half · (sub · fwᵀ + fb)`. -/
def stE (s : Tn F S1x16) (sub : Tn F S1x256) (fw : Tn F S16x256) (fb : Tn F S16) : Tn F S1x16 :=
  addf s
    (mulf (broadcastInDim S1x16 ![] bcast_S_S1x16 (constant S_ .f32 0x3F000000#32))
      (addf
        (Host.dotGeneral dot_S1x256_S256x16_S1x16_1_0_0_1_n_n none sub
          (transpose S256x16 [1, 0] fw transposes_S16x256_S256x16_1_0))
        (broadcastInDim S1x16 ![1] bcast_S16_S1x16_1 fb)))

/-- The row maximum of log-softmax's argument, repeated along the row. -/
def stFmax (o : Tn F S1x16) : Tn F S1x16 :=
  broadcastInDim S1x16 ![0, 1] bcast_S1x1_S1x16_0_1
    (broadcastInDim S1x1 ![0] bcast_S1_S1x1_0
      (maximumf (broadcastInDim S1 ![] bcast_S_S1 (constant S_ .f32 0xFF800000#32))
        (Host.reduce FloatOps.maximumf o (constant S_ .f32 0xFF800000#32) reducesTo_S1x16_S1_d1 h_S_)))

/-- log-softmax: `(o − max o) − log Σ exp (o − max o)`. -/
def stF (o : Tn F S1x16) : Tn F S1x16 :=
  subf (subf o (stFmax o))
    (broadcastInDim S1x16 ![0, 1] bcast_S1x1_S1x16_0_1
      (Host.log
        (broadcastInDim S1x1 ![0] bcast_S1_S1x1_0
          (Host.reduceAdd (Host.exp (subf o (stFmax o))) (constant S_ .f32 0x00000000#32) reducesTo_S1x16_S1_d1 h_S_))))

/-- The result as a function of the nine arguments. -/
def res (x : Tn F S10000x128) (adj : Tn F S10000x10000) (sub : Tn F S1x256) (w1 : Tn F S128x64) (b1 : Tn F S64)
    (w2 : Tn F S64x16) (b2 : Tn F S16) (fw : Tn F S16x256) (fb : Tn F S16) : Tn F S1x16 :=
  stF (stE (stD (stC (stB (stA x adj w1 b1) adj w2 b2))) sub fw fb)

/-! ## Each stretch's result -/

theorem valA (V : Valuation τ sig (Elt F)) :
    after opsA V (main_v5 : DevRef τ sig) = stA (V (main_arg0 : DevRef τ sig)) (V (main_arg1 : DevRef τ sig)) (V (main_arg3 : DevRef τ sig)) (V (main_arg4 : DevRef τ sig)) := by
  after_results_simp
  rfl

theorem valB (V : Valuation τ sig (Elt F)) :
    after opsB V (main_v11 : DevRef τ sig) = stB (V (main_v5 : DevRef τ sig)) (V (main_arg1 : DevRef τ sig)) (V (main_arg5 : DevRef τ sig)) (V (main_arg6 : DevRef τ sig)) := by
  after_results_simp
  rfl

theorem valC (V : Valuation τ sig (Elt F)) : after opsC V (main_v15 : DevRef τ sig) = stC (V (main_v11 : DevRef τ sig)) := by
  after_results_simp
  rfl

theorem valD (V : Valuation τ sig (Elt F)) : after opsD V (main_v16 : DevRef τ sig) = stD (V (main_v15 : DevRef τ sig)) := by
  after_results_simp
  rfl

theorem valE (V : Valuation τ sig (Elt F)) :
    after opsE V (main_v23 : DevRef τ sig) = stE (V (main_v16 : DevRef τ sig)) (V (main_arg2 : DevRef τ sig)) (V (main_arg7 : DevRef τ sig)) (V (main_arg8 : DevRef τ sig)) := by
  after_results_simp
  rfl

theorem valF (V : Valuation τ sig (Elt F)) : after opsF V (main_v24 : DevRef τ sig) = stF (V (main_v23 : DevRef τ sig)) := by
  after_results_simp
  rfl

/-- The whole line's result: the stages composed over the arguments' contents. -/
theorem value_eq (V : Valuation τ sig (Elt F)) :
    after ops V (main_v24 : DevRef τ sig)
      = res (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) := by
  rw [after_ops, valF, valE, valD, valC, valB, valA,
    keepD _ (r := main_arg2) (by decide), keepC _ (r := main_arg2) (by decide), keepB _ (r := main_arg2) (by decide), keepA _ (r := main_arg2) (by decide),
    keepD _ (r := main_arg7) (by decide), keepC _ (r := main_arg7) (by decide), keepB _ (r := main_arg7) (by decide), keepA _ (r := main_arg7) (by decide),
    keepD _ (r := main_arg8) (by decide), keepC _ (r := main_arg8) (by decide), keepB _ (r := main_arg8) (by decide), keepA _ (r := main_arg8) (by decide),
    keepA _ (r := main_arg1) (by decide), keepA _ (r := main_arg5) (by decide), keepA _ (r := main_arg6) (by decide)]
  rfl

/-- On every device, for any float values, from any memory with zero counters: every weakly fair execution of @main
    terminates with the result buffer at the stages composed over the arguments' launch contents, and the
    arguments unchanged. -/
theorem run_res (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
        = res (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v24).trans (value_eq _),
      (h c main_arg0).trans (keep _ (by decide)), (h c main_arg1).trans (keep _ (by decide)),
      (h c main_arg2).trans (keep _ (by decide)), (h c main_arg3).trans (keep _ (by decide)),
      (h c main_arg4).trans (keep _ (by decide)), (h c main_arg5).trans (keep _ (by decide)),
      (h c main_arg6).trans (keep _ (by decide)), (h c main_arg7).trans (keep _ (by decide)),
      (h c main_arg8).trans (keep _ (by decide))⟩)
    (run_after m ρ)

end Cert.ReferenceIdeal.Hand

end
-- ==== Proof.Ref.Stages.lean ====
/-
  The reference's stages read at an index, at the extended reals.

  Each stage of the reference's line is a composition of host operations; read at one index it is the
  textbook formula: a matrix product is the sum over the contracted coordinate, a bias laid out as a row and
  repeated down the rows is the bias entry of the column, a reduction along one axis is the sum (or the
  supremum) over that axis, a division by the constant 10000 is the product with its reciprocal, selu's two
  selects are the case split on the sign of the argument.
-/
import proofs.«165518_g91036126806365_cont_sun_c4_16_3_alg».proof.Proof.Ref.Run
import proofs.«165518_g91036126806365_cont_sun_c4_16_3_alg».proof.Proof.Spec
import proofs.«165518_g91036126806365_cont_sun_c4_16_3_alg».proof.Proof.LibTileMatmul
import proofs.«165518_g91036126806365_cont_sun_c4_16_3_alg».proof.Proof.LibMaxReduce
import Idealize.ShloMosaic.Lib.IdealHost
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx Idealize.ShloMosaic.TileMatmul

/-! ## Layouts and constants -/

/-- A vector laid out as a one-row table reads, at the row's coordinate and column j, the vector's entry j. -/
theorem row_of_vec_read {n : ℕ} (hn : n ≠ 1) {α : Type}
    (hb : (⟨1, ![n]⟩ : Shape).BroadcastsInDim ⟨2, ![1, n]⟩ ![1])
    (b : (⟨1, ![n]⟩ : Shape).Idx → α) (u : Fin 1) (j : Fin n) :
    broadcastInDim ⟨2, ![1, n]⟩ ![1] hb b (ix2 u j) = b (ix1 j) := by
  refine broadcastInDim_apply _ hb b (ix2 u j) (ix1 j) fun a => ?_
  match a with
  | ⟨0, _⟩ => exact (if_neg hn).symm

/-- … and repeated down m rows, at row i and column j, still the entry j. -/
theorem bias_rows_read {m n : ℕ} (hn : n ≠ 1) {α : Type}
    (hb1 : (⟨1, ![n]⟩ : Shape).BroadcastsInDim ⟨2, ![1, n]⟩ ![1])
    (hb2 : (⟨2, ![1, n]⟩ : Shape).BroadcastsInDim ⟨2, ![m, n]⟩ ![0, 1])
    (b : (⟨1, ![n]⟩ : Shape).Idx → α) (i : Fin m) (j : Fin n) :
    broadcastInDim ⟨2, ![m, n]⟩ ![0, 1] hb2 (broadcastInDim ⟨2, ![1, n]⟩ ![1] hb1 b) (ix2 i j) = b (ix1 j) := by
  refine (broadcastInDim_apply _ hb2 _ (ix2 i j) (ix2 (0 : Fin 1) j) fun a => ?_).trans (row_of_vec_read hn hb1 b 0 j)
  match a with
  | ⟨0, _⟩ => exact (if_pos rfl).symm
  | ⟨1, _⟩ => exact (if_neg hn).symm

/-- The zero word repeated over any shape reads zero. -/
theorem zero_splat_read {T : Shape} (h : (⟨0, ![]⟩ : Shape).BroadcastsInDim T ![]) (j : T.Idx) :
    broadcastInDim T ![] h (constant (F := Ideal) ⟨0, ![]⟩ .f32 0x00000000#32) j = (0 : EReal) :=
  (broadcastInDim_scalar_apply h _ j).trans Ideal.ofBits_zero_f32

/-- A word repeated over any shape reads the extended real the word denotes. -/
theorem splat_read {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-- The word of the constant 10000 denotes the real 10000. -/
theorem ofBits_10000 : Ideal.ofBits .f32 0x461C4000#32 = ((10000 : ℝ) : EReal) := by
  simp [Ideal.ofBits, Ideal.ieee, -EReal.coe_mul]; norm_num

/-! ## A graph-convolution layer -/

/-- `max (adj · (h · w) + b, 0)` at row i, column j. -/
theorem layer_read {k n : ℕ} (hn : n ≠ 1)
    (wg : DotDims.WF ⟨2, ![10000, k]⟩ ⟨2, ![k, n]⟩ ⟨2, ![10000, n]⟩ [1] [0] [0] [1] [] [])
    (wa : DotDims.WF ⟨2, ![10000, 10000]⟩ ⟨2, ![10000, n]⟩ ⟨2, ![10000, n]⟩ [1] [0] [0] [1] [] [])
    (hb1 : (⟨1, ![n]⟩ : Shape).BroadcastsInDim ⟨2, ![1, n]⟩ ![1])
    (hb2 : (⟨2, ![1, n]⟩ : Shape).BroadcastsInDim ⟨2, ![10000, n]⟩ ![0, 1])
    (hb0 : (⟨0, ![]⟩ : Shape).BroadcastsInDim ⟨2, ![10000, n]⟩ ![])
    (h : FVec Ideal ⟨2, ![10000, k]⟩ .f32) (adj : FVec Ideal ⟨2, ![10000, 10000]⟩ .f32)
    (w : FVec Ideal ⟨2, ![k, n]⟩ .f32) (b : FVec Ideal ⟨1, ![n]⟩ .f32) (i : Fin 10000) (j : Fin n) :
    maximumf
        (addf (Host.dotGeneral (F := Ideal) (plainDims wa) none adj (Host.dotGeneral (F := Ideal) (plainDims wg) none h w))
          (broadcastInDim ⟨2, ![10000, n]⟩ ![0, 1] hb2 (broadcastInDim ⟨2, ![1, n]⟩ ![1] hb1 b)))
        (broadcastInDim ⟨2, ![10000, n]⟩ ![] hb0 (constant (F := Ideal) ⟨0, ![]⟩ .f32 0x00000000#32)) (ix2 i j)
      = Cert.Spec.layer adj (fun k' j' => ∑ l : Fin k, h (ix2 k' l) * w (ix2 l j')) b i j := by
  show max (Host.dotGeneral (F := Ideal) (plainDims wa) none adj (Host.dotGeneral (F := Ideal) (plainDims wg) none h w) (ix2 i j)
        + broadcastInDim ⟨2, ![10000, n]⟩ ![0, 1] hb2 (broadcastInDim ⟨2, ![1, n]⟩ ![1] hb1 b) (ix2 i j))
      (broadcastInDim ⟨2, ![10000, n]⟩ ![] hb0 (constant (F := Ideal) ⟨0, ![]⟩ .f32 0x00000000#32) (ix2 i j))
    = max ((∑ k' : Fin 10000, adj (ix2 i k') * ∑ l : Fin k, h (ix2 k' l) * w (ix2 l j)) + b (ix1 j)) 0
  rw [dotGeneral_apply, bias_rows_read hn, zero_splat_read]
  refine congrArg (fun s => max (s + b (ix1 j)) 0) (Finset.sum_congr rfl fun k' _ => ?_)
  rw [dotGeneral_apply]

/-- The first layer at row i, column j. -/
theorem stA_read (x : Tn Ideal S10000x128) (adj : Tn Ideal S10000x10000) (w1 : Tn Ideal S128x64) (b1 : Tn Ideal S64)
    (i : Fin 10000) (j : Fin 64) : stA x adj w1 b1 (ix2 i j) = Cert.Spec.h1 x adj w1 b1 i j :=
  layer_read (by decide) _ _ _ _ _ x adj w1 b1 i j

/-- The second layer at row i, column j, over any first-layer array h. -/
theorem stB_read (h : Tn Ideal S10000x64) (adj : Tn Ideal S10000x10000) (w2 : Tn Ideal S64x16) (b2 : Tn Ideal S16)
    (i : Fin 10000) (j : Fin 16) :
    stB h adj w2 b2 (ix2 i j) = Cert.Spec.layer adj (Cert.Spec.hw (fun k l => h (ix2 k l)) w2) b2 i j :=
  layer_read (by decide) _ _ _ _ _ h adj w2 b2 i j

/-! ## The pooling -/

/-- Dropping axis 0 of a 10000 × 16 table leaves its 16 columns; dropping axis 1 of a 1 × 16 table its one row. -/
theorem reduces_cols : S10000x16.Reduces [0] S16 := by decide
theorem reduces_row : S1x16.Reduces [1] S1 := by decide

/-- Column j's index with the row coordinate k put back is (k, j). -/
theorem lift_cols (j : Fin 16) (k : Fin 10000) : reduces_cols.lift (ix1 j) k = ix2 k j := by
  funext a
  match a with
  | ⟨0, _⟩ => exact Fin.ext rfl
  | ⟨1, _⟩ => exact Fin.ext rfl

/-- Row u's index with the column coordinate k put back is (u, k). -/
theorem lift_row (u : Fin 1) (k : Fin 16) : reduces_row.lift (ix1 u) k = ix2 u k := by
  funext a
  match a with
  | ⟨0, _⟩ => exact Fin.ext rfl
  | ⟨1, _⟩ => exact Fin.ext rfl

/-- The column sums from zero. -/
theorem colsum_read (h : Tn Ideal S10000x16) (j : Fin 16) :
    Host.reduceAdd h (constant (F := Ideal) S_ .f32 0x00000000#32) reducesTo_S10000x16_S16_d0 h_S_ (ix1 j)
      = ∑ i : Fin 10000, h (ix2 i j) := by
  refine (Ideal.hostReduceAdd_single reducesTo_S10000x16_S16_d0 reduces_cols h _ (ix1 j)).trans ?_
  show Ideal.ofBits .f32 0x00000000#32 + ∑ k : Fin 10000, h (reduces_cols.lift (ix1 j) k) = ∑ i : Fin 10000, h (ix2 i j)
  rw [Ideal.ofBits_zero_f32, zero_add]
  exact Finset.sum_congr rfl fun k _ => congrArg h (lift_cols j k)

/-- The row sum from zero. -/
theorem rowsum_read (e : Tn Ideal S1x16) (u : Fin 1) :
    Host.reduceAdd e (constant (F := Ideal) S_ .f32 0x00000000#32) reducesTo_S1x16_S1_d1 h_S_ (ix1 u)
      = ∑ k : Fin 16, e (ix2 u k) := by
  refine (Ideal.hostReduceAdd_single reducesTo_S1x16_S1_d1 reduces_row e _ (ix1 u)).trans ?_
  show Ideal.ofBits .f32 0x00000000#32 + ∑ k : Fin 16, e (reduces_row.lift (ix1 u) k) = ∑ k : Fin 16, e (ix2 u k)
  rw [Ideal.ofBits_zero_f32, zero_add]
  exact Finset.sum_congr rfl fun k _ => congrArg e (lift_row u k)

/-- The pooled mean at column j: the column sum times one ten-thousandth. -/
theorem stC_read (h : Tn Ideal S10000x16) (u : Fin 1) (j : Fin 16) :
    stC h (ix2 u j) = (∑ i : Fin 10000, h (ix2 i j)) * ((1 / 10000 : ℝ) : EReal) := by
  show Ideal.div
      (broadcastInDim S1x16 ![1] bcast_S16_S1x16_1
        (Host.reduceAdd h (constant (F := Ideal) S_ .f32 0x00000000#32) reducesTo_S10000x16_S16_d0 h_S_) (ix2 u j))
      (broadcastInDim S1x16 ![] bcast_S_S1x16 (constant (F := Ideal) S_ .f32 0x461C4000#32) (ix2 u j)) = _
  rw [row_of_vec_read (by decide), splat_read, ofBits_10000, colsum_read, Ideal.div_coe (by norm_num)]

/-! ## selu -/

/-- selu at one entry: the case split on the sign of the argument. -/
theorem stD_read (p : Tn Ideal S1x16) (i : S1x16.Idx) :
    stD p i = Cert.Spec.cScale * (if 0 < p i then p i else Cert.Spec.cAlpha * (Ideal.exp (p i) - 1)) := by
  unfold stD
  simp only [mulf_apply, select_apply, cmpf_apply, Ideal.cmpf_def, Host.expm1, Ideal.hostUnary_expm1_def]
  rw [splat_read, splat_read, splat_read, Ideal.ofBits_zero_f32]
  by_cases hp : 0 < p i
  · have hc : Ideal.cmp .ogt (p i) 0 = 1#1 := by simp [Ideal.cmp, hp]
    rw [hc, select_one, if_pos hp]
  · have hc : Ideal.cmp .ogt (p i) 0 = 0#1 := by simp [Ideal.cmp, hp]
    rw [hc, select_zero, select_zero, if_neg hp]

/-! ## The dense side branch and the mix -/

theorem stE_read (s : Tn Ideal S1x16) (sub : Tn Ideal S1x256) (fw : Tn Ideal S16x256) (fb : Tn Ideal S16) (u : Fin 1) (j : Fin 16) :
    stE s sub fw fb (ix2 u j)
      = s (ix2 u j) + Cert.Spec.cHalf * ((∑ q : Fin 256, sub (ix2 u q) * fw (ix2 j q)) + fb (ix1 j)) := by
  show s (ix2 u j) + (broadcastInDim S1x16 ![] bcast_S_S1x16 (constant (F := Ideal) S_ .f32 0x3F000000#32) (ix2 u j))
      * (Host.dotGeneral (F := Ideal) dot_S1x256_S256x16_S1x16_1_0_0_1_n_n none sub
            (transpose S256x16 [1, 0] fw transposes_S16x256_S256x16_1_0) (ix2 u j)
          + broadcastInDim S1x16 ![1] bcast_S16_S1x16_1 fb (ix2 u j)) = _
  rw [splat_read, row_of_vec_read (by decide)]
  refine congrArg (fun t => s (ix2 u j) + Cert.Spec.cHalf * (t + fb (ix1 j))) ?_
  refine (dotGeneral_apply _ none sub _ u j).trans (Finset.sum_congr rfl fun q _ => ?_)
  refine congrArg (sub (ix2 u q) * ·) (transpose_apply [1, 0] fw transposes_S16x256_S256x16_1_0 (ix2 q j) (ix2 j q) fun b => ?_)
  match b with
  | ⟨0, _⟩ => rfl
  | ⟨1, _⟩ => rfl

/-! ## log-softmax -/

/-- A 1 × 1 table repeated along a row reads its one entry. -/
theorem unit_to_row_read {α : Type} (x : S1x1.Idx → α) (i : S1x16.Idx) :
    broadcastInDim S1x16 ![0, 1] bcast_S1x1_S1x16_0_1 x i = x (ix2 (0 : Fin 1) (0 : Fin 1)) := by
  refine broadcastInDim_apply _ bcast_S1x1_S1x16_0_1 x i (ix2 (0 : Fin 1) (0 : Fin 1)) fun a => ?_
  match a with
  | ⟨0, _⟩ => exact (if_pos rfl).symm
  | ⟨1, _⟩ => exact (if_pos rfl).symm

/-- A one-entry vector laid out as a 1 × 1 table reads its entry. -/
theorem vec1_to_unit_read {α : Type} (x : S1.Idx → α) :
    broadcastInDim S1x1 ![0] bcast_S1_S1x1_0 x (ix2 (0 : Fin 1) (0 : Fin 1)) = x (ix1 (0 : Fin 1)) := by
  refine broadcastInDim_apply _ bcast_S1_S1x1_0 x (ix2 (0 : Fin 1) (0 : Fin 1)) (ix1 (0 : Fin 1)) fun a => ?_
  match a with
  | ⟨0, _⟩ => exact (if_pos rfl).symm

/-- The row maximum, wherever it is read: the supremum of the row (the maximum with -∞ changes nothing). -/
theorem stFmax_read (o : Tn Ideal S1x16) (i : S1x16.Idx) : stFmax o i = ⨆ k : Fin 16, o (ix2 (0 : Fin 1) k) := by
  unfold stFmax
  rw [unit_to_row_read, vec1_to_unit_read]
  show max (broadcastInDim S1 ![] bcast_S_S1 (constant (F := Ideal) S_ .f32 0xFF800000#32) (ix1 (0 : Fin 1)))
      (Host.reduce FloatOps.maximumf o (constant (F := Ideal) S_ .f32 0xFF800000#32) reducesTo_S1x16_S1_d1 h_S_ (ix1 (0 : Fin 1))) = _
  rw [splat_read, Ideal.ofBits_negInf_f32,
    Ideal.hostReduce_maximumf_single_iSup o reducesTo_S1x16_S1_d1 reduces_row h_S_ (ix1 (0 : Fin 1)), max_eq_right bot_le]
  exact iSup_congr fun k => congrArg o (lift_row 0 k)

/-- log-softmax at column j. -/
theorem stF_read (o : Tn Ideal S1x16) (u : Fin 1) (j : Fin 16) :
    stF o (ix2 u j) = Cert.Spec.logSoftmax (fun k => o (ix2 (0 : Fin 1) k)) j := by
  obtain rfl : u = 0 := Subsingleton.elim _ _
  have hE : ∀ k : Fin 16, Host.exp (subf o (stFmax o)) (ix2 (0 : Fin 1) k)
      = Ideal.exp (o (ix2 (0 : Fin 1) k) - ⨆ k' : Fin 16, o (ix2 (0 : Fin 1) k')) := fun k => by
    show Ideal.exp (o (ix2 (0 : Fin 1) k) - stFmax o (ix2 (0 : Fin 1) k)) = _
    rw [stFmax_read]
  show (o (ix2 (0 : Fin 1) j) - stFmax o (ix2 (0 : Fin 1) j))
      - broadcastInDim S1x16 ![0, 1] bcast_S1x1_S1x16_0_1
          (Host.log (broadcastInDim S1x1 ![0] bcast_S1_S1x1_0
            (Host.reduceAdd (Host.exp (subf o (stFmax o))) (constant (F := Ideal) S_ .f32 0x00000000#32) reducesTo_S1x16_S1_d1 h_S_)))
          (ix2 (0 : Fin 1) j) = _
  rw [unit_to_row_read, stFmax_read]
  show _ - Ideal.log (broadcastInDim S1x1 ![0] bcast_S1_S1x1_0
      (Host.reduceAdd (Host.exp (subf o (stFmax o))) (constant (F := Ideal) S_ .f32 0x00000000#32) reducesTo_S1x16_S1_d1 h_S_)
      (ix2 (0 : Fin 1) (0 : Fin 1))) = _
  rw [vec1_to_unit_read, rowsum_read, Finset.sum_congr rfl fun k _ => hE k]
  rfl

end Cert.ReferenceIdeal.Hand

end
-- ==== Proof.Ref.Value.lean ====
/-
  The reference's result is the network of the specification.

  The stages composed, read index by index: log-softmax of the logits; the logits are selu of the pooled mean of
  the second layer's activations plus half the dense side branch; the second layer's activations are the layer
  formula over the first layer's.  With the run, this gives the reference's half of the certificate: every
  weakly fair execution of the reference ends with its result buffer at the specification's output and its
  arguments unchanged.
-/
import proofs.«165518_g91036126806365_cont_sun_c4_16_3_alg».proof.Proof.Ref.Run
import proofs.«165518_g91036126806365_cont_sun_c4_16_3_alg».proof.Proof.Ref.Stages
import proofs.«165518_g91036126806365_cont_sun_c4_16_3_alg».proof.Proof.Spec

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx

/-- The column sums of the second stage over the first are the specification's. -/
theorem colsum_stages (x : Tn Ideal S10000x128) (adj : Tn Ideal S10000x10000) (w1 : Tn Ideal S128x64) (b1 : Tn Ideal S64)
    (w2 : Tn Ideal S64x16) (b2 : Tn Ideal S16) (k : Fin 16) :
    (∑ i : Fin 10000, stB (stA x adj w1 b1) adj w2 b2 (ix2 i k))
      = Cert.Spec.colsum (Cert.Spec.h2 x adj w1 b1 w2 b2) k := by
  refine Finset.sum_congr rfl fun i _ => ?_
  rw [stB_read]
  refine congrArg (fun g => Cert.Spec.layer adj (Cert.Spec.hw g w2) b2 i k) ?_
  funext a l
  exact stA_read x adj w1 b1 a l

/-- The composed stages are the specification's network, entry by entry. -/
theorem res_eq (x : Tn Ideal S10000x128) (adj : Tn Ideal S10000x10000) (sub : Tn Ideal S1x256) (w1 : Tn Ideal S128x64)
    (b1 : Tn Ideal S64) (w2 : Tn Ideal S64x16) (b2 : Tn Ideal S16) (fw : Tn Ideal S16x256) (fb : Tn Ideal S16) :
    res x adj sub w1 b1 w2 b2 fw fb = Cert.Spec.out x adj sub w1 b1 w2 b2 fw fb := by
  funext i
  obtain ⟨u, j, rfl⟩ : ∃ (u : Fin 1) (j : Fin 16), i = ix2 u j := ⟨i 0, i 1, eq_ix2 i⟩
  unfold res
  rw [stF_read]
  show _ = Cert.Spec.logSoftmax (Cert.Spec.logit (Cert.Spec.colsum (Cert.Spec.h2 x adj w1 b1 w2 b2)) sub fw fb) j
  refine congrArg (fun o => Cert.Spec.logSoftmax o j) (funext fun k => ?_)
  rw [stE_read, stD_read, stC_read, colsum_stages]
  rfl

/-- On every device, at the extended reals, from any memory with zero counters: every weakly fair execution of the
    reference terminates with its result buffer at the specification's output of the arguments' launch contents,
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24)
        = Cert.Spec.out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (res_eq _ _ _ _ _ _ _ _ _), (h c).2⟩) (run_res m ρ)

end Cert.ReferenceIdeal.Hand

end
-- ==== Proof.lean ====
/-
  The certificate of a two-layer graph convolution with a pooled, mixed and log-softmaxed head, computed by two
  pipelined kernels (layer 1, then layer 2 with the head in the last grid step) against the plain array program.

  Frames.  Each kernel region is run block by block; what a region's scratch buffers hold between blocks is carried
  in the region's invariant (the product `x · W1`, resp. `h1 · W2` and the running column sums), so every block's
  run is a statement about named contents, the program terminates without a fault, and no argument array is
  written.  The same text proves the word-level and the idealized kernel programs.  The array program's run is its
  list of operations applied in order.

  Values.  On the extended reals both programs compute `Cert.Spec.out`: a row block of a matrix product is the rows
  of the whole product; the column sums taken block by block add up to the column sums over all rows (addition of
  extended reals is commutative and associative; nothing has to be finite); the mean as a product with `1/10000` —
  the kernel's literal is named that rational — is the quotient by `10000`; `exp p − 1` is `expm1 p`; and the two
  log-softmax spellings read the same maximum and the same sum.
-/
import proofs.«165518_g91036126806365_cont_sun_c4_16_3_alg».proof.Defs
import proofs.«165518_g91036126806365_cont_sun_c4_16_3_alg».proof.Proof.Gen.Kernel
import proofs.«165518_g91036126806365_cont_sun_c4_16_3_alg».proof.Proof.Gen.KernelIdeal
import proofs.«165518_g91036126806365_cont_sun_c4_16_3_alg».proof.Proof.Gen.ReferenceIdeal
import proofs.«165518_g91036126806365_cont_sun_c4_16_3_alg».proof.Proof.Gen.Pre_finite_inputs
import proofs.«165518_g91036126806365_cont_sun_c4_16_3_alg».proof.Proof.K.Frame
import proofs.«165518_g91036126806365_cont_sun_c4_16_3_alg».proof.Proof.KI.Final
import proofs.«165518_g91036126806365_cont_sun_c4_16_3_alg».proof.Proof.Ref.Value
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ =>
  (θ_run Cert.Kernel.defs _ _).mono (fun _ h c => (h c).2) (Cert.Kernel.Hand.run (F := Bits) m ρ)

/-- The idealized kernel program runs and leaves its arguments as launched. -/
theorem frame_ki : Cert.frame_KernelIdeal := fun m ρ _ =>
  (θ_run Cert.KernelIdeal.defs _ _).mono (fun _ h c => (h c).2) (Cert.KernelIdeal.Hand.run (F := Ideal) m ρ)

/-- The array program runs and leaves its arguments as launched. -/
theorem frame_ri : Cert.frame_ReferenceIdeal := fun m ρ _ =>
  (θ_run Cert.ReferenceIdeal.defs _ _).mono (fun _ h c => (h c).2) (Cert.ReferenceIdeal.Hand.run m ρ)

/-- The one rewrite of the idealization: the literal `f32(1/10000)` is named the rational `1/10000`. -/
theorem preserves : Cert.preserves_Kernel_KernelIdeal :=
  IdealRules.named_const.statement Cert.KernelIdeal.κ "inv_10000" .f32 0x38D1B717#32 ((1 / 10000 : ℝ) : EReal) rfl

/-- On the extended reals both programs end with `Cert.Spec.out` of the arguments in their result arrays. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun _ h c => ⟨(h c).1.trans (Cert.KernelIdeal.Hand.result_eq m ρ c), (h c).2⟩)
      (Cert.KernelIdeal.Hand.run (F := Ideal) m ρ)
  · refine (θ_run Cert.ReferenceIdeal.defs _ _).mono (fun _ h c => ⟨(h c).1.trans ?_, (h c).2⟩) (Cert.ReferenceIdeal.Hand.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
